-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x2x1024 : Shape := ⟨4, ![4, 512, 2, 1024]⟩
abbrev S4x512x2 : Shape := ⟨3, ![4, 512, 2]⟩
abbrev S4 : Shape := ⟨1, ![4]⟩
abbrev S32000x1024 : Shape := ⟨2, ![32000, 1024]⟩
abbrev S32000 : Shape := ⟨1, ![32000]⟩
abbrev S_ : Shape := ⟨0, ![]⟩

class Facts : Prop where
  bcast_S_S4x512x2x1024 : S_.BroadcastsInDim S4x512x2x1024 (![] : Fin 0 → Fin S4x512x2x1024.rank)
  reducesTo_S4x512x2x1024_S_d0_1_2_3 : S4x512x2x1024.ReducesTo [0, 1, 2, 3] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S32000 : S_.BroadcastsInDim S32000 (![] : Fin 0 → Fin S32000.rank)
  reducesTo_S32000_S_d0 : S32000.ReducesTo [0] S_

variable [Facts]

def fn {F : FTy → Type} [FloatOps F] (main_arg0 : FVec F S4x512x2x1024 .f32) (main_arg1 : IVec S4x512x2 32) (main_arg2 : IVec S4 32) (main_arg3 : FVec F S32000x1024 .f32) (main_arg4 : FVec F S32000 .f32) : IVec S_ 1 :=
  let main_v0 : FVec F S4x512x2x1024 .f32 := Host.absf main_arg0
  let main_cst : FVec F S_ .f32 := constant S_ .f32 0x7F800000#32
  let main_v1 : FVec F S4x512x2x1024 .f32 := broadcastInDim S4x512x2x1024 ![] bcast_S_S4x512x2x1024 main_cst
  let main_v2 : IVec S4x512x2x1024 1 := cmpf .olt main_v0 main_v1
  let main_c : IVec S_ 1 := constantI S_ 1 1#1
  let main_v3 : IVec S_ 1 := (fun x v => Host.reduce IntOp.andi x v reducesTo_S4x512x2x1024_S_d0_1_2_3 h_S_) main_v2 main_c
  let main_v4 : FVec F S32000x1024 .f32 := Host.absf main_arg3
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S32000 .f32 := Host.absf main_arg4
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  main_v13
-- ==== Kernel.lean ====
abbrev S4x512x2x1024 : Shape := ⟨4, ![4, 512, 2, 1024]⟩
abbrev S4x512x2 : Shape := ⟨3, ![4, 512, 2]⟩
abbrev S4 : Shape := ⟨1, ![4]⟩
abbrev S32000x1024 : Shape := ⟨2, ![32000, 1024]⟩
abbrev S32000 : Shape := ⟨1, ![32000]⟩
abbrev S_ : Shape := ⟨0, ![]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S4x512x1 : Shape := ⟨3, ![4, 512, 1]⟩
abbrev S4096x1024 : Shape := ⟨2, ![4096, 1024]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x32000 : Shape := ⟨2, ![1, 32000]⟩
abbrev S32x128 : Shape := ⟨2, ![32, 128]⟩
abbrev S1024x1024 : Shape := ⟨2, ![1024, 1024]⟩
abbrev S1280x1024 : Shape := ⟨2, ![1280, 1024]⟩
abbrev S1x1280 : Shape := ⟨2, ![1, 1280]⟩
abbrev S1024x1 : Shape := ⟨2, ![1024, 1]⟩
abbrev S8x128 : Shape := ⟨2, ![8, 128]⟩
abbrev S1024x1280 : Shape := ⟨2, ![1024, 1280]⟩
abbrev S1024 : Shape := ⟨1, ![1024]⟩
abbrev S4x8x128 : Shape := ⟨3, ![4, 8, 128]⟩
abbrev S4x1x1 : Shape := ⟨3, ![4, 1, 1]⟩

abbrev nBuf : Space → Nat
  | .hbm => 90
  | .vmem => 16
  | .smem => 0
  | _ => 0

abbrev bufTy : (tb : Table) → Fin (tcTables nBuf tb) → BufTy
  | .hbm, ⟨0, _⟩ => ⟨S4x512x2x1024, .f32⟩
  | .hbm, ⟨1, _⟩ => ⟨S4x512x2, .i32⟩
  | .hbm, ⟨2, _⟩ => ⟨S4, .i32⟩
  | .hbm, ⟨3, _⟩ => ⟨S32000x1024, .f32⟩
  | .hbm, ⟨4, _⟩ => ⟨S32000, .f32⟩
  | .hbm, ⟨5, _⟩ => ⟨S_, .i32⟩
  | .hbm, ⟨6, _⟩ => ⟨S4x512x2, .i32⟩
  | .hbm, ⟨7, _⟩ => ⟨S4x512x2, .i1⟩
  | .hbm, ⟨8, _⟩ => ⟨S512, .i32⟩
  | .hbm, ⟨9, _⟩ => ⟨S1x512, .i32⟩
  | .hbm, ⟨10, _⟩ => ⟨S4x1, .i32⟩
  | .hbm, ⟨11, _⟩ => ⟨S4x512, .i32⟩
  | .hbm, ⟨12, _⟩ => ⟨S4x512, .i32⟩
  | .hbm, ⟨13, _⟩ => ⟨S4x512, .i1⟩
  | .hbm, ⟨14, _⟩ => ⟨S4x512x1, .i1⟩
  | .hbm, ⟨15, _⟩ => ⟨S4x512x2, .i1⟩
  | .hbm, ⟨16, _⟩ => ⟨S4x512x2, .i1⟩
  | .hbm, ⟨17, _⟩ => ⟨S4x512x2, .f32⟩
  | .hbm, ⟨18, _⟩ => ⟨S4096x1024, .f32⟩
  | .hbm, ⟨19, _⟩ => ⟨S4096, .i32⟩
  | .hbm, ⟨20, _⟩ => ⟨S4096x1, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S1, .i32⟩
  | .hbm, ⟨30, _⟩ => ⟨S_, .i32⟩
  | .hbm, ⟨31, _⟩ => ⟨S4096x1, .i32⟩
  | .hbm, ⟨32, _⟩ => ⟨S4096x1, .i1⟩
  | .hbm, ⟨33, _⟩ => ⟨S1x1, .i32⟩
  | .hbm, ⟨34, _⟩ => ⟨S4096x1, .i32⟩
  | .hbm, ⟨35, _⟩ => ⟨S4096x1, .i1⟩
  | .hbm, ⟨36, _⟩ => ⟨S4096x1, .i1⟩
  | .hbm, ⟨37, _⟩ => ⟨S_, .i1⟩
  | .hbm, ⟨38, _⟩ => ⟨S4096, .i1⟩
  | .hbm, ⟨39, _⟩ => ⟨S4096x1024, .f32⟩
  | .hbm, ⟨40, _⟩ => ⟨S4096x1024, .i1⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S1x1, .i32⟩
  | .hbm, ⟨57, _⟩ => ⟨S4096x1, .i32⟩
  | .hbm, ⟨58, _⟩ => ⟨S4096x1, .i1⟩
  | .hbm, ⟨59, _⟩ => ⟨S4096x1, .i1⟩
  | .hbm, ⟨60, _⟩ => ⟨S_, .i1⟩
  | .hbm, ⟨61, _⟩ => ⟨S4096, .i1⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1024, .bf16⟩
  | .hbm, ⟨73, _⟩ => ⟨S32000x1024, .bf16⟩
  | .hbm, ⟨74, _⟩ => ⟨S1x32000, .f32⟩
  | .hbm, ⟨75, _⟩ => ⟨S32x128, .f32⟩
  | .hbm, ⟨76, _⟩ => ⟨S32x128, .f32⟩
  | .hbm, ⟨77, _⟩ => ⟨S4x8x128, .f32⟩
  | .hbm, ⟨78, _⟩ => ⟨S4x1x1, .f32⟩
  | .hbm, ⟨79, _⟩ => ⟨S4, .f32⟩
  | .hbm, ⟨80, _⟩ => ⟨S4x8x128, .f32⟩
  | .hbm, ⟨81, _⟩ => ⟨S4x1x1, .f32⟩
  | .hbm, ⟨82, _⟩ => ⟨S4, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1x1280, .f32⟩
  | .local _ .vmem, ⟨5, _⟩ => ⟨S1x1280, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S1024x1, .f32⟩
  | .local _ .vmem, ⟨15, _⟩ => ⟨S1024x1, .f32⟩
  | _, _ => ⟨S4x512x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v15 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v16 : Ref sig .tc := ⟨.hbm, 65, rfl⟩
abbrev main_v17 : Ref sig .tc := ⟨.hbm, 66, rfl⟩
abbrev main_cst : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25_0 : Ref sig .tc := ⟨.hbm, 75, rfl⟩
abbrev main_v25_1 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_0 : Ref sig .tc := ⟨.hbm, 83, rfl⟩
abbrev main_v32 : Ref sig .tc := ⟨.hbm, 84, rfl⟩
abbrev main_cst_1 : Ref sig .tc := ⟨.hbm, 85, rfl⟩
abbrev main_v33 : Ref sig .tc := ⟨.hbm, 86, rfl⟩
abbrev main_cst_2 : Ref sig .tc := ⟨.hbm, 87, rfl⟩
abbrev main_v34 : Ref sig .tc := ⟨.hbm, 88, rfl⟩
abbrev main_v35 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v32 : BitVec 1 := Scalar.cmpi .eq arg1 c24_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S4x512x2 : S_.BroadcastsInDim S4x512x2 (![] : Fin 0 → Fin S4x512x2.rank)
  bcast_S512_S1x512_1 : S512.BroadcastsInDim S1x512 (![1] : Fin 1 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  bcast_S4x512_S4x512x1_0_1 : S4x512.BroadcastsInDim S4x512x1 (![0, 1] : Fin 2 → Fin S4x512x1.rank)
  bcast_S4x512x1_S4x512x2_0_1_2 : S4x512x1.BroadcastsInDim S4x512x2 (![0, 1, 2] : Fin 3 → Fin S4x512x2.rank)
  shapeCasts_S4x512x2x1024_S4096x1024 : S4x512x2x1024.ShapeCasts S4096x1024
  shapeCasts_S4x512x2_S4096 : S4x512x2.ShapeCasts S4096
  shapeCasts_S4x512x2_S4096x1 : S4x512x2.ShapeCasts S4096x1
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  reducesTo_S4096x1024_S4096_d1 : S4096x1024.ReducesTo [1] S4096
  bitsLt_bf16_f32 : FTy.bits .bf16 < FTy.bits .f32
  shapeCasts_S32000_S1x32000 : S32000.ShapeCasts S1x32000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  reduces_S1024x1280_S1024 : S1024x1280.Reduces [1] S1024
  shapeCasts_S1024_S1024x1 : S1024.ShapeCasts S1024x1
  broadcasts_S1024x1_S1024x1280 : S1024x1.Broadcasts S1024x1280
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S32x128_S4x8x128 : S32x128.ShapeCasts S4x8x128
  slices_S4x8x128_S4x1x1_0_0_0 : S4x8x128.Slices ![0, 0, 0] S4x1x1
  shapeCasts_S4x1x1_S4 : S4x1x1.ShapeCasts S4
  reducesTo_S4_S_d0 : S4.ReducesTo [0] S_
  gather_S32000x1024_S4096x1_S4096x1024_1_0_n_n_0_1_11024_wf : GatherDims.WF S32000x1024 S4096x1 S4096x1024 [1] [0] [] [0] [] 1 ![1, 1024]
  gather_S32000_S4096x1_S4096_n_0_n_n_0_1_1_wf : GatherDims.WF S32000 S4096x1 S4096 [] [0] [] [0] [] 1 ![1]
  dot_S1024x1024_S1280x1024_S1024x1280_1_1_0_0_n_n_wf : DotDims.WF S1024x1024 S1280x1024 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .bf16 = 32 ∨ (Rect.block (s := S32000x1024) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S32x128.size a
  hwx0_5 : ∀ i : grid0.Coords, EltTy.bits .f32 = 32 ∨ (Rect.block (s := S32x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S32x128.size a
  hwx0_6 : ∀ i : grid0.Coords, EltTy.bits .f32 = 32 ∨ (Rect.block (s := S32x128) S8x128.size (cc0_transform_6 i) (hinb0_6 i)).WholeWords (EltTy.packing .f32)

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def gather_S32000_S4096x1_S4096_n_0_n_n_0_1_1 : GatherDims S32000 S4096x1 S4096 where
  offsetDims := []
  collapsedSliceDims := [0]
  operandBatchingDims := []
  startIndicesBatchingDims := []
  startIndexMap := [0]
  indexVectorDim := 1
  sliceSizes := ![1]
  wf := gather_S32000_S4096x1_S4096_n_0_n_n_0_1_1_wf
def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf

abbrev win0_0 : Pipeline.Window sig grid0 :=
  Pipeline.Window.ofSpec (Memref.whole main_v22) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x512x2x1024 : Shape := ⟨4, ![4, 512, 2, 1024]⟩
abbrev S4x512x2 : Shape := ⟨3, ![4, 512, 2]⟩
abbrev S4 : Shape := ⟨1, ![4]⟩
abbrev S32000x1024 : Shape := ⟨2, ![32000, 1024]⟩
abbrev S32000 : Shape := ⟨1, ![32000]⟩
abbrev S_ : Shape := ⟨0, ![]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S4x512x1 : Shape := ⟨3, ![4, 512, 1]⟩
abbrev S4x512x2x32000 : Shape := ⟨4, ![4, 512, 2, 32000]⟩
abbrev S1x1x1x32000 : Shape := ⟨4, ![1, 1, 1, 32000]⟩
abbrev S4x512x2x1 : Shape := ⟨4, ![4, 512, 2, 1]⟩
abbrev S4x512x2x1x1 : Shape := ⟨5, ![4, 512, 2, 1, 1]⟩
abbrev S1 : Shape := ⟨1, ![1]⟩
abbrev S1x1x1x1x1 : Shape := ⟨5, ![1, 1, 1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x512x2x1024, .f32⟩
  | .hbm, ⟨1, _⟩ => ⟨S4x512x2, .i32⟩
  | .hbm, ⟨2, _⟩ => ⟨S4, .i32⟩
  | .hbm, ⟨3, _⟩ => ⟨S32000x1024, .f32⟩
  | .hbm, ⟨4, _⟩ => ⟨S32000, .f32⟩
  | .hbm, ⟨5, _⟩ => ⟨S_, .i32⟩
  | .hbm, ⟨6, _⟩ => ⟨S4x512x2, .i32⟩
  | .hbm, ⟨7, _⟩ => ⟨S4x512x2, .i1⟩
  | .hbm, ⟨8, _⟩ => ⟨S512, .i32⟩
  | .hbm, ⟨9, _⟩ => ⟨S1x512, .i32⟩
  | .hbm, ⟨10, _⟩ => ⟨S4x1, .i32⟩
  | .hbm, ⟨11, _⟩ => ⟨S4x512, .i32⟩
  | .hbm, ⟨12, _⟩ => ⟨S4x512, .i32⟩
  | .hbm, ⟨13, _⟩ => ⟨S4x512, .i1⟩
  | .hbm, ⟨14, _⟩ => ⟨S4x512x1, .i1⟩
  | .hbm, ⟨15, _⟩ => ⟨S4x512x2, .i1⟩
  | .hbm, ⟨16, _⟩ => ⟨S4x512x2, .i1⟩
  | .hbm, ⟨17, _⟩ => ⟨S4x512x2x32000, .f32⟩
  | .hbm, ⟨18, _⟩ => ⟨S1x1x1x32000, .f32⟩
  | .hbm, ⟨19, _⟩ => ⟨S4x512x2x32000, .f32⟩
  | .hbm, ⟨20, _⟩ => ⟨S4x512x2x32000, .f32⟩
  | .hbm, ⟨21, _⟩ => ⟨S_, .f32⟩
  | .hbm, ⟨22, _⟩ => ⟨S4x512x2, .f32⟩
  | .hbm, ⟨23, _⟩ => ⟨S_, .f32⟩
  | .hbm, ⟨24, _⟩ => ⟨S4x512x2, .f32⟩
  | .hbm, ⟨25, _⟩ => ⟨S4x512x2, .f32⟩
  | .hbm, ⟨26, _⟩ => ⟨S4x512x2x1, .f32⟩
  | .hbm, ⟨27, _⟩ => ⟨S4x512x2x32000, .f32⟩
  | .hbm, ⟨28, _⟩ => ⟨S4x512x2x32000, .f32⟩
  | .hbm, ⟨29, _⟩ => ⟨S4x512x2x32000, .f32⟩
  | .hbm, ⟨30, _⟩ => ⟨S_, .f32⟩
  | .hbm, ⟨31, _⟩ => ⟨S4x512x2, .f32⟩
  | .hbm, ⟨32, _⟩ => ⟨S4x512x2x1, .f32⟩
  | .hbm, ⟨33, _⟩ => ⟨S4x512x2x1, .f32⟩
  | .hbm, ⟨34, _⟩ => ⟨S4x512x2x32000, .f32⟩
  | .hbm, ⟨35, _⟩ => ⟨S4x512x2x32000, .f32⟩
  | .hbm, ⟨36, _⟩ => ⟨S4x512x2x1, .i32⟩
  | .hbm, ⟨37, _⟩ => ⟨S_, .i32⟩
  | .hbm, ⟨38, _⟩ => ⟨S4x512x2x1, .i32⟩
  | .hbm, ⟨39, _⟩ => ⟨S4x512x2x1, .i1⟩
  | .hbm, ⟨40, _⟩ => ⟨S_, .i32⟩
  | .hbm, ⟨41, _⟩ => ⟨S4x512x2x1, .i32⟩
  | .hbm, ⟨42, _⟩ => ⟨S4x512x2x1, .i32⟩
  | .hbm, ⟨43, _⟩ => ⟨S4x512x2x1, .i32⟩
  | .hbm, ⟨44, _⟩ => ⟨S4x512x2x1x1, .i32⟩
  | .hbm, ⟨45, _⟩ => ⟨S1, .i32⟩
  | .hbm, ⟨46, _⟩ => ⟨S_, .i32⟩
  | .hbm, ⟨47, _⟩ => ⟨S4x512x2x1x1, .i32⟩
  | .hbm, ⟨48, _⟩ => ⟨S4x512x2x1x1, .i1⟩
  | .hbm, ⟨49, _⟩ => ⟨S1x1x1x1x1, .i32⟩
  | .hbm, ⟨50, _⟩ => ⟨S4x512x2x1x1, .i32⟩
  | .hbm, ⟨51, _⟩ => ⟨S4x512x2x1x1, .i1⟩
  | .hbm, ⟨52, _⟩ => ⟨S4x512x2x1x1, .i1⟩
  | .hbm, ⟨53, _⟩ => ⟨S_, .i1⟩
  | .hbm, ⟨54, _⟩ => ⟨S4x512x2x1, .i1⟩
  | .hbm, ⟨55, _⟩ => ⟨S4x512x2x1, .f32⟩
  | .hbm, ⟨56, _⟩ => ⟨S_, .f32⟩
  | .hbm, ⟨57, _⟩ => ⟨S4x512x2x1, .f32⟩
  | .hbm, ⟨58, _⟩ => ⟨S4x512x2x1, .f32⟩
  | .hbm, ⟨59, _⟩ => ⟨S4x512x2, .f32⟩
  | .hbm, ⟨60, _⟩ => ⟨S4x512x2, .f32⟩
  | .hbm, ⟨61, _⟩ => ⟨S4x512x2, .f32⟩
  | .hbm, ⟨62, _⟩ => ⟨S4x512x2, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4x512x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_call0_cst_0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_cst_1 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_v15 : Ref sig .tc := ⟨.hbm, 35, rfl⟩
abbrev main_v16 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst : Ref sig .tc := ⟨.hbm, 63, rfl⟩
abbrev main_v22 : Ref sig .tc := ⟨.hbm, 64, rfl⟩
abbrev main_cst_0 : Ref sig .tc := ⟨.hbm, 65, rfl⟩
abbrev main_v23 : Ref sig .tc := ⟨.hbm, 66, rfl⟩
abbrev main_cst_1 : Ref sig .tc := ⟨.hbm, 67, rfl⟩
abbrev main_v24 : Ref sig .tc := ⟨.hbm, 68, rfl⟩
abbrev main_v25 : Ref sig .tc := ⟨.hbm, 69, rfl⟩

abbrev nD : Nat := 1
abbrev τ : Topo := Topo.v7x

variable {F : FTy → Type} [FloatOps F]

class Facts₀ : Prop where
  bcast_S_S4x512x2 : S_.BroadcastsInDim S4x512x2 (![] : Fin 0 → Fin S4x512x2.rank)
  bcast_S512_S1x512_1 : S512.BroadcastsInDim S1x512 (![1] : Fin 1 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  bcast_S4x512_S4x512x1_0_1 : S4x512.BroadcastsInDim S4x512x1 (![0, 1] : Fin 2 → Fin S4x512x1.rank)
  bcast_S4x512x1_S4x512x2_0_1_2 : S4x512x1.BroadcastsInDim S4x512x2 (![0, 1, 2] : Fin 3 → Fin S4x512x2.rank)
  bcast_S32000_S1x1x1x32000_3 : S32000.BroadcastsInDim S1x1x1x32000 (![3] : Fin 1 → Fin S1x1x1x32000.rank)
  bcast_S1x1x1x32000_S4x512x2x32000_0_1_2_3 : S1x1x1x32000.BroadcastsInDim S4x512x2x32000 (![0, 1, 2, 3] : Fin 4 → Fin S4x512x2x32000.rank)
  reducesTo_S4x512x2x32000_S4x512x2_d3 : S4x512x2x32000.ReducesTo [3] S4x512x2
  h_S_ : 0 < S_.numel
  bcast_S4x512x2_S4x512x2x1_0_1_2 : S4x512x2.BroadcastsInDim S4x512x2x1 (![0, 1, 2] : Fin 3 → Fin S4x512x2x1.rank)
  bcast_S4x512x2x1_S4x512x2x32000_0_1_2_3 : S4x512x2x1.BroadcastsInDim S4x512x2x32000 (![0, 1, 2, 3] : Fin 4 → Fin S4x512x2x32000.rank)
  bcast_S_S4x512x2x1 : S_.BroadcastsInDim S4x512x2x1 (![] : Fin 0 → Fin S4x512x2x1.rank)
  shapeCasts_S4x512x2x1_S4x512x2x1x1 : S4x512x2x1.ShapeCasts S4x512x2x1x1
  bcast_S_S4x512x2x1x1 : S_.BroadcastsInDim S4x512x2x1x1 (![] : Fin 0 → Fin S4x512x2x1x1.rank)
  bcast_S1_S1x1x1x1x1_4 : S1.BroadcastsInDim S1x1x1x1x1 (![4] : Fin 1 → Fin S1x1x1x1x1.rank)
  bcast_S1x1x1x1x1_S4x512x2x1x1_0_1_2_3_4 : S1x1x1x1x1.BroadcastsInDim S4x512x2x1x1 (![0, 1, 2, 3, 4] : Fin 5 → Fin S4x512x2x1x1.rank)
  reducesTo_S4x512x2x1x1_S4x512x2x1_d4 : S4x512x2x1x1.ReducesTo [4] S4x512x2x1
  shapeCasts_S4x512x2x1_S4x512x2 : S4x512x2x1.ShapeCasts S4x512x2
  reducesTo_S4x512x2_S_d0_1_2 : S4x512x2.ReducesTo [0, 1, 2] S_
  dot_S4x512x2x1024_S32000x1024_S4x512x2x32000_3_1_012_0_n_n_wf : DotDims.WF S4x512x2x1024 S32000x1024 S4x512x2x32000 [3] [1] [0, 1, 2] [0] [] []
  gather_S4x512x2x32000_S4x512x2x1x1_S4x512x2x1_n_3_012_012_3_4_1111_wf : GatherDims.WF S4x512x2x32000 S4x512x2x1x1 S4x512x2x1 [] [3] [0, 1, 2] [3] [0, 1, 2] 4 ![1, 1, 1, 1]

variable [Facts₀]

def dot_S4x512x2x1024_S32000x1024_S4x512x2x32000_3_1_012_0_n_n : DotDims S4x512x2x1024 S32000x1024 S4x512x2x32000 where
  lhsContracting := [3]
  rhsContracting := [1]
  lhsNonContracting := [0, 1, 2]
  rhsNonContracting := [0]
  lhsBatch := []
  rhsBatch := []
  wf := dot_S4x512x2x1024_S32000x1024_S4x512x2x32000_3_1_012_0_n_n_wf
def gather_S4x512x2x32000_S4x512x2x1x1_S4x512x2x1_n_3_012_012_3_4_1111 : GatherDims S4x512x2x32000 S4x512x2x1x1 S4x512x2x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x512x2x32000_S4x512x2x1x1_S4x512x2x1_n_3_012_012_3_4_1111_wf

class Facts : Prop extends Facts₀ where

variable [Facts]
-- ==== Proof.BodyCases.lean ====
/-
  What one run of the kernel body leaves behind, case by case, as the body's own arithmetic.

  The body keeps, per row of its row tile, a running maximum `m` and a running sum `l` of exponentials in two scratch
  buffers that live across the vocabulary chunks of the tile. At a chunk it forms the tile's logits against the
  chunk's 1280 classes, takes the new maximum `m' = max m (max of the chunk)` and the new sum
  `l' = exp (m - m') * l + Σ exp (logit - m')`, and stores both back. At the tile's first chunk it first stores
  `m = -∞`, `l = 0`; at the last chunk it also writes the tile's two partial sums, the weighted losses
  `Σ ((m' + log l') - target logit) * weight` and the weights `Σ weight`, each spread over an 8×128 block.
  Every store covers its buffer whole, so what a buffer holds afterwards is the stored value itself.
-/
import proofs.«148193_j6347961663553_2_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- The maximum a chunk leaves: the old one against the chunk's row maxima. -/
abbrev newMax (x0 : Vec F S1024x1024 .bf16) (x1 : Vec F S1280x1024 .bf16) (x2 : Vec F S1x1280 .f32) (mOld : Vec F S1024x1 .f32) :
    Vec F S1024x1 .f32 := k0_pay9 x0 x1 x2 mOld

/-- The sum a chunk leaves: the old one rescaled to the new maximum, plus the chunk's exponentials. -/
abbrev newSum (x0 : Vec F S1024x1024 .bf16) (x1 : Vec F S1280x1024 .bf16) (x2 : Vec F S1x1280 .f32) (mOld lOld : Vec F S1024x1 .f32) :
    Vec F S1024x1 .f32 := k0_pay8 x0 x1 x2 mOld lOld

/-- What the first chunk stores before it reads the running maximum: `-∞` in every row. -/
abbrev initMax : Vec F S1024x1 .f32 := k0_pay4

/-- What the first chunk stores before it reads the running sum: `0` in every row. -/
abbrev initSum : Vec F S1024x1 .f32 := k0_pay5

/-- The block of weighted losses the last chunk writes, from the final maximum and sum, the target logits and the weights. -/
abbrev lossBlock (mFin lFin tgt wgt : Vec F S1024x1 .f32) : Vec F S8x128 .f32 := k0_pay2 mFin lFin tgt wgt

/-- The block of weights the last chunk writes. -/
abbrev weightBlock (wgt : Vec F S1024x1 .f32) : Vec F S8x128 .f32 := k0_pay3 wgt

/-- The first chunk stores `-∞`, reads it back as the old maximum, and leaves the new maximum. -/
theorem max_A (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x1024 .bf16) (x1 : Vec F S1280x1024 .bf16) (x2 : Vec F S1x1280 .f32) (x3 : Vec F S1024x1 .f32) (x4 : Vec F S1024x1 .f32) :
    sout0_A_0 c i arg2 harg2 arg3 harg3 arg4 harg4 arg5 harg5 arg6 harg6 arg7 harg7 arg8 harg8 arg9 harg9 arg10 harg10 hc0 hc1 x0 x1 x2 x3 x4 = newMax x0 x1 x2 initMax := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
/-- The first chunk stores `-∞` and `0`, reads them back as the old maximum and sum, and leaves the new sum. -/
theorem sum_A (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x1024 .bf16) (x1 : Vec F S1280x1024 .bf16) (x2 : Vec F S1x1280 .f32) (x3 : Vec F S1024x1 .f32) (x4 : Vec F S1024x1 .f32) :
    sout0_A_1 c i arg2 harg2 arg3 harg3 arg4 harg4 arg5 harg5 arg6 harg6 arg7 harg7 arg8 harg8 arg9 harg9 arg10 harg10 hc0 hc1 x0 x1 x2 x3 x4 = newSum x0 x1 x2 initMax initSum := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz, View.readCov_unit_zero (S := S1024x1) _ hz,
    View.readCov_unit_zero (S := S1024x1) _ hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
/-- A middle chunk leaves the new maximum in the first scratch buffer. -/
theorem max_B (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x1024 .bf16) (x1 : Vec F S1280x1024 .bf16) (x2 : Vec F S1x1280 .f32) (x3 : Vec F S1024x1 .f32) (x4 : Vec F S1024x1 .f32) (xs0 : Vec F S1024x1 .f32) (xs1 : Vec F S1024x1 .f32) :
    sout0_B_0 c i arg2 harg2 arg3 harg3 arg4 harg4 arg5 harg5 arg6 harg6 arg7 harg7 arg8 harg8 arg9 harg9 arg10 harg10 hc0 hc1 x0 x1 x2 x3 x4 xs0 xs1 = newMax x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
/-- A middle chunk leaves the new sum in the second scratch buffer. -/
theorem sum_B (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x1024 .bf16) (x1 : Vec F S1280x1024 .bf16) (x2 : Vec F S1x1280 .f32) (x3 : Vec F S1024x1 .f32) (x4 : Vec F S1024x1 .f32) (xs0 : Vec F S1024x1 .f32) (xs1 : Vec F S1024x1 .f32) :
    sout0_B_1 c i arg2 harg2 arg3 harg3 arg4 harg4 arg5 harg5 arg6 harg6 arg7 harg7 arg8 harg8 arg9 harg9 arg10 harg10 hc0 hc1 x0 x1 x2 x3 x4 xs0 xs1 = newSum x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
/-- The last chunk leaves the new maximum in the first scratch buffer. -/
theorem max_C (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x1024 .bf16) (x1 : Vec F S1280x1024 .bf16) (x2 : Vec F S1x1280 .f32) (x3 : Vec F S1024x1 .f32) (x4 : Vec F S1024x1 .f32) (xs0 : Vec F S1024x1 .f32) (xs1 : Vec F S1024x1 .f32) :
    sout0_C_0 c i arg2 harg2 arg3 harg3 arg4 harg4 arg5 harg5 arg6 harg6 arg7 harg7 arg8 harg8 arg9 harg9 arg10 harg10 hc0 hc1 x0 x1 x2 x3 x4 xs0 xs1 = newMax x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
/-- The last chunk leaves the new sum in the second scratch buffer. -/
theorem sum_C (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x1024 .bf16) (x1 : Vec F S1280x1024 .bf16) (x2 : Vec F S1x1280 .f32) (x3 : Vec F S1024x1 .f32) (x4 : Vec F S1024x1 .f32) (xs0 : Vec F S1024x1 .f32) (xs1 : Vec F S1024x1 .f32) :
    sout0_C_1 c i arg2 harg2 arg3 harg3 arg4 harg4 arg5 harg5 arg6 harg6 arg7 harg7 arg8 harg8 arg9 harg9 arg10 harg10 hc0 hc1 x0 x1 x2 x3 x4 xs0 xs1 = newSum x0 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
/-- The last chunk reads the maximum and sum it has just stored and writes the tile's block of weighted losses. -/
theorem loss_C (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x1024 .bf16) (x1 : Vec F S1280x1024 .bf16) (x2 : Vec F S1x1280 .f32) (x3 : Vec F S1024x1 .f32) (x4 : Vec F S1024x1 .f32) (xs0 : Vec F S1024x1 .f32) (xs1 : Vec F S1024x1 .f32) :
    out0_C_5 c i arg2 harg2 arg3 harg3 arg4 harg4 arg5 harg5 arg6 harg6 arg7 harg7 arg8 harg8 arg9 harg9 arg10 harg10 hc0 hc1 x0 x1 x2 x3 x4 xs0 xs1 = lossBlock (newMax x0 x1 x2 xs0) (newSum x0 x1 x2 xs0 xs1) x3 x4 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz, View.readCov_unit_zero (S := S1024x1) _ hz, View.readCov_unit_zero (S := S1024x1) _ hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
/-- The last chunk writes the tile's block of weights. -/
theorem weight_C (c : Dev nD) (i : grid0.Coords) (arg2 : Memref sig .tc .vmem S1024x1024 .bf16) (harg2 : arg2.IsWhole) (arg3 : Memref sig .tc .vmem S1280x1024 .bf16) (harg3 : arg3.IsWhole) (arg4 : Memref sig .tc .vmem S1x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x1024 .bf16) (x1 : Vec F S1280x1024 .bf16) (x2 : Vec F S1x1280 .f32) (x3 : Vec F S1024x1 .f32) (x4 : Vec F S1024x1 .f32) (xs0 : Vec F S1024x1 .f32) (xs1 : Vec F S1024x1 .f32) :
    out0_C_6 c i arg2 harg2 arg3 harg3 arg4 harg4 arg5 harg5 arg6 harg6 arg7 harg7 arg8 harg8 arg9 harg9 arg10 harg10 hc0 hc1 x0 x1 x2 x3 x4 xs0 xs1 = weightBlock x4 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, View.ld_unit_zero (S := S1024x1024) hz, View.ld_unit_zero (S := S1280x1024) hz, View.ld_unit_zero (S := S1x1280) hz, View.ld_unit_zero (S := S1024x1) hz]
end Cert.KernelIdeal.Body

end
-- ==== Proof.BodyValue.lean ====
/-
  The body's arithmetic read one element at a time, over the extended reals.

  For a row `i` of the row tile and a class `j` of the vocabulary chunk the body's logit is the inner product of the
  tile's row with the chunk's class row, plus the class's bias. The new maximum of row `i` is the old one against the
  largest of the chunk's logits in that row; the new sum is the old sum rescaled from the old maximum to the new one,
  plus the chunk's exponentials taken against the new maximum. The last chunk's two blocks hold, in every entry, the
  tile's sum of `((max + log sum) - target logit) * weight` and the tile's sum of weights.
-/
import proofs.«148193_j6347961663553_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Idealize.ShloMosaic Idealize.ShloMosaic.TcCoe Idealize.ShloMosaic.ValueIdx
open Cert.KernelIdeal Cert.KernelIdeal.Gen

/-- The contraction of a 1024×1024 tile against a 1280×1024 chunk along their second axes. -/
abbrev tileDot := dot_S1024x1024_S1280x1024_S1024x1280_1_1_0_0_n_n

theorem lhs_row (j : S1024x1280.Idx) (q : tileDot.contr.Idx) : (tileDot.lhsIdx j q 0).val = (j 0).val := by
  unfold DotDims.lhsIdx
  rw [dif_neg (show ¬(0 : Fin S1024x1024.rank) ∈ tileDot.lhsBatch by decide), dif_pos (show (0 : Fin S1024x1024.rank) ∈ tileDot.lhsNonContracting by decide)]
  rfl

theorem lhs_inner (j : S1024x1280.Idx) (q : tileDot.contr.Idx) : (tileDot.lhsIdx j q 1).val = (q ⟨0, by decide⟩).val :=
  tileDot.lhsIdx_val_of_single rfl j q

theorem rhs_row (j : S1024x1280.Idx) (q : tileDot.contr.Idx) : (tileDot.rhsIdx j q 0).val = (j 1).val := by
  unfold DotDims.rhsIdx
  rw [dif_neg (show ¬(0 : Fin S1280x1024.rank) ∈ tileDot.rhsBatch by decide), dif_pos (show (0 : Fin S1280x1024.rank) ∈ tileDot.rhsNonContracting by decide)]
  rfl

theorem rhs_inner (j : S1024x1280.Idx) (q : tileDot.contr.Idx) : (tileDot.rhsIdx j q 1).val = (q ⟨0, by decide⟩).val :=
  tileDot.rhsIdx_val_of_single rfl j q

/-- The matrix product into a zero accumulator, at row `i` and class `j`: the inner product of the two rows. -/
theorem matmul_at (x0 : FVec Ideal S1024x1024 .bf16) (x1 : FVec Ideal S1280x1024 .bf16) (i : Fin 1024) (j : Fin 1280) :
    FloatOps.matmul tileDot none x0 x1 (constant (F := Ideal) S1024x1280 .f32 0x00000000#32) (ix2 i j)
      = ∑ k : Fin 1024, x0 (ix2 i k) * x1 (ix2 j k) := by
  rw [Ideal.matmul_constant_zero_apply, ← Equiv.sum_comp (contrEquiv1 tileDot 1024 rfl rfl).symm]
  refine Finset.sum_congr rfl fun k _ => ?_
  have hk := contrEquiv1_symm_val tileDot 1024 rfl rfl k
  have el : tileDot.lhsIdx (ix2 i j) ((contrEquiv1 tileDot 1024 rfl rfl).symm k) = ix2 i k := funext fun a => Fin.ext (by
    match a with
    | ⟨0, _⟩ => exact lhs_row _ _
    | ⟨1, _⟩ => exact (lhs_inner _ _).trans hk)
  have er : tileDot.rhsIdx (ix2 i j) ((contrEquiv1 tileDot 1024 rfl rfl).symm k) = ix2 j k := funext fun a => Fin.ext (by
    match a with
    | ⟨0, _⟩ => exact rhs_row _ _
    | ⟨1, _⟩ => exact (rhs_inner _ _).trans hk)
  rw [el, er]

/-- The logit of row `i` against class `j` of the chunk. -/
def chunkLogit (x0 : FVec Ideal S1024x1024 .bf16) (x1 : FVec Ideal S1280x1024 .bf16) (x2 : FVec Ideal S1x1280 .f32)
    (i : Fin 1024) (j : Fin 1280) : EReal :=
  (∑ k : Fin 1024, x0 (ix2 i k) * x1 (ix2 j k)) + x2 (ix2 (0 : Fin 1) j)

/-- The body's logits, element by element. -/
theorem logits_at (x0 : FVec Ideal S1024x1024 .bf16) (x1 : FVec Ideal S1280x1024 .bf16) (x2 : FVec Ideal S1x1280 .f32)
    (i : Fin 1024) (j : Fin 1280) :
    k0_pay6 (F := Ideal) x0 x1 x2 (ix2 i j) = chunkLogit x0 x1 x2 i j := by
  unfold k0_pay6 chunkLogit
  simp only [shapeCast_self, matmul]
  rw [addf_apply, matmul_at]
  refine congrArg _ ?_
  exact broadcastTo_apply _ _ (ix2 i j) (ix2 (0 : Fin 1) j) (fun a => by
    match a with
    | ⟨0, _⟩ => rfl
    | ⟨1, _⟩ => rfl)

/-- The word the running maximum starts from is `-∞`. -/
theorem ofBits_neg_inf : Ideal.ofBits .f32 0xFF800000#32 = ⊥ := by simp [Ideal.ofBits, Ideal.ieee]

/-- A column `[1024]` seen as `[1024, 1]` reads, at row `i`, the column's entry `i`. -/
theorem column_at {α : Type} (v : S1024.Idx → α) (h : S1024.ShapeCasts S1024x1) (i : Fin 1024) :
    shapeCast S1024x1 v h (ix2 i (0 : Fin 1)) = v (ix1 i) :=
  shapeCast_apply v h _ _ (by
    rw [Shape.rowMajor_val_two, Shape.rowMajor_val_one]
    show i.val = i.val * 1 + 0
    omega)

/-- A column `[1024, 1]` spread over 1280 classes reads, at `(i, j)`, the column's entry of row `i`. -/
theorem spread_at {α : Type} (v : S1024x1.Idx → α) (h : S1024x1.Broadcasts S1024x1280) (i : Fin 1024) (j : Fin 1280) :
    broadcastTo S1024x1280 v h (ix2 i j) = v (ix2 i (0 : Fin 1)) :=
  broadcastTo_apply v h (ix2 i j) (ix2 i (0 : Fin 1)) (fun a => by
    match a with
    | ⟨0, _⟩ => rfl
    | ⟨1, _⟩ => rfl)

/-- Along the classes, the index the reduction inserts at row `i` is `(i, j)`. -/
theorem lift_class (i : Fin 1024) (j : Fin 1280) : reduces_S1024x1280_S1024.lift (ix1 i) j = ix2 i j :=
  funext fun a => Fin.ext (by
    match a with
    | ⟨0, _⟩ => rfl
    | ⟨1, _⟩ => rfl)

/-- The chunk's largest logit in row `i`, from `-∞`. -/
def chunkMax (x0 : FVec Ideal S1024x1024 .bf16) (x1 : FVec Ideal S1280x1024 .bf16) (x2 : FVec Ideal S1x1280 .f32) (i : Fin 1024) : EReal :=
  (Finset.univ : Finset (Fin 1280)).fold max ⊥ (fun j => chunkLogit x0 x1 x2 i j)

/-- The new maximum of row `i`: the old one against the chunk's. -/
theorem newMax_at (x0 : FVec Ideal S1024x1024 .bf16) (x1 : FVec Ideal S1280x1024 .bf16) (x2 : FVec Ideal S1x1280 .f32)
    (mOld : FVec Ideal S1024x1 .f32) (i : Fin 1024) :
    k0_pay9 (F := Ideal) x0 x1 x2 mOld (ix2 i (0 : Fin 1)) = max (mOld (ix2 i (0 : Fin 1))) (chunkMax x0 x1 x2 i) := by
  unfold k0_pay9 k0_pay7 chunkMax
  simp only [shapeCast_self]
  rw [maximumf_apply, column_at]
  refine congrArg _ ?_
  refine (Ideal.multiReduction_maximumf_single (k0_pay6 (F := Ideal) x0 x1 x2) 0xFF800000#32 reduces_S1024x1280_S1024 (.inl rfl) rfl (ix1 i)).trans ?_
  have e : (k0_pay6 (F := Ideal) x0 x1 x2 ∘ reduces_S1024x1280_S1024.lift (ix1 i)) = fun j : Fin 1280 => chunkLogit x0 x1 x2 i j := by
    funext j
    exact (congrArg (k0_pay6 (F := Ideal) x0 x1 x2) (lift_class i j)).trans (logits_at x0 x1 x2 i j)
  rw [e]
  show Finset.univ.fold max (Ideal.ofBits .f32 0xFF800000#32) _ = _
  rw [ofBits_neg_inf]
  rfl

/-- The new maximum is the stored one: storing it is a cast to its own shape. -/
theorem pay9_eq_pay7 (x0 : FVec Ideal S1024x1024 .bf16) (x1 : FVec Ideal S1280x1024 .bf16) (x2 : FVec Ideal S1x1280 .f32)
    (mOld : FVec Ideal S1024x1 .f32) : k0_pay9 (F := Ideal) x0 x1 x2 mOld = k0_pay7 (F := Ideal) x0 x1 x2 mOld := by
  unfold k0_pay9
  exact shapeCast_self _ _

/-- The new sum of row `i`: the old sum rescaled from the old maximum to the new one, plus the chunk's exponentials
    against the new maximum. -/
theorem newSum_at (x0 : FVec Ideal S1024x1024 .bf16) (x1 : FVec Ideal S1280x1024 .bf16) (x2 : FVec Ideal S1x1280 .f32)
    (mOld lOld : FVec Ideal S1024x1 .f32) (i : Fin 1024) :
    k0_pay8 (F := Ideal) x0 x1 x2 mOld lOld (ix2 i (0 : Fin 1))
      = Ideal.exp (mOld (ix2 i (0 : Fin 1)) - k0_pay9 (F := Ideal) x0 x1 x2 mOld (ix2 i (0 : Fin 1))) * lOld (ix2 i (0 : Fin 1))
        + ∑ j : Fin 1280, Ideal.exp (chunkLogit x0 x1 x2 i j - k0_pay9 (F := Ideal) x0 x1 x2 mOld (ix2 i (0 : Fin 1))) := by
  rw [pay9_eq_pay7]
  unfold k0_pay8
  simp only [shapeCast_self]
  rw [addf_apply, mulf_apply, column_at]
  refine congrArg₂ (· + ·) rfl ?_
  refine (Ideal.multiReduction_add_single _ 0x00000000#32 reduces_S1024x1280_S1024 (.inl rfl) rfl (ix1 i)).trans ?_
  refine Finset.sum_congr rfl fun j _ => ?_
  exact (congrArg _ (lift_class i j)).trans
    (congrArg₂ (fun a b => Ideal.exp (a - b)) (logits_at x0 x1 x2 i j) (spread_at _ _ i j))

/-- Along the rows, the index the reduction inserts into the one-entry result is `(k, 0)`. -/
theorem lift_row (k : Fin 1024) : reduces_S1024x1_S1.lift (ix1 (0 : Fin 1)) k = ix2 k (0 : Fin 1) :=
  funext fun a => Fin.ext (by
    match a with
    | ⟨0, _⟩ => rfl
    | ⟨1, _⟩ => rfl)

/-- One entry spread over an 8×128 block reads that entry everywhere. -/
theorem block_at {α : Type} (v : S1x1.Idx → α) (h : S1x1.Broadcasts S8x128) (a : Fin 8) (b : Fin 128) :
    broadcastTo S8x128 v h (ix2 a b) = v (ix2 (0 : Fin 1) (0 : Fin 1)) :=
  broadcastTo_apply v h (ix2 a b) (ix2 (0 : Fin 1) (0 : Fin 1)) (fun ax => by
    match ax with
    | ⟨0, _⟩ => rfl
    | ⟨1, _⟩ => rfl)

/-- A one-entry vector seen as `[1, 1]` reads its entry. -/
theorem single_at {α : Type} (v : S1.Idx → α) (h : S1.ShapeCasts S1x1) :
    shapeCast S1x1 v h (ix2 (0 : Fin 1) (0 : Fin 1)) = v (ix1 (0 : Fin 1)) :=
  shapeCast_a_1a_apply v h 0 0

/-- Every entry of the block of weights is the tile's sum of weights. -/
theorem weightBlock_at (wgt : FVec Ideal S1024x1 .f32) (a : Fin 8) (b : Fin 128) :
    k0_pay3 (F := Ideal) wgt (ix2 a b) = ∑ k : Fin 1024, wgt (ix2 k (0 : Fin 1)) := by
  unfold k0_pay3 k0_pay1
  simp only [shapeCast_self]
  rw [block_at, single_at]
  refine (Ideal.multiReduction_add_single _ 0x00000000#32 reduces_S1024x1_S1 (.inl rfl) rfl (ix1 (0 : Fin 1))).trans ?_
  refine Finset.sum_congr rfl fun k _ => ?_
  exact congrArg _ (lift_row k)

/-- Every entry of the block of weighted losses is the tile's sum, over its rows, of
    `((max + log sum) - target logit) * weight`. -/
theorem lossBlock_at (mFin lFin tgt wgt : FVec Ideal S1024x1 .f32) (a : Fin 8) (b : Fin 128) :
    k0_pay2 (F := Ideal) mFin lFin tgt wgt (ix2 a b)
      = ∑ k : Fin 1024, ((mFin (ix2 k (0 : Fin 1)) + Ideal.log (lFin (ix2 k (0 : Fin 1)))) - tgt (ix2 k (0 : Fin 1)))
          * wgt (ix2 k (0 : Fin 1)) := by
  unfold k0_pay2 k0_pay1
  simp only [shapeCast_self]
  rw [block_at, single_at]
  refine (Ideal.multiReduction_add_single _ 0x00000000#32 reduces_S1024x1_S1 (.inl rfl) rfl (ix1 (0 : Fin 1))).trans ?_
  refine Finset.sum_congr rfl fun k _ => ?_
  exact congrArg _ (lift_row k)

end Cert.KernelIdeal.BodyValue

end
-- ==== Proof.OnlineDefs.lean ====
/-
  A streaming log-sum-exp over a row of 32000 logits taken 1280 at a time.

  The state is a running maximum and a running sum of exponentials. Before the first chunk they are `-∞` and `0`. A chunk
  replaces the maximum by its maximum with the chunk's largest logit, rescales the sum from the old maximum to the new
  one, and adds the chunk's exponentials taken against the new maximum.
-/
import Idealize.ShloMosaic.PureOps.Ideal

noncomputable section

namespace Cert.Online

open Idealize.ShloMosaic

/-- The largest logit of chunk `n`, from `-∞`. -/
def chunkMax (z : ℕ → EReal) (n : ℕ) : EReal :=
  (Finset.univ : Finset (Fin 1280)).fold max ⊥ (fun j => z (1280 * n + j.val))

/-- The running maximum after `n` chunks. -/
def runMax (z : ℕ → EReal) : ℕ → EReal
  | 0 => ⊥
  | n + 1 => max (runMax z n) (chunkMax z n)

/-- The running sum after `n` chunks. -/
def runSum (z : ℕ → EReal) : ℕ → EReal
  | 0 => 0
  | n + 1 => Ideal.exp (runMax z n - runMax z (n + 1)) * runSum z n
      + ∑ j : Fin 1280, Ideal.exp (z (1280 * n + j.val) - runMax z (n + 1))

end Cert.Online

end
-- ==== Proof.RegionArrays.lean ====
/-
  The five arrays the kernel region reads, as it finds them, and a row's logits over the whole vocabulary.

  When the region is entered the host has already flattened the hidden states to 4096 rows, gathered each row's own
  class weights and bias into its target logit, and turned the mask into a column of weights. A row's logit at a class
  is the inner product of the row with the class's weights, plus the class's bias.
-/
import proofs.«148193_j6347961663553_2_alg».proof.Proof.Gen.KernelIdeal.Frame.Runs
import Idealize.ShloMosaic.Lib.ValueIdx

noncomputable section

namespace Cert.KernelIdeal.Grid

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The region's input arrays, as it finds them -/

/-- The hidden states, one row per (batch entry, time step, head): 4096 rows of 1024. -/
abbrev hiddenArr : FVec Ideal S4096x1024 .bf16 := V m c main_v22
/-- The class weights: 32000 rows of 1024. -/
abbrev weightArr : FVec Ideal S32000x1024 .bf16 := V m c main_v23
/-- The class biases, as one row of 32000. -/
abbrev biasArr : FVec Ideal S1x32000 .f32 := V m c main_v24
/-- Each row's logit at its own label, as a column. -/
abbrev targetArr : FVec Ideal S4096x1 .f32 := V m c main_v21
/-- Each row's weight in the mean, as a column. -/
abbrev keepArr : FVec Ideal S4096x1 .f32 := V m c main_v14

/-- The logit of row `n` of the 4096 against class `v` of the 32000, from the arrays as the region finds them
    (`0` past the last class: never read). -/
def rowLogit (n : Fin 4096) (v : ℕ) : EReal :=
  if hv : v < 32000 then
    (∑ k : Fin 1024, hiddenArr m c (ix2 n k) * weightArr m c (ix2 (⟨v, hv⟩ : Fin 32000) k))
      + biasArr m c (ix2 (0 : Fin 1) (⟨v, hv⟩ : Fin 32000))
  else 0

end Cert.KernelIdeal.Grid

end
-- ==== Proof.GridRun.lean ====
/-
  The grid, point by point: what the two scratch buffers hold after every point.

  The 100 grid points are 4 row tiles of 25 vocabulary chunks each, taken in order: point `n` is chunk `n % 25` of tile
  `n / 25`. The tile's rows are rows `1024 * (n / 25) + i` of the 4096, the chunk's classes are classes
  `1280 * (n % 25) + j` of the 32000. So the body's logit of row `i` against class `j` at point `n` is the row's logit at
  that class of the whole vocabulary, and by induction over the points the scratch buffers hold, after point `n`, the
  streaming maximum and sum of each tile row over the first `n % 25 + 1` chunks — the first chunk of a tile starting
  afresh from `-∞` and `0`.
-/
import proofs.«148193_j6347961663553_2_alg».proof.Proof.BodyCases
import proofs.«148193_j6347961663553_2_alg».proof.Proof.BodyValue
import proofs.«148193_j6347961663553_2_alg».proof.Proof.OnlineDefs
import proofs.«148193_j6347961663553_2_alg».proof.Proof.RegionArrays
import Idealize.ShloMosaic.Lib.Pipeline.Value

set_option maxRecDepth 16384

noncomputable section

namespace Cert.KernelIdeal.Grid

open Idealize.ShloMosaic Idealize.ShloMosaic.TcCoe Idealize.ShloMosaic.ValueIdx Idealize.SL.Sem
open Cert.KernelIdeal Cert.KernelIdeal.Gen Cert.KernelIdeal.Body Cert.KernelIdeal.BodyValue

variable (m : (ℓ : Loc nD τ sig) → Buf (Elt Ideal) ℓ) (c : Dev nD)

/-! ## Where each window's block sits -/

theorem index_hidden : ∀ t : Fin cfg0.N, win0_0.index t 0 = t.val / 25 ∧ win0_0.index t 1 = 0 :=
  (by decide +kernel : ∀ t : Fin grid0.N, win0_0.index t 0 = t.val / 25 ∧ win0_0.index t 1 = 0)
theorem index_weight : ∀ t : Fin cfg0.N, win0_1.index t 0 = t.val % 25 ∧ win0_1.index t 1 = 0 :=
  (by decide +kernel : ∀ t : Fin grid0.N, win0_1.index t 0 = t.val % 25 ∧ win0_1.index t 1 = 0)
theorem index_bias : ∀ t : Fin cfg0.N, win0_2.index t 0 = 0 ∧ win0_2.index t 1 = t.val % 25 :=
  (by decide +kernel : ∀ t : Fin grid0.N, win0_2.index t 0 = 0 ∧ win0_2.index t 1 = t.val % 25)
theorem index_target : ∀ t : Fin cfg0.N, win0_3.index t 0 = t.val / 25 ∧ win0_3.index t 1 = 0 :=
  (by decide +kernel : ∀ t : Fin grid0.N, win0_3.index t 0 = t.val / 25 ∧ win0_3.index t 1 = 0)
theorem index_weightOf : ∀ t : Fin cfg0.N, win0_4.index t 0 = t.val / 25 ∧ win0_4.index t 1 = 0 :=
  (by decide +kernel : ∀ t : Fin grid0.N, win0_4.index t 0 = t.val / 25 ∧ win0_4.index t 1 = 0)

/-- Row `i` of the tile at point `t`, among the 4096 rows. -/
def tileRow (t : Fin cfg0.N) (i : Fin 1024) : Fin 4096 :=
  ⟨1024 * (t.val / 25) + i.val, by have := t.isLt; have hN : cfg0.N = 100 := N_0; have := i.isLt; omega⟩

/-- Class `j` of the chunk at point `t`, among the 32000 classes. -/
def chunkClass (t : Fin cfg0.N) (j : Fin 1280) : Fin 32000 :=
  ⟨1280 * (t.val % 25) + j.val, by have := j.isLt; omega⟩

/-! ## The input blocks, read back to their arrays -/

theorem hidden_blk (t : Fin cfg0.N) (i k : Fin 1024) :
    (iblk m c 0 t : S1024x1024.Idx → EReal) (ix2 i k) = hiddenArr m c (ix2 (tileRow t i) k) := by
  unfold iblk
  rw [View.read_apply]
  show V m c main_v22 _ = V m c main_v22 _
  refine congrArg _ (funext fun a => Fin.ext ?_)
  match a with
  | ⟨0, _⟩ => show win0_0.index t 0 * 1024 + 1 * i.val = 1024 * (t.val / 25) + i.val; rw [(index_hidden t).1]; omega
  | ⟨1, _⟩ => show win0_0.index t 1 * 1024 + 1 * k.val = k.val; rw [(index_hidden t).2]; omega

theorem weight_blk (t : Fin cfg0.N) (j : Fin 1280) (k : Fin 1024) :
    (iblk m c 1 t : S1280x1024.Idx → EReal) (ix2 j k) = weightArr m c (ix2 (chunkClass t j) k) := by
  unfold iblk
  rw [View.read_apply]
  show V m c main_v23 _ = V m c main_v23 _
  refine congrArg _ (funext fun a => Fin.ext ?_)
  match a with
  | ⟨0, _⟩ => show win0_1.index t 0 * 1280 + 1 * j.val = 1280 * (t.val % 25) + j.val; rw [(index_weight t).1]; omega
  | ⟨1, _⟩ => show win0_1.index t 1 * 1024 + 1 * k.val = k.val; rw [(index_weight t).2]; omega

theorem bias_blk (t : Fin cfg0.N) (j : Fin 1280) :
    (iblk m c 2 t : S1x1280.Idx → EReal) (ix2 (0 : Fin 1) j) = biasArr m c (ix2 (0 : Fin 1) (chunkClass t j)) := by
  unfold iblk
  rw [View.read_apply]
  show V m c main_v24 _ = V m c main_v24 _
  refine congrArg _ (funext fun a => Fin.ext ?_)
  match a with
  | ⟨0, _⟩ => show win0_2.index t 0 * 1 + 1 * 0 = 0; rw [(index_bias t).1]
  | ⟨1, _⟩ => show win0_2.index t 1 * 1280 + 1 * j.val = 1280 * (t.val % 25) + j.val; rw [(index_bias t).2]; omega

theorem target_blk (t : Fin cfg0.N) (i : Fin 1024) :
    (iblk m c 3 t : S1024x1.Idx → EReal) (ix2 i (0 : Fin 1)) = targetArr m c (ix2 (tileRow t i) (0 : Fin 1)) := by
  unfold iblk
  rw [View.read_apply]
  show V m c main_v21 _ = V m c main_v21 _
  refine congrArg _ (funext fun a => Fin.ext ?_)
  match a with
  | ⟨0, _⟩ => show win0_3.index t 0 * 1024 + 1 * i.val = 1024 * (t.val / 25) + i.val; rw [(index_target t).1]; omega
  | ⟨1, _⟩ => show win0_3.index t 1 * 1 + 1 * 0 = 0; rw [(index_target t).2]

theorem weightOf_blk (t : Fin cfg0.N) (i : Fin 1024) :
    (iblk m c 4 t : S1024x1.Idx → EReal) (ix2 i (0 : Fin 1)) = keepArr m c (ix2 (tileRow t i) (0 : Fin 1)) := by
  unfold iblk
  rw [View.read_apply]
  show V m c main_v14 _ = V m c main_v14 _
  refine congrArg _ (funext fun a => Fin.ext ?_)
  match a with
  | ⟨0, _⟩ => show win0_4.index t 0 * 1024 + 1 * i.val = 1024 * (t.val / 25) + i.val; rw [(index_weightOf t).1]; omega
  | ⟨1, _⟩ => show win0_4.index t 1 * 1 + 1 * 0 = 0; rw [(index_weightOf t).2]

/-! ## The body's logits are the row's logits -/

/-- At point `t` the body's logit of tile row `i` against chunk class `j` is the row's logit at that class. -/
theorem chunkLogit_blk (t : Fin cfg0.N) (i : Fin 1024) (j : Fin 1280) :
    chunkLogit (iblk m c 0 t) (iblk m c 1 t) (iblk m c 2 t) i j
      = rowLogit m c (tileRow t i) (1280 * (t.val % 25) + j.val) := by
  have hv : 1280 * (t.val % 25) + j.val < 32000 := by have := j.isLt; omega
  unfold chunkLogit rowLogit
  rw [dif_pos hv]
  refine congrArg₂ (fun a b : EReal => a + b) (Finset.sum_congr rfl fun k _ => ?_) ?_
  · exact congrArg₂ (fun a b : EReal => a * b) (hidden_blk m c t i k) (weight_blk m c t j k)
  · exact bias_blk m c t j

/-- So the chunk's largest logit in a tile row is the row's largest over the chunk's classes. -/
theorem chunkMax_blk (t : Fin cfg0.N) (i : Fin 1024) :
    chunkMax (iblk m c 0 t) (iblk m c 1 t) (iblk m c 2 t) i
      = Cert.Online.chunkMax (rowLogit m c (tileRow t i)) (t.val % 25) := by
  unfold chunkMax Cert.Online.chunkMax
  exact congrArg (fun f => (Finset.univ : Finset (Fin 1280)).fold max ⊥ f) (funext fun j => chunkLogit_blk m c t i j)

/-! ## What a chunk does to a row's maximum and sum -/

/-- The step of the streaming maximum, on the blocks of point `t`. -/
theorem step_max (t : Fin cfg0.N) (mOld : FVec Ideal S1024x1 .f32) (i : Fin 1024) (k : ℕ) (hk : t.val % 25 = k)
    (hm : mOld (ix2 i (0 : Fin 1)) = Cert.Online.runMax (rowLogit m c (tileRow t i)) k) :
    newMax (iblk m c 0 t) (iblk m c 1 t) (iblk m c 2 t) mOld (ix2 i (0 : Fin 1))
      = Cert.Online.runMax (rowLogit m c (tileRow t i)) (k + 1) := by
  subst hk
  refine (newMax_at (iblk m c 0 t) (iblk m c 1 t) (iblk m c 2 t) mOld i).trans ?_
  rw [hm, chunkMax_blk]
  rfl

/-- The step of the streaming sum, on the blocks of point `t`. -/
theorem step_sum (t : Fin cfg0.N) (mOld lOld : FVec Ideal S1024x1 .f32) (i : Fin 1024) (k : ℕ) (hk : t.val % 25 = k)
    (hm : mOld (ix2 i (0 : Fin 1)) = Cert.Online.runMax (rowLogit m c (tileRow t i)) k)
    (hl : lOld (ix2 i (0 : Fin 1)) = Cert.Online.runSum (rowLogit m c (tileRow t i)) k) :
    newSum (iblk m c 0 t) (iblk m c 1 t) (iblk m c 2 t) mOld lOld (ix2 i (0 : Fin 1))
      = Cert.Online.runSum (rowLogit m c (tileRow t i)) (k + 1) := by
  have hM := step_max m c t mOld i k hk hm
  subst hk
  refine (newSum_at (iblk m c 0 t) (iblk m c 1 t) (iblk m c 2 t) mOld lOld i).trans ?_
  rw [show k0_pay9 (F := Ideal) (iblk m c 0 t) (iblk m c 1 t) (iblk m c 2 t) mOld (ix2 i (0 : Fin 1))
        = Cert.Online.runMax (rowLogit m c (tileRow t i)) (t.val % 25 + 1) from hM, hm, hl]
  show _ = Ideal.exp _ * _ + _
  refine congrArg₂ (fun a b : EReal => a + b) rfl (Finset.sum_congr rfl fun j _ => ?_)
  rw [chunkLogit_blk]

/-! ## What each kind of point leaves behind -/

/-- The word the running maximum starts from reads `-∞` in every row. -/
theorem initMax_at (i : Fin 1024) : initMax (F := Ideal) (ix2 i (0 : Fin 1)) = ⊥ := by
  unfold initMax k0_pay4
  simp only [shapeCast_self]
  exact ofBits_neg_inf

/-- The word the running sum starts from reads `0` in every row. -/
theorem initSum_at (i : Fin 1024) : initSum (F := Ideal) (ix2 i (0 : Fin 1)) = 0 := by
  unfold initSum k0_pay5
  simp only [shapeCast_self]
  exact Ideal.ofBits_zero_f32

set_option maxHeartbeats 1000000 in
/-- A tile's first chunk: the step from `-∞` and `0`. -/
theorem after_first (t : Fin cfg0.N) (h0 : t.val % 25 = 0) (h1 : ¬t.val % 25 = 24) :
    (outsAt0 m c t.val t.isLt).2.2.1 = newMax (iblk m c 0 t) (iblk m c 1 t) (iblk m c 2 t) initMax
    ∧ (outsAt0 m c t.val t.isLt).2.2.2 = newSum (iblk m c 0 t) (iblk m c 1 t) (iblk m c 2 t) initMax initSum := by
  rw [outsAt0_A m c t h0 h1]
  exact ⟨max_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    sum_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

set_option maxHeartbeats 1000000 in
/-- A middle chunk: the step from what the chunk before left. -/
theorem after_middle (t : Fin cfg0.N) (h0 : ¬t.val % 25 = 0) (h1 : ¬t.val % 25 = 24) :
    (outsAt0 m c t.val t.isLt).2.2.1 = newMax (iblk m c 0 t) (iblk m c 1 t) (iblk m c 2 t) (outsAt0 m c (t.val - 1) (Nat.lt_of_le_of_lt (Nat.sub_le _ _) t.isLt)).2.2.1
    ∧ (outsAt0 m c t.val t.isLt).2.2.2 = newSum (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]
  exact ⟨max_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
    sum_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2⟩

set_option maxHeartbeats 1000000 in
/-- A tile's last chunk: the same step, and the two blocks written from its result. -/
theorem after_last (t : Fin cfg0.N) (h0 : ¬t.val % 25 = 0) (h1 : t.val % 25 = 24) :
    (outsAt0 m c t.val t.isLt).2.2.1 = newMax (iblk m c 0 t) (iblk m c 1 t) (iblk m c 2 t) (outsAt0 m c (t.val - 1) (Nat.lt_of_le_of_lt (Nat.sub_le _ _) t.isLt)).2.2.1
    ∧ (outsAt0 m c t.val t.isLt).2.2.2 = newSum (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
    ∧ (outsAt0 m c t.val t.isLt).1
        = lossBlock (newMax (iblk m c 0 t) (iblk m c 1 t) (iblk m c 2 t) (outsAt0 m c (t.val - 1) (Nat.lt_of_le_of_lt (Nat.sub_le _ _) t.isLt)).2.2.1) (newSum (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (iblk m c 3 t) (iblk m c 4 t)
    ∧ (outsAt0 m c t.val t.isLt).2.1 = weightBlock (iblk m c 4 t) := by
  rw [outsAt0_C m c t h0 h1]
  exact ⟨max_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
    sum_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
    loss_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
    weight_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.Grid

end
-- ==== Proof.GridInv.lean ====
/-
  By induction over the grid's points: after point `n` the two scratch buffers hold, for every row of the point's tile,
  the streaming maximum and sum of the row's logits over the tile's first `n % 25 + 1` chunks.

  A tile's first point starts from `-∞` and `0`; every other point continues from the point before, which belongs to
  the same tile and is one chunk behind.
-/
import proofs.«148193_j6347961663553_2_alg».proof.Proof.GridRun

set_option maxRecDepth 16384

noncomputable section

namespace Cert.KernelIdeal.Grid

open Idealize.ShloMosaic Idealize.ShloMosaic.TcCoe Idealize.ShloMosaic.ValueIdx Idealize.SL.Sem
open Cert.KernelIdeal Cert.KernelIdeal.Gen Cert.KernelIdeal.Body Cert.KernelIdeal.BodyValue

variable (m : (ℓ : Loc nD τ sig) → Buf (Elt Ideal) ℓ) (c : Dev nD)

/-- A point that is not a tile's first belongs to the tile of the point before. -/
theorem tileRow_succ (n : ℕ) (h : n + 1 < cfg0.N) (h0 : ¬(n + 1) % 25 = 0) (i : Fin 1024) :
    tileRow ⟨n + 1, h⟩ i = tileRow ⟨n, Nat.lt_of_succ_lt h⟩ i :=
  Fin.ext (by
    show 1024 * ((n + 1) / 25) + i.val = 1024 * (n / 25) + i.val
    have : (n + 1) / 25 = n / 25 := by omega
    rw [this])

/-- The scratch buffers after point `n`. -/
theorem scratch_at : ∀ (n : ℕ) (h : n < cfg0.N) (i : Fin 1024),
    (outsAt0 m c n h).2.2.1 (ix2 i (0 : Fin 1)) = Cert.Online.runMax (rowLogit m c (tileRow ⟨n, h⟩ i)) (n % 25 + 1)
    ∧ (outsAt0 m c n h).2.2.2 (ix2 i (0 : Fin 1)) = Cert.Online.runSum (rowLogit m c (tileRow ⟨n, h⟩ i)) (n % 25 + 1) := by
  intro n
  induction n with
  | zero =>
    intro h i
    have hA := after_first m c ⟨0, h⟩ rfl (by show ¬(0 : ℕ) % 25 = 24; decide)
    have hm : initMax (F := Ideal) (ix2 i (0 : Fin 1)) = Cert.Online.runMax (rowLogit m c (tileRow ⟨0, h⟩ i)) 0 := initMax_at i
    have hl : initSum (F := Ideal) (ix2 i (0 : Fin 1)) = Cert.Online.runSum (rowLogit m c (tileRow ⟨0, h⟩ i)) 0 := initSum_at i
    exact ⟨(congrFun hA.1 _).trans (step_max m c ⟨0, h⟩ (initMax (F := Ideal)) i 0 rfl hm),
      (congrFun hA.2 _).trans (step_sum m c ⟨0, h⟩ (initMax (F := Ideal)) (initSum (F := Ideal)) i 0 rfl hm hl)⟩
  | succ n ih =>
    intro h i
    have hn : n < cfg0.N := Nat.lt_of_succ_lt h
    by_cases h0 : (n + 1) % 25 = 0
    · have h1 : ¬(n + 1) % 25 = 24 := by omega
      have hA := after_first m c ⟨n + 1, h⟩ h0 h1
      have hm : initMax (F := Ideal) (ix2 i (0 : Fin 1)) = Cert.Online.runMax (rowLogit m c (tileRow ⟨n + 1, h⟩ i)) 0 := initMax_at i
      have hl : initSum (F := Ideal) (ix2 i (0 : Fin 1)) = Cert.Online.runSum (rowLogit m c (tileRow ⟨n + 1, h⟩ i)) 0 := initSum_at i
      rw [h0]
      exact ⟨(congrFun hA.1 _).trans (step_max m c ⟨n + 1, h⟩ (initMax (F := Ideal)) i 0 h0 hm),
        (congrFun hA.2 _).trans (step_sum m c ⟨n + 1, h⟩ (initMax (F := Ideal)) (initSum (F := Ideal)) i 0 h0 hm hl)⟩
    · have hk : (n + 1) % 25 = n % 25 + 1 := by omega
      have hrow := tileRow_succ n h h0 i
      obtain ⟨ihm, ihl⟩ := ih hn i
      have hm : (outsAt0 m c n hn).2.2.1 (ix2 i (0 : Fin 1)) = Cert.Online.runMax (rowLogit m c (tileRow ⟨n + 1, h⟩ i)) (n % 25 + 1) := by
        rw [hrow]; exact ihm
      have hl : (outsAt0 m c n hn).2.2.2 (ix2 i (0 : Fin 1)) = Cert.Online.runSum (rowLogit m c (tileRow ⟨n + 1, h⟩ i)) (n % 25 + 1) := by
        rw [hrow]; exact ihl
      rw [hk]
      by_cases h1 : (n + 1) % 25 = 24
      · have hC := after_last m c ⟨n + 1, h⟩ h0 h1
        exact ⟨(congrFun hC.1 _).trans (step_max m c ⟨n + 1, h⟩ (outsAt0 m c n hn).2.2.1 i (n % 25 + 1) hk hm),
          (congrFun hC.2.1 _).trans (step_sum m c ⟨n + 1, h⟩ (outsAt0 m c n hn).2.2.1 (outsAt0 m c n hn).2.2.2 i (n % 25 + 1) hk hm hl)⟩
      · have hB := after_middle m c ⟨n + 1, h⟩ h0 h1
        exact ⟨(congrFun hB.1 _).trans (step_max m c ⟨n + 1, h⟩ (outsAt0 m c n hn).2.2.1 i (n % 25 + 1) hk hm),
          (congrFun hB.2 _).trans (step_sum m c ⟨n + 1, h⟩ (outsAt0 m c n hn).2.2.1 (outsAt0 m c n hn).2.2.2 i (n % 25 + 1) hk hm hl)⟩

end Cert.KernelIdeal.Grid

end
-- ==== Proof.KernelFinal.lean ====
/-
  What the two output arrays hold when the region ends.

  Only a tile's last chunk writes the two output blocks, and only then are they written back: block `b` of each 32×128
  output array, rows `8 b … 8 b + 7`. By then the scratch buffers hold each tile row's maximum and sum over all 25
  chunks, so every entry of the written block is the tile's sum over its 1024 rows of
  `((max + log sum) - target logit) * weight`, respectively of the weights. The four write-backs cover the arrays.
-/
import proofs.«148193_j6347961663553_2_alg».proof.Proof.GridInv

set_option maxRecDepth 16384

noncomputable section

namespace Cert.KernelIdeal.Grid

open Idealize.ShloMosaic Idealize.ShloMosaic.TcCoe Idealize.ShloMosaic.ValueIdx Idealize.SL.Sem
open Cert.KernelIdeal Cert.KernelIdeal.Gen Cert.KernelIdeal.Body Cert.KernelIdeal.BodyValue

variable (m : (ℓ : Loc nD τ sig) → Buf (Elt Ideal) ℓ) (c : Dev nD)

theorem index_loss : ∀ t : Fin cfg0.N, win0_5.index t 0 = t.val / 25 ∧ win0_5.index t 1 = 0 :=
  (by decide +kernel : ∀ t : Fin grid0.N, win0_5.index t 0 = t.val / 25 ∧ win0_5.index t 1 = 0)
theorem index_weights : ∀ t : Fin cfg0.N, win0_6.index t 0 = t.val / 25 ∧ win0_6.index t 1 = 0 :=
  (by decide +kernel : ∀ t : Fin grid0.N, win0_6.index t 0 = t.val / 25 ∧ win0_6.index t 1 = 0)

/-- Row `k` of tile `b`, among the 4096 rows. -/
def rowOf (b : Fin 4) (k : Fin 1024) : Fin 4096 :=
  ⟨1024 * b.val + k.val, by have := b.isLt; have := k.isLt; omega⟩

/-- The tile a point belongs to. -/
def tileAt (t : Fin cfg0.N) : Fin 4 :=
  ⟨t.val / 25, by have := t.isLt; have hN : cfg0.N = 100 := N_0; omega⟩

/-- A row's loss before weighting: its log-sum-exp over the whole vocabulary minus its target logit. -/
def rowLoss (n : Fin 4096) : EReal :=
  (Cert.Online.runMax (rowLogit m c n) 25 + Ideal.log (Cert.Online.runSum (rowLogit m c n) 25)) - targetArr m c (ix2 n (0 : Fin 1))

/-- A tile's sum of weighted losses. -/
def tileLoss (b : Fin 4) : EReal := ∑ k : Fin 1024, rowLoss m c (rowOf b k) * keepArr m c (ix2 (rowOf b k) (0 : Fin 1))

/-- A tile's sum of weights. -/
def tileWeight (b : Fin 4) : EReal := ∑ k : Fin 1024, keepArr m c (ix2 (rowOf b k) (0 : Fin 1))

/-- The tile whose block holds row `i` of a 32×128 output array. -/
def tileOf (i : S32x128.Idx) : Fin 4 :=
  ⟨(i 0).val / 8, by have : (i 0).val < 32 := (i 0).isLt; omega⟩

/-- The array of weighted losses when the region ends. -/
def lossArr : FVec Ideal S32x128 .f32 := fun i => tileLoss m c (tileOf i)

/-- The array of weights when the region ends. -/
def weightsArr : FVec Ideal S32x128 .f32 := fun i => tileWeight m c (tileOf i)

/-! ## What a tile's last point leaves in the two blocks -/

theorem last_weight (t : Fin cfg0.N) (h1 : t.val % 25 = 24) (y : S8x128.Idx) :
    (outsAt0 m c t.val t.isLt).2.1 y = tileWeight m c (tileAt t) := by
  have h0 : ¬t.val % 25 = 0 := by omega
  obtain ⟨-, -, -, e4⟩ := after_last m c t h0 h1
  rw [e4, eq_ix2 y]
  refine (weightBlock_at (iblk m c 4 t) (y 0) (y 1)).trans ?_
  unfold tileWeight
  exact Finset.sum_congr rfl fun k _ => weightOf_blk m c t k

theorem last_loss (t : Fin cfg0.N) (h1 : t.val % 25 = 24) (y : S8x128.Idx) :
    (outsAt0 m c t.val t.isLt).1 y = tileLoss m c (tileAt t) := by
  have h0 : ¬t.val % 25 = 0 := by omega
  obtain ⟨e1, e2, e3, -⟩ := after_last m c t h0 h1
  rw [e3, ← e2, ← e1, eq_ix2 y]
  refine (lossBlock_at _ _ (iblk m c 3 t) (iblk m c 4 t) (y 0) (y 1)).trans ?_
  unfold tileLoss rowLoss
  refine Finset.sum_congr rfl fun k _ => ?_
  obtain ⟨sm, sl⟩ := scratch_at m c t.val t.isLt k
  have hk : t.val % 25 + 1 = 25 := by omega
  rw [hk] at sm sl
  exact congrArg₂ (fun a b : EReal => a * b)
    (congrArg₂ (fun a b : EReal => a - b) (congrArg₂ (fun a b : EReal => a + Ideal.log b) sm sl) (target_blk m c t k))
    (weightOf_blk m c t k)

/-! ## The write-backs, and the arrays they fill -/

theorem flushed_loss (t : Fin cfg0.N) (hf : (cfg0.win 5).flush t = true) :
    (dats m 0 c).flushed 5 t = ((cfg0.win 5).blk t).view.read (Elt Ideal) (lossArr m c) := by
  have h1 : t.val % 25 = 24 := (flush0_5 t).mp hf
  show (cfg0.win 5).cut (grid0.coords t) ((dats m 0 c).after 5 t) = _
  rw [after0_5]
  funext y
  rw [View.read_apply]
  show (outsAt0 m c t.val t.isLt).1 y = lossArr m c (((cfg0.win 5).blk t).view.emb y)
  rw [last_loss m c t h1 y]
  unfold lossArr
  refine congrArg (tileLoss m c) (Fin.ext ?_)
  show t.val / 25 = (win0_5.index t 0 * 8 + 1 * (y 0).val) / 8
  have hy : (y 0).val < 8 := (y 0).isLt
  rw [(index_loss t).1]; omega

theorem flushed_weights (t : Fin cfg0.N) (hf : (cfg0.win 6).flush t = true) :
    (dats m 0 c).flushed 6 t = ((cfg0.win 6).blk t).view.read (Elt Ideal) (weightsArr m c) := by
  have h1 : t.val % 25 = 24 := (flush0_6 t).mp hf
  show (cfg0.win 6).cut (grid0.coords t) ((dats m 0 c).after 6 t) = _
  rw [after0_6]
  funext y
  rw [View.read_apply]
  show (outsAt0 m c t.val t.isLt).2.1 y = weightsArr m c (((cfg0.win 6).blk t).view.emb y)
  rw [last_weight m c t h1 y]
  unfold weightsArr
  refine congrArg (tileWeight m c) (Fin.ext ?_)
  show t.val / 25 = (win0_6.index t 0 * 8 + 1 * (y 0).val) / 8
  have hy : (y 0).val < 8 := (y 0).isLt
  rw [(index_weights t).1]; omega

/-- The last point of the tile holding row `i`. -/
def lastPoint (i : S32x128.Idx) : Fin cfg0.N :=
  ⟨25 * ((i 0).val / 8) + 24, by have : (i 0).val < 32 := (i 0).isLt; have hN : cfg0.N = 100 := N_0; omega⟩

theorem cover_loss (i : S32x128.Idx) :
    ∃ t : Fin cfg0.N, (cfg0.win 5).flush t = true ∧ i ∈ ((cfg0.win 5).blk t).view.set := by
  have hi0 : (i 0).val < 32 := (i 0).isLt
  have hi1 : (i 1).val < 128 := (i 1).isLt
  refine ⟨lastPoint i, (flush0_5 _).mpr (by show (25 * ((i 0).val / 8) + 24) % 25 = 24; omega), ?_⟩
  show i ∈ ((View.whole main_v25_0).slice (win0_5.rect (lastPoint i))).set
  rw [View.set_slice_whole, Rect.mem_set_unit]
  intro a
  match a with
  | ⟨0, _⟩ =>
    show win0_5.index (lastPoint i) 0 * 8 ≤ (i 0).val ∧ (i 0).val < win0_5.index (lastPoint i) 0 * 8 + 8
    rw [(index_loss (lastPoint i)).1]
    show (25 * ((i 0).val / 8) + 24) / 25 * 8 ≤ (i 0).val ∧ (i 0).val < (25 * ((i 0).val / 8) + 24) / 25 * 8 + 8
    omega
  | ⟨1, _⟩ =>
    show win0_5.index (lastPoint i) 1 * 128 ≤ (i 1).val ∧ (i 1).val < win0_5.index (lastPoint i) 1 * 128 + 128
    rw [(index_loss (lastPoint i)).2]
    omega

theorem cover_weights (i : S32x128.Idx) :
    ∃ t : Fin cfg0.N, (cfg0.win 6).flush t = true ∧ i ∈ ((cfg0.win 6).blk t).view.set := by
  have hi0 : (i 0).val < 32 := (i 0).isLt
  have hi1 : (i 1).val < 128 := (i 1).isLt
  refine ⟨lastPoint i, (flush0_6 _).mpr (by show (25 * ((i 0).val / 8) + 24) % 25 = 24; omega), ?_⟩
  show i ∈ ((View.whole main_v25_1).slice (win0_6.rect (lastPoint i))).set
  rw [View.set_slice_whole, Rect.mem_set_unit]
  intro a
  match a with
  | ⟨0, _⟩ =>
    show win0_6.index (lastPoint i) 0 * 8 ≤ (i 0).val ∧ (i 0).val < win0_6.index (lastPoint i) 0 * 8 + 8
    rw [(index_weights (lastPoint i)).1]
    show (25 * ((i 0).val / 8) + 24) / 25 * 8 ≤ (i 0).val ∧ (i 0).val < (25 * ((i 0).val / 8) + 24) / 25 * 8 + 8
    omega
  | ⟨1, _⟩ =>
    show win0_6.index (lastPoint i) 1 * 128 ≤ (i 1).val ∧ (i 1).val < win0_6.index (lastPoint i) 1 * 128 + 128
    rw [(index_weights (lastPoint i)).2]
    omega

/-- The array of weighted losses after the region. -/
theorem final_loss : (dats m 0 c).arrAt 5 cfg0.N = lossArr m c :=
  (dats m 0 c).arrAt_eq_of_cover 5 (lossArr m c) (flushed_loss m c) (cover_loss)

/-- The array of weights after the region. -/
theorem final_weights : (dats m 0 c).arrAt 6 cfg0.N = weightsArr m c :=
  (dats m 0 c).arrAt_eq_of_cover 6 (weightsArr m c) (flushed_weights m c) (cover_weights)

end Cert.KernelIdeal.Grid

end
-- ==== Proof.Tail.lean ====
/-
  The host's lines after the kernel region, as one function of the region's two output arrays.

  Each output is a 32×128 array holding, in each of its four 8×128 blocks, one tile's partial sum in every entry. The
  host views it as 4×8×128, takes entry (0, 0) of each of the four blocks, sums the four values from zero, and divides
  the sum of the weighted losses by the larger of the sum of the weights and one.
-/
import proofs.«148193_j6347961663553_2_alg».proof.Proof.Gen.KernelIdeal
import Idealize.ShloMosaic.PureOps.Ideal
import Idealize.ShloMosaic.Lib.ValueIdx

noncomputable section

namespace Cert.KernelIdeal.Tail

open Idealize.ShloMosaic Idealize.ShloMosaic.ValueIdx Cert.KernelIdeal Cert.KernelIdeal.Facts₀ Cert.KernelIdeal.Facts

/-- The four per-tile values of an output array: entry (0, 0) of each 8×128 block. -/
def corners (X : FVec Ideal S32x128 .f32) : FVec Ideal S4 .f32 :=
  shapeCast S4 (extractStridedSlice S4x1x1 ![0, 0, 0] (shapeCast S4x8x128 X shapeCasts_S32x128_S4x8x128) slices_S4x8x128_S4x1x1_0_0_0)
    shapeCasts_S4x1x1_S4

/-- The four values summed from zero. -/
def total (X : FVec Ideal S32x128 .f32) : FVec Ideal S_ .f32 :=
  Host.reduceAdd (F := Ideal) (corners X) (constant (F := Ideal) S_ .f32 0x00000000#32) reducesTo_S4_S_d0 h_S_

/-- The mean: total weighted loss over the larger of the total weight and one. -/
def mean (L Wt : FVec Ideal S32x128 .f32) : FVec Ideal S_ .f32 :=
  Host.divf (F := Ideal) (total L) (maximumf (total Wt) (constant (F := Ideal) S_ .f32 0x3F800000#32))

end Cert.KernelIdeal.Tail

end
-- ==== Proof.KernelRun.lean ====
/-
  The idealized kernel program, run: its result is the mean of the two arrays the region leaves.

  The region's frame run states every window's array at what the write-backs left and every other buffer at what the
  host's lines after the region compute from them. The result buffer is one of the latter: the thirteen lines after the
  region applied to the two output arrays, which by then hold each tile's two partial sums.
-/
import proofs.«148193_j6347961663553_2_alg».proof.Proof.KernelFinal
import proofs.«148193_j6347961663553_2_alg».proof.Proof.Tail
import Idealize.ShloMosaic.Lib.StableHlo.Run

set_option maxRecDepth 16384

noncomputable section

namespace Cert.KernelIdeal.Grid

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- What the lines after the region leave in the result buffer, given what the two output arrays hold by then. -/
theorem tail_of (c : Dev nD) (L Wt : FVec Ideal S32x128 .f32)
    (hL : (dats m 0 c).arrAt 5 cfg0.N = L) (hW : (dats m 0 c).arrAt 6 cfg0.N = Wt) :
    Pipeline.afterTail₀ cfgs (dats m) 0 (V0 m) [hostOps1] c main_v35 = Tail.mean L Wt := by
  have e5 : Pipeline.withArrays (cfgs 0).spec c (V0 m c) (fun w => (dats m 0 c).arrAt w (cfgs 0).N)
      (Proc.devRef .tc main_v25_0) = L :=
    (Pipeline.withArrays_arr spec0 launch0.win.arr_inj c _ _ 5).trans hL
  have e6 : Pipeline.withArrays (cfgs 0).spec c (V0 m c) (fun w => (dats m 0 c).arrAt w (cfgs 0).N)
      (Proc.devRef .tc main_v25_1) = Wt :=
    (Pipeline.withArrays_arr spec0 launch0.win.arr_inj c _ _ 6).trans hW
  unfold Pipeline.afterTail₀
  show StableHlo.after hostOps1 _ (Proc.devRef .tc main_v35) = _
  after_results
  rw [e5, e6]
  rfl

/-- What the lines after the region leave in the result buffer: the mean of the two arrays of per-tile sums. -/
theorem tail_eq (c : Dev nD) :
    Pipeline.afterTail₀ cfgs (dats m) 0 (V0 m) [hostOps1] c main_v35 = Tail.mean (lossArr m c) (weightsArr m c) :=
  tail_of m c (lossArr m c) (weightsArr m c) (final_loss m c) (final_weights m c)

/-- On every device, over the extended reals, from any memory with zero counters: every weakly fair execution of the
    kernel program terminates with the result buffer at the mean of the per-tile sums and the arguments unchanged. -/
theorem run : θ_run defs (onTc (τ := τ) (main (F := Ideal))) ⟨m, fun _ => 0, ρ⟩ fun r => ∀ c : Dev nD,
      r.2.mem ((c.tc : Thread nD τ).loc main_v35) = Tail.mean (lossArr m c) (weightsArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v35 (Pipeline.mem_restRefs_of main_v35 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Grid

end
-- ==== Proof.TailValue.lean ====
/-
  The host's lines after the kernel region, read at their one index.

  An output array of 32 rows of 128 is viewed as 4 blocks of 8 rows; entry (0, 0) of block b is row 8 b, column 0 of
  the array. The four corner entries are summed from zero, and the mean is the total of the weighted losses over the
  larger of the total of the weights and one.
-/
import proofs.«148193_j6347961663553_2_alg».proof.Proof.Tail
import Idealize.ShloMosaic.Lib.Pipeline.Value
import Idealize.ShloMosaic.Lib.ValueIdx
import Idealize.ShloMosaic.PureOps.Ideal.Laws

noncomputable section

namespace Cert.KernelIdeal.Tail

open Idealize.ShloMosaic Idealize.ShloMosaic.ValueIdx Cert.KernelIdeal Cert.KernelIdeal.Facts₀ Cert.KernelIdeal.Facts

/-- Corner b of an output array is its entry at row 8 b, column 0. -/
theorem corners_at (X : FVec Ideal S32x128 .f32) (b : Fin 4) :
    corners X (ix1 b) = X (ix2 (⟨8 * b.val, by omega⟩ : Fin 32) (0 : Fin 128)) := by
  unfold corners
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  refine (extractStridedSlice_apply _ _ _ (ix3 b (0 : Fin 1) (0 : Fin 1)) (ix3 b (0 : Fin 8) (0 : Fin 128))
    (fun a => ?_)).trans ?_
  · match a with
    | ⟨0, _⟩ => show b.val = 0 + b.val; omega
    | ⟨1, _⟩ => rfl
    | ⟨2, _⟩ => rfl
  refine shapeCast_apply X _ (ix3 b (0 : Fin 8) (0 : Fin 128)) (ix2 (⟨8 * b.val, by omega⟩ : Fin 32) (0 : Fin 128)) ?_
  rw [Shape.rowMajor_val_two, Shape.rowMajor_val_three]
  show 8 * b.val * 128 + 0 = (b.val * 8 + 0) * 128 + 0
  omega

/-- A rank-1 index set is its coordinate's range. -/
def idxEquiv1 {n : Nat} : (⟨1, ![n]⟩ : Shape).Idx ≃ Fin n where
  toFun i := i 0
  invFun b := ix1 b
  left_inv i := (eq_ix1 i).symm
  right_inv _ := rfl

/-- A sum over a rank-1 index set is the sum over the coordinate. -/
theorem sum_idx1 {n : Nat} (f : (⟨1, ![n]⟩ : Shape).Idx → EReal) : ∑ i, f i = ∑ b : Fin n, f (ix1 b) :=
  (Equiv.sum_comp (idxEquiv1 (n := n)).symm f).symm

/-- The host's sum of a four-entry array from the zero word. -/
theorem reduce_at (Y : FVec Ideal S4 .f32) :
    Host.reduceAdd (F := Ideal) Y (constant (F := Ideal) S_ .f32 0x00000000#32) reducesTo_S4_S_d0 h_S_ ix0
      = Ideal.ofBits .f32 0x00000000#32 + ∑ j : S4.Idx, Y j := by
  simp only [Host.reduceAdd, Ideal.hostReduceAdd_def]
  exact Ideal.hostReduceAdd_total reducesTo_S4_S_d0 (fun b => b.elim0) Y _ ix0

/-- The total of an output array: its four corner entries summed from the zero word. -/
theorem total_at (X : FVec Ideal S32x128 .f32) :
    total X ix0 = Ideal.ofBits .f32 0x00000000#32
      + ∑ b : Fin 4, X (ix2 (⟨8 * b.val, by omega⟩ : Fin 32) (0 : Fin 128)) := by
  unfold total
  refine (reduce_at (corners X)).trans ?_
  refine congrArg (Ideal.ofBits .f32 0x00000000#32 + ·) ?_
  refine (sum_idx1 (corners X)).trans ?_
  exact Finset.sum_congr rfl fun b _ => corners_at X b

/-- The mean at its one index. -/
theorem mean_at (L Wt : FVec Ideal S32x128 .f32) :
    mean L Wt ix0
      = Ideal.div
          (Ideal.ofBits .f32 0x00000000#32 + ∑ b : Fin 4, L (ix2 (⟨8 * b.val, by omega⟩ : Fin 32) (0 : Fin 128)))
          (max (Ideal.ofBits .f32 0x00000000#32
              + ∑ b : Fin 4, Wt (ix2 (⟨8 * b.val, by omega⟩ : Fin 32) (0 : Fin 128)))
            (Ideal.ofBits .f32 0x3F800000#32)) := by
  unfold mean
  show Ideal.div (total L ix0) (max (total Wt ix0) (Ideal.ofBits .f32 0x3F800000#32)) = _
  rw [total_at, total_at]

end Cert.KernelIdeal.Tail

end
-- ==== Proof.Labels.lean ====
/-
  How both programs read a label, and the weight a row gets in the masked mean.

  A label is an integer with no stated range. Both programs first turn it into a POSITION among the 32000 classes the
  way array indexing does (a negative label counts back from the end), then test that the position lies among the
  classes, and gather at the position (a gather clamps its start index into the array). Where the test fails both
  programs put a not-a-number in the gathered value's place, which over the extended reals reads as the bottom
  element. A row counts in the mean when its label is not the padding label 0 and its time step is not inside its
  sequence's prefix.
-/
import Idealize.ShloMosaic.PureOps.Ideal
import Idealize.ShloMosaic.Lib.ValueIdx

noncomputable section

namespace Cert.Labels

open Idealize.ShloMosaic

/-- The label as a position: a negative label has the number of classes added. -/
def pos (x : BitVec 32) : BitVec 32 :=
  Scalar.select (IntOp.cmpi .slt x 0#32) (IntOp.addi x 32000#32) x

/-- The flag the gathered value is selected by: the position lies in `[0, 31999]`. -/
def ok (x : BitVec 32) : BitVec 1 :=
  IntOp.andi (IntOp.cmpi .sge (pos x) 0#32) (IntOp.cmpi .sle (pos x) 31999#32)

/-- The class a gather reads at the label: the position read as a signed integer and clamped into the classes. -/
def cls (x : BitVec 32) : Fin 32000 :=
  ⟨min (pos x).toInt.toNat 31999, by omega⟩

/-- The weight of a row in the masked mean, 0 or 1: its label `x` is not the padding label and its time step `t` has
    reached its sequence's prefix length `p`. -/
def keep (x : BitVec 32) (t : Fin 512) (p : BitVec 32) : EReal :=
  FloatOps.uitofp (F := Ideal) .f32 (IntOp.andi (IntOp.cmpi .ne x 0#32) (IntOp.cmpi .sge (BitVec.ofNat 32 t.val) p))

/-- The row of the flattened 4096-row arrays that batch entry `b`, time step `t` and head `q` land on (row-major). -/
def row (b : Fin 4) (t : Fin 512) (q : Fin 2) : Fin 4096 :=
  ⟨1024 * b.val + 2 * t.val + q.val, by have := b.isLt; have := t.isLt; have := q.isLt; omega⟩

end Cert.Labels

end
-- ==== Proof.HostPrefix.lean ====
/-
  What the region's five input windows hold when the region is entered, element by element, as functions of the
  program's five arguments.

  Before the region the program flattens the hidden states `[4, 512, 2, 1024]` to rows `[4096, 1024]` (row
  `1024·b + 2·t + q` is entry `(b, t, q)`), flattens the labels the same way, builds the mask of the rows that count
  (label not the padding label, time step not inside the sequence's prefix), and computes each row's logit at its own
  label: the row's dot product with the weight row gathered at the label, plus the bias gathered there. A label is
  first turned into a position (a negative one counts back from the number of classes); the gathers clamp the position
  into the classes, and where the position is not a class the gathered value is replaced by the not-a-number word,
  which over the extended reals reads as the bottom element. The conversions of the hidden states and of the weights
  to the narrower format are the identity on the extended reals.

  Results: `hidden_at`, `weight_at`, `bias_at`, `tgt_at`, `mask_at` — windows 0, 1, 2, 3, 4 in that order.
-/
import proofs.«148193_j6347961663553_2_alg».proof.Proof.Gen.KernelIdeal.Frame.Runs
import proofs.«148193_j6347961663553_2_alg».proof.Proof.Labels
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.ReduceAll

noncomputable section

namespace Cert.KernelIdeal.HostPrefix

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (c : Dev nD)

/-! ## The program's five arguments, as the region finds them (no host operation writes them) -/

/-- The hidden states, `[4, 512, 2, 1024]`. -/
abbrev A0 : FVec Ideal S4x512x2x1024 .f32 := m ((c.tc : Thread nD τ).loc main_arg0)
/-- The labels, `[4, 512, 2]`. -/
abbrev A1 : S4x512x2.Idx → BitVec 32 := m ((c.tc : Thread nD τ).loc main_arg1)
/-- The prefix lengths, `[4]`. -/
abbrev A2 : S4.Idx → BitVec 32 := m ((c.tc : Thread nD τ).loc main_arg2)
/-- The weights, `[32000, 1024]`. -/
abbrev A3 : FVec Ideal S32000x1024 .f32 := m ((c.tc : Thread nD τ).loc main_arg3)
/-- The biases, `[32000]`. -/
abbrev A4 : FVec Ideal S32000 .f32 := m ((c.tc : Thread nD τ).loc main_arg4)

/-! ## Layout operations of the host prefix, read at an index -/

/-- The hidden states flattened to rows: row `1024·b + 2·t + q` of the `[4096, 1024]` array is entry `(b, t, q)`. -/
theorem reshape_hidden {α : Type} (x : S4x512x2x1024.Idx → α) (h : S4x512x2x1024.ShapeCasts S4096x1024)
    (b : Fin 4) (t : Fin 512) (q : Fin 2) (k : Fin 1024) :
    shapeCast S4096x1024 x h (ix2 (Cert.Labels.row b t q) k) = x (ix4 b t q k) :=
  shapeCast_apply x h _ _ (by
    rw [Shape.rowMajor_val_four, Shape.rowMajor_val_two]
    show ((b.val * 512 + t.val) * 2 + q.val) * 1024 + k.val = (1024 * b.val + 2 * t.val + q.val) * 1024 + k.val
    omega)

/-- A `[4, 512, 2]` array flattened to a column `[4096, 1]`. -/
theorem reshape_col {α : Type} (x : S4x512x2.Idx → α) (h : S4x512x2.ShapeCasts S4096x1)
    (b : Fin 4) (t : Fin 512) (q : Fin 2) (u : Fin 1) :
    shapeCast S4096x1 x h (ix2 (Cert.Labels.row b t q) u) = x (ix3 b t q) :=
  shapeCast_apply x h _ _ (by
    have hu : u.val = 0 := by omega
    rw [Shape.rowMajor_val_three, Shape.rowMajor_val_two]
    show (b.val * 512 + t.val) * 2 + q.val = (1024 * b.val + 2 * t.val + q.val) * 1 + u.val
    omega)

/-- A `[4, 512, 2]` array flattened to `[4096]`. -/
theorem reshape_flat {α : Type} (x : S4x512x2.Idx → α) (h : S4x512x2.ShapeCasts S4096)
    (b : Fin 4) (t : Fin 512) (q : Fin 2) :
    shapeCast S4096 x h (ix1 (Cert.Labels.row b t q)) = x (ix3 b t q) :=
  shapeCast_apply x h _ _ (by
    rw [Shape.rowMajor_val_three, Shape.rowMajor_val_one]
    show (b.val * 512 + t.val) * 2 + q.val = 1024 * b.val + 2 * t.val + q.val
    omega)

/-- The bias as a row `[1, 32000]`. -/
theorem reshape_bias {α : Type} (x : S32000.Idx → α) (h : S32000.ShapeCasts S1x32000) (u : Fin 1) (v : Fin 32000) :
    shapeCast S1x32000 x h (ix2 u v) = x (ix1 v) :=
  shapeCast_a_1a_apply x h u v

/-! ## The three windows no call stands before -/

/-- Window 0: the hidden states, flattened to rows (the conversion to the narrower format is the identity on the
    extended reals). -/
theorem hidden_at (b : Fin 4) (t : Fin 512) (q : Fin 2) (k : Fin 1024) :
    (V m c main_v22 : S4096x1024.Idx → EReal) (ix2 (Cert.Labels.row b t q) k)
      = (A0 m c) (ix4 b t q k) := by
  have e : (V m c main_v22 : S4096x1024.Idx → EReal)
      = truncf (F := Ideal) .bf16 (shapeCast S4096x1024 (A0 m c)
          shapeCasts_S4x512x2x1024_S4096x1024) bitsLt_bf16_f32 := by
    dsimp only [Gen.V, Gen.V0]
    simp only [Gen.hostOps0, Gen.hostOps0_1, Gen.hostOps0_2, Gen.hostOps0_3, List.flatten_cons, List.flatten_nil, List.append_nil, List.cons_append, List.nil_append]
    after_results_simp <;> rfl
  rw [e, truncf_apply]
  exact reshape_hidden _ _ b t q k

/-- Window 1: the weights as they are. -/
theorem weight_at (v : Fin 32000) (k : Fin 1024) :
    (V m c main_v23 : S32000x1024.Idx → EReal) (ix2 v k)
      = (A3 m c) (ix2 v k) := by
  have e : (V m c main_v23 : S32000x1024.Idx → EReal)
      = truncf (F := Ideal) .bf16 (A3 m c) bitsLt_bf16_f32 := by
    dsimp only [Gen.V, Gen.V0]
    simp only [Gen.hostOps0, Gen.hostOps0_1, Gen.hostOps0_2, Gen.hostOps0_3, List.flatten_cons, List.flatten_nil, List.append_nil, List.cons_append, List.nil_append]
    after_results_simp <;> rfl
  rw [e, truncf_apply]

/-- Window 2: the bias as a row. -/
theorem bias_at (v : Fin 32000) :
    (V m c main_v24 : S1x32000.Idx → EReal) (ix2 (0 : Fin 1) v)
      = (A4 m c) (ix1 v) := by
  have e : (V m c main_v24 : S1x32000.Idx → EReal)
      = shapeCast S1x32000 (A4 m c) shapeCasts_S32000_S1x32000 := by
    dsimp only [Gen.V, Gen.V0]
    simp only [Gen.hostOps0, Gen.hostOps0_1, Gen.hostOps0_2, Gen.hostOps0_3, List.flatten_cons, List.flatten_nil, List.append_nil, List.cons_append, List.nil_append]
    after_results_simp <;> rfl
  rw [e]
  exact reshape_bias _ _ 0 v

/-! ## Window 4: the mask -/

/-- A flag over `(b, t)` broadcast along the head axis. -/
theorem bcast_bt {α : Type} (x : S4x512.Idx → α) (b : Fin 4) (t : Fin 512) (q : Fin 2) :
    broadcastInDim S4x512x2 ![0, 1, 2] bcast_S4x512x1_S4x512x2_0_1_2
      (broadcastInDim S4x512x1 ![0, 1] bcast_S4x512_S4x512x1_0_1 x) (ix3 b t q) = x (ix2 b t) := by
  refine (broadcastInDim_apply _ _ _ (ix3 b t q) (ix3 b t (0 : Fin 1)) fun a => ?_).trans ?_
  · match a with | ⟨0, _⟩ => rfl | ⟨1, _⟩ => rfl | ⟨2, _⟩ => rfl
  · exact broadcastInDim_apply _ _ _ (ix3 b t (0 : Fin 1)) (ix2 b t) fun a => by
      match a with | ⟨0, _⟩ => rfl | ⟨1, _⟩ => rfl

/-- The time step of an entry, as the program builds it: an iota along the time axis, broadcast over the batch. -/
theorem bcast_iota (b : Fin 4) (t : Fin 512) :
    broadcastInDim S4x512 ![0, 1] bcast_S1x512_S4x512_0_1
      (broadcastInDim S1x512 ![1] bcast_S512_S1x512_1 (iotaInDim S512 32 0)) (ix2 b t) = BitVec.ofNat 32 t.val := by
  refine (broadcastInDim_apply _ _ _ (ix2 b t) (ix2 (0 : Fin 1) t) fun a => ?_).trans ?_
  · match a with | ⟨0, _⟩ => rfl | ⟨1, _⟩ => rfl
  · exact broadcastInDim_apply _ _ _ (ix2 (0 : Fin 1) t) (ix1 t) fun a => by
      match a with | ⟨0, _⟩ => rfl

/-- The prefix length of an entry's sequence, broadcast over the time steps. -/
theorem bcast_prefix {α : Type} (p : S4.Idx → α) (b : Fin 4) (t : Fin 512) :
    broadcastInDim S4x512 ![0, 1] bcast_S4x1_S4x512_0_1
      (broadcastInDim S4x1 ![0] bcast_S4_S4x1_0 p) (ix2 b t) = p (ix1 b) := by
  refine (broadcastInDim_apply _ _ _ (ix2 b t) (ix2 b (0 : Fin 1)) fun a => ?_).trans ?_
  · match a with | ⟨0, _⟩ => rfl | ⟨1, _⟩ => rfl
  · exact broadcastInDim_apply _ _ _ (ix2 b (0 : Fin 1)) (ix1 b) fun a => by
      match a with | ⟨0, _⟩ => rfl

/-- The mask the program builds, read at an entry: the weight `Cert.Labels.keep`. -/
theorem mask_read (x : S4x512x2.Idx → BitVec 32) (p : S4.Idx → BitVec 32) (b : Fin 4) (t : Fin 512) (q : Fin 2) :
    (uitofp (F := Ideal) .f32 (andi (cmpi .ne x (broadcastInDim S4x512x2 ![] bcast_S_S4x512x2 (constantI S_ 32 0#32)))
      (broadcastInDim S4x512x2 ![0, 1, 2] bcast_S4x512x1_S4x512x2_0_1_2
        (broadcastInDim S4x512x1 ![0, 1] bcast_S4x512_S4x512x1_0_1
          (cmpi .sge (broadcastInDim S4x512 ![0, 1] bcast_S1x512_S4x512_0_1
              (broadcastInDim S1x512 ![1] bcast_S512_S1x512_1 (iotaInDim S512 32 0)))
            (broadcastInDim S4x512 ![0, 1] bcast_S4x1_S4x512_0_1 (broadcastInDim S4x1 ![0] bcast_S4_S4x1_0 p)))))) :
        S4x512x2.Idx → EReal) (ix3 b t q)
      = Cert.Labels.keep (x (ix3 b t q)) t (p (ix1 b)) := by
  show FloatOps.uitofp (F := Ideal) .f32 (IntOp.andi (IntOp.cmpi .ne (x (ix3 b t q)) 0#32)
      (broadcastInDim S4x512x2 ![0, 1, 2] bcast_S4x512x1_S4x512x2_0_1_2
        (broadcastInDim S4x512x1 ![0, 1] bcast_S4x512_S4x512x1_0_1
          (cmpi .sge (broadcastInDim S4x512 ![0, 1] bcast_S1x512_S4x512_0_1
              (broadcastInDim S1x512 ![1] bcast_S512_S1x512_1 (iotaInDim S512 32 0)))
            (broadcastInDim S4x512 ![0, 1] bcast_S4x1_S4x512_0_1 (broadcastInDim S4x1 ![0] bcast_S4_S4x1_0 p))))
        (ix3 b t q))) = _
  rw [bcast_bt]
  show FloatOps.uitofp (F := Ideal) .f32 (IntOp.andi (IntOp.cmpi .ne (x (ix3 b t q)) 0#32)
      (IntOp.cmpi .sge (broadcastInDim S4x512 ![0, 1] bcast_S1x512_S4x512_0_1
              (broadcastInDim S1x512 ![1] bcast_S512_S1x512_1 (iotaInDim S512 32 0)) (ix2 b t))
            (broadcastInDim S4x512 ![0, 1] bcast_S4x1_S4x512_0_1 (broadcastInDim S4x1 ![0] bcast_S4_S4x1_0 p) (ix2 b t)))) = _
  rw [bcast_iota, bcast_prefix]
  rfl

/-- Window 4: the weight of each row in the masked mean. -/
theorem mask_at (b : Fin 4) (t : Fin 512) (q : Fin 2) :
    (V m c main_v14 : S4096x1.Idx → EReal) (ix2 (Cert.Labels.row b t q) (0 : Fin 1))
      = Cert.Labels.keep ((A1 m c) (ix3 b t q)) t
          ((A2 m c) (ix1 b)) := by
  have e : (V m c main_v14 : S4096x1.Idx → EReal)
      = shapeCast S4096x1 (uitofp (F := Ideal) .f32 (andi (cmpi .ne (A1 m c)
            (broadcastInDim S4x512x2 ![] bcast_S_S4x512x2 (constantI S_ 32 0#32)))
          (broadcastInDim S4x512x2 ![0, 1, 2] bcast_S4x512x1_S4x512x2_0_1_2
            (broadcastInDim S4x512x1 ![0, 1] bcast_S4x512_S4x512x1_0_1
              (cmpi .sge (broadcastInDim S4x512 ![0, 1] bcast_S1x512_S4x512_0_1
                  (broadcastInDim S1x512 ![1] bcast_S512_S1x512_1 (iotaInDim S512 32 0)))
                (broadcastInDim S4x512 ![0, 1] bcast_S4x1_S4x512_0_1
                  (broadcastInDim S4x1 ![0] bcast_S4_S4x1_0 (A2 m c))))))) :
          S4x512x2.Idx → EReal) shapeCasts_S4x512x2_S4096x1 := by
    dsimp only [Gen.V, Gen.V0]
    simp only [Gen.hostOps0, Gen.hostOps0_1, Gen.hostOps0_2, Gen.hostOps0_3, List.flatten_cons, List.flatten_nil, List.append_nil, List.cons_append, List.nil_append]
    after_results_simp <;> rfl
  rw [e]
  exact (reshape_col _ _ b t q 0).trans (mask_read _ _ b t q)

/-! ## The two gathers' stretches, spelt with plain references

The operations of a called function are stated over typed references, which move every operand and result along an
equation between a reference's buffer type and the tensor type — the identity at a literal reference. Each operation IS
the plain operation at the same references and the same function; the two lists below say so once, operation by
operation, so that what a buffer holds after the prefix is a term without those transports. -/

/-- The gather of the weight rows at the labels, with plain references. -/
abbrev takeW : List (HloOp τ sig (Elt Ideal)) :=
  [ StableHlo.nullary main_call0_c ((constantI S_ 32 0#32) : (⟨S_, .i32⟩ : BufTy).Contents (Elt Ideal)),
    StableHlo.unary main_call0_c main_call0_v0 ((broadcastInDim S4096 ![] bcast_S_S4096) : (⟨S_, .i32⟩ : BufTy).Contents (Elt Ideal) → (⟨S4096, .i32⟩ : BufTy).Contents (Elt Ideal)),
    StableHlo.binary main_v13 main_call0_v0 main_call0_v1 ((cmpi .slt) : (⟨S4096, .i32⟩ : BufTy).Contents (Elt Ideal) → (⟨S4096, .i32⟩ : BufTy).Contents (Elt Ideal) → (⟨S4096, .i1⟩ : BufTy).Contents (Elt Ideal)),
    StableHlo.nullary main_call0_c_0 ((constantI S_ 32 32000#32) : (⟨S_, .i32⟩ : BufTy).Contents (Elt Ideal)),
    StableHlo.unary main_call0_c_0 main_call0_v2 ((broadcastInDim S4096 ![] bcast_S_S4096) : (⟨S_, .i32⟩ : BufTy).Contents (Elt Ideal) → (⟨S4096, .i32⟩ : BufTy).Contents (Elt Ideal)),
    StableHlo.binary main_v13 main_call0_v2 main_call0_v3 (addi : (⟨S4096, .i32⟩ : BufTy).Contents (Elt Ideal) → (⟨S4096, .i32⟩ : BufTy).Contents (Elt Ideal) → (⟨S4096, .i32⟩ : BufTy).Contents (Elt Ideal)),
    StableHlo.ternary main_call0_v1 main_call0_v3 main_v13 main_call0_v4 (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)),
    StableHlo.unary main_call0_v4 main_call0_v5 ((broadcastInDim S4096x1 ![0] bcast_S4096_S4096x1_0) : (⟨S4096, .i32⟩ : BufTy).Contents (Elt Ideal) → (⟨S4096x1, .i32⟩ : BufTy).Contents (Elt Ideal)),
    StableHlo.nullary main_call0_c_1 ((constantI S1 32 31999#32) : (⟨S1, .i32⟩ : BufTy).Contents (Elt Ideal)),
    StableHlo.nullary main_call0_c_2 ((constantI S_ 32 0#32) : (⟨S_, .i32⟩ : BufTy).Contents (Elt Ideal)),
    StableHlo.unary main_call0_c_2 main_call0_v6 ((broadcastInDim S4096x1 ![] bcast_S_S4096x1) : (⟨S_, .i32⟩ : BufTy).Contents (Elt Ideal) → (⟨S4096x1, .i32⟩ : BufTy).Contents (Elt Ideal)),
    StableHlo.binary main_call0_v5 main_call0_v6 main_call0_v7 ((cmpi .sge) : (⟨S4096x1, .i32⟩ : BufTy).Contents (Elt Ideal) → (⟨S4096x1, .i32⟩ : BufTy).Contents (Elt Ideal) → (⟨S4096x1, .i1⟩ : BufTy).Contents (Elt Ideal)),
    StableHlo.unary main_call0_c_1 main_call0_v8 ((broadcastInDim S1x1 ![1] bcast_S1_S1x1_1) : (⟨S1, .i32⟩ : BufTy).Contents (Elt Ideal) → (⟨S1x1, .i32⟩ : BufTy).Contents (Elt Ideal)),
    StableHlo.unary main_call0_v8 main_call0_v9 ((broadcastInDim S4096x1 ![0, 1] bcast_S1x1_S4096x1_0_1) : (⟨S1x1, .i32⟩ : BufTy).Contents (Elt Ideal) → (⟨S4096x1, .i32⟩ : BufTy).Contents (Elt Ideal)),
    StableHlo.binary main_call0_v5 main_call0_v9 main_call0_v10 ((cmpi .sle) : (⟨S4096x1, .i32⟩ : BufTy).Contents (Elt Ideal) → (⟨S4096x1, .i32⟩ : BufTy).Contents (Elt Ideal) → (⟨S4096x1, .i1⟩ : BufTy).Contents (Elt Ideal)),
    StableHlo.binary main_call0_v7 main_call0_v10 main_call0_v11 (andi : (⟨S4096x1, .i1⟩ : BufTy).Contents (Elt Ideal) → (⟨S4096x1, .i1⟩ : BufTy).Contents (Elt Ideal) → (⟨S4096x1, .i1⟩ : BufTy).Contents (Elt Ideal)),
    StableHlo.nullary main_call0_c_3 ((constantI S_ 1 1#1) : (⟨S_, .i1⟩ : BufTy).Contents (Elt Ideal)),
    StableHlo.binary main_call0_v11 main_call0_c_3 main_call0_v12 ((fun x v => Host.reduce IntOp.andi x v reducesTo_S4096x1_S4096_d1 h_S_) : (⟨S4096x1, .i1⟩ : BufTy).Contents (Elt Ideal) → (⟨S_, .i1⟩ : BufTy).Contents (Elt Ideal) → (⟨S4096, .i1⟩ : BufTy).Contents (Elt Ideal)),
    StableHlo.binary main_arg3 main_call0_v5 main_call0_v13 ((fun x i => Host.gather gather_S32000x1024_S4096x1_S4096x1024_1_0_n_n_0_1_11024 x i) : (⟨S32000x1024, .f32⟩ : BufTy).Contents (Elt Ideal) → (⟨S4096x1, .i32⟩ : BufTy).Contents (Elt Ideal) → (⟨S4096x1024, .f32⟩ : BufTy).Contents (Elt Ideal)),
    StableHlo.unary main_call0_v12 main_call0_v14 ((broadcastInDim S4096x1024 ![0] bcast_S4096_S4096x1024_0) : (⟨S4096, .i1⟩ : BufTy).Contents (Elt Ideal) → (⟨S4096x1024, .i1⟩ : BufTy).Contents (Elt Ideal)),
    StableHlo.nullary main_call0_cst ((constant (F := Ideal) S_ .f32 0x7FC00000#32) : (⟨S_, .f32⟩ : BufTy).Contents (Elt Ideal)),
    StableHlo.unary main_call0_cst main_call0_v15 ((broadcastInDim S4096x1024 ![] bcast_S_S4096x1024) : (⟨S_, .f32⟩ : BufTy).Contents (Elt Ideal) → (⟨S4096x1024, .f32⟩ : BufTy).Contents (Elt Ideal)),
    StableHlo.ternary main_call0_v14 main_call0_v13 main_call0_v15 main_v15 (select : (⟨S4096x1024, .i1⟩ : BufTy).Contents (Elt Ideal) → (⟨S4096x1024, .f32⟩ : BufTy).Contents (Elt Ideal) → (⟨S4096x1024, .f32⟩ : BufTy).Contents (Elt Ideal) → (⟨S4096x1024, .f32⟩ : BufTy).Contents (Elt Ideal)) ]

/-- The gather of the biases at the labels, with plain references. -/
abbrev takeB : List (HloOp τ sig (Elt Ideal)) :=
  [ StableHlo.nullary main_call1_c ((constantI S_ 32 0#32) : (⟨S_, .i32⟩ : BufTy).Contents (Elt Ideal)),
    StableHlo.unary main_call1_c main_call1_v0 ((broadcastInDim S4096 ![] bcast_S_S4096) : (⟨S_, .i32⟩ : BufTy).Contents (Elt Ideal) → (⟨S4096, .i32⟩ : BufTy).Contents (Elt Ideal)),
    StableHlo.binary main_v13 main_call1_v0 main_call1_v1 ((cmpi .slt) : (⟨S4096, .i32⟩ : BufTy).Contents (Elt Ideal) → (⟨S4096, .i32⟩ : BufTy).Contents (Elt Ideal) → (⟨S4096, .i1⟩ : BufTy).Contents (Elt Ideal)),
    StableHlo.nullary main_call1_c_0 ((constantI S_ 32 32000#32) : (⟨S_, .i32⟩ : BufTy).Contents (Elt Ideal)),
    StableHlo.unary main_call1_c_0 main_call1_v2 ((broadcastInDim S4096 ![] bcast_S_S4096) : (⟨S_, .i32⟩ : BufTy).Contents (Elt Ideal) → (⟨S4096, .i32⟩ : BufTy).Contents (Elt Ideal)),
    StableHlo.binary main_v13 main_call1_v2 main_call1_v3 (addi : (⟨S4096, .i32⟩ : BufTy).Contents (Elt Ideal) → (⟨S4096, .i32⟩ : BufTy).Contents (Elt Ideal) → (⟨S4096, .i32⟩ : BufTy).Contents (Elt Ideal)),
    StableHlo.ternary main_call1_v1 main_call1_v3 main_v13 main_call1_v4 (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)),
    StableHlo.unary main_call1_v4 main_call1_v5 ((broadcastInDim S4096x1 ![0] bcast_S4096_S4096x1_0) : (⟨S4096, .i32⟩ : BufTy).Contents (Elt Ideal) → (⟨S4096x1, .i32⟩ : BufTy).Contents (Elt Ideal)),
    StableHlo.nullary main_call1_c_1 ((constantI S1 32 31999#32) : (⟨S1, .i32⟩ : BufTy).Contents (Elt Ideal)),
    StableHlo.nullary main_call1_c_2 ((constantI S_ 32 0#32) : (⟨S_, .i32⟩ : BufTy).Contents (Elt Ideal)),
    StableHlo.unary main_call1_c_2 main_call1_v6 ((broadcastInDim S4096x1 ![] bcast_S_S4096x1) : (⟨S_, .i32⟩ : BufTy).Contents (Elt Ideal) → (⟨S4096x1, .i32⟩ : BufTy).Contents (Elt Ideal)),
    StableHlo.binary main_call1_v5 main_call1_v6 main_call1_v7 ((cmpi .sge) : (⟨S4096x1, .i32⟩ : BufTy).Contents (Elt Ideal) → (⟨S4096x1, .i32⟩ : BufTy).Contents (Elt Ideal) → (⟨S4096x1, .i1⟩ : BufTy).Contents (Elt Ideal)),
    StableHlo.unary main_call1_c_1 main_call1_v8 ((broadcastInDim S1x1 ![1] bcast_S1_S1x1_1) : (⟨S1, .i32⟩ : BufTy).Contents (Elt Ideal) → (⟨S1x1, .i32⟩ : BufTy).Contents (Elt Ideal)),
    StableHlo.unary main_call1_v8 main_call1_v9 ((broadcastInDim S4096x1 ![0, 1] bcast_S1x1_S4096x1_0_1) : (⟨S1x1, .i32⟩ : BufTy).Contents (Elt Ideal) → (⟨S4096x1, .i32⟩ : BufTy).Contents (Elt Ideal)),
    StableHlo.binary main_call1_v5 main_call1_v9 main_call1_v10 ((cmpi .sle) : (⟨S4096x1, .i32⟩ : BufTy).Contents (Elt Ideal) → (⟨S4096x1, .i32⟩ : BufTy).Contents (Elt Ideal) → (⟨S4096x1, .i1⟩ : BufTy).Contents (Elt Ideal)),
    StableHlo.binary main_call1_v7 main_call1_v10 main_call1_v11 (andi : (⟨S4096x1, .i1⟩ : BufTy).Contents (Elt Ideal) → (⟨S4096x1, .i1⟩ : BufTy).Contents (Elt Ideal) → (⟨S4096x1, .i1⟩ : BufTy).Contents (Elt Ideal)),
    StableHlo.nullary main_call1_c_3 ((constantI S_ 1 1#1) : (⟨S_, .i1⟩ : BufTy).Contents (Elt Ideal)),
    StableHlo.binary main_call1_v11 main_call1_c_3 main_call1_v12 ((fun x v => Host.reduce IntOp.andi x v reducesTo_S4096x1_S4096_d1 h_S_) : (⟨S4096x1, .i1⟩ : BufTy).Contents (Elt Ideal) → (⟨S_, .i1⟩ : BufTy).Contents (Elt Ideal) → (⟨S4096, .i1⟩ : BufTy).Contents (Elt Ideal)),
    StableHlo.binary main_arg4 main_call1_v5 main_call1_v13 ((fun x i => Host.gather gather_S32000_S4096x1_S4096_n_0_n_n_0_1_1 x i) : (⟨S32000, .f32⟩ : BufTy).Contents (Elt Ideal) → (⟨S4096x1, .i32⟩ : BufTy).Contents (Elt Ideal) → (⟨S4096, .f32⟩ : BufTy).Contents (Elt Ideal)),
    StableHlo.nullary main_call1_cst ((constant (F := Ideal) S_ .f32 0x7FC00000#32) : (⟨S_, .f32⟩ : BufTy).Contents (Elt Ideal)),
    StableHlo.unary main_call1_cst main_call1_v14 ((broadcastInDim S4096 ![] bcast_S_S4096) : (⟨S_, .f32⟩ : BufTy).Contents (Elt Ideal) → (⟨S4096, .f32⟩ : BufTy).Contents (Elt Ideal)),
    StableHlo.ternary main_call1_v12 main_call1_v13 main_call1_v14 main_v16 (select : (⟨S4096, .i1⟩ : BufTy).Contents (Elt Ideal) → (⟨S4096, .f32⟩ : BufTy).Contents (Elt Ideal) → (⟨S4096, .f32⟩ : BufTy).Contents (Elt Ideal) → (⟨S4096, .f32⟩ : BufTy).Contents (Elt Ideal)) ]

theorem takeW_eq : (Gen.hostOps0_1 : List (HloOp τ sig (Elt Ideal))) = takeW := rfl
theorem takeB_eq : (Gen.hostOps0_2 : List (HloOp τ sig (Elt Ideal))) = takeB := rfl

/-! ## The label's position, its validity flag, and the two gathers, read at a row -/

/-- The column of positions the two gathers start from: a negative label counts back from the number of classes. -/
abbrev posArr (X : S4096.Idx → BitVec 32) : S4096x1.Idx → BitVec 32 :=
  broadcastInDim S4096x1 ![0] bcast_S4096_S4096x1_0
    (select (cmpi .slt X (broadcastInDim S4096 ![] bcast_S_S4096 (constantI S_ 32 0#32)))
      (addi X (broadcastInDim S4096 ![] bcast_S_S4096 (constantI S_ 32 32000#32))) X)

/-- Row `r` of the column holds the position of row `r`'s label. -/
theorem posArr_apply (X : S4096.Idx → BitVec 32) (r : Fin 4096) (u : Fin 1) :
    posArr X (ix2 r u) = Cert.Labels.pos (X (ix1 r)) := by
  refine (broadcastInDim_apply _ _ _ (ix2 r u) (ix1 r) fun a => ?_).trans ?_
  · match a with | ⟨0, _⟩ => rfl
  · rfl

/-- The flag a gathered value is kept by: the position lies among the classes (an and-reduction over the column's one
    entry per row). -/
abbrev okArr (P : S4096x1.Idx → BitVec 32) : S4096.Idx → BitVec 1 :=
  Host.reduce IntOp.andi
    (andi (cmpi .sge P (broadcastInDim S4096x1 ![] bcast_S_S4096x1 (constantI S_ 32 0#32)))
      (cmpi .sle P (broadcastInDim S4096x1 ![0, 1] bcast_S1x1_S4096x1_0_1
        (broadcastInDim S1x1 ![1] bcast_S1_S1x1_1 (constantI S1 32 31999#32)))))
    (constantI S_ 1 1#1) reducesTo_S4096x1_S4096_d1 h_S_

theorem and_one (a : BitVec 1) : IntOp.andi a 1#1 = a := by
  rcases BitVec.eq_zero_or_eq_one a with h | h <;> subst h <;> decide

/-- A fold over a one-element index set is one application of the operation. -/
theorem fold_fin1 {β : Type} (op : β → β → β) [Std.Commutative op] [Std.Associative op] (b : β) (g : Fin 1 → β) :
    (Finset.univ : Finset (Fin 1)).fold op b g = op (g 0) b := by
  rw [Finset.univ_unique, Finset.fold_singleton]; rfl

/-- The and-reduction over the one entry of row `r` is that entry's two tests. -/
theorem okArr_apply (P : S4096x1.Idx → BitVec 32) (r : Fin 4096) :
    okArr P (ix1 r) = IntOp.andi (IntOp.cmpi .sge (P (ix2 r (0 : Fin 1))) 0#32) (IntOp.cmpi .sle (P (ix2 r (0 : Fin 1))) 31999#32) := by
  have hred : S4096x1.Reduces [1] S4096 := by decide
  have hl : hred.lift (ix1 r) (0 : Fin 1) = ix2 r (0 : Fin 1) := by
    funext a; refine Fin.ext ?_
    match a with | ⟨0, _⟩ => rfl | ⟨1, _⟩ => rfl
  refine (Host.reduce_eq_fold_single IntOp.andi _ _ reducesTo_S4096x1_S4096_d1 hred h_S_ (ix1 r)).trans ?_
  refine (fold_fin1 IntOp.andi _ _).trans ?_
  show IntOp.andi (IntOp.andi (IntOp.cmpi .sge (P (hred.lift (ix1 r) (0 : Fin 1))) 0#32)
      (IntOp.cmpi .sle (P (hred.lift (ix1 r) (0 : Fin 1))) 31999#32)) 1#1 = _
  rw [and_one, hl]

/-- The gather of weight rows, and of biases, at a column of start positions. -/
abbrev gW := gather_S32000x1024_S4096x1_S4096x1024_1_0_n_n_0_1_11024
abbrev gB := gather_S32000_S4096x1_S4096_n_0_n_n_0_1_1

/-- Row `r` of the gathered weights is the weights' row at the position of row `r`, read signed and clamped into the
    classes. -/
theorem gatherW_apply {α : Type} (Wt : S32000x1024.Idx → α) (P : IVec S4096x1 32) (r : Fin 4096) (k : Fin 1024)
    (x : BitVec 32) (hP : P (ix2 r (0 : Fin 1)) = Cert.Labels.pos x) :
    Host.gather gW Wt P (ix2 r k) = Wt (ix2 (Cert.Labels.cls x) k) := by
  unfold Host.gather
  refine congrArg Wt (funext fun a => Fin.ext ?_)
  match a with
  | ⟨0, _⟩ =>
    show gW.start (ix2 r k) P 0 + gW.batchCoord (ix2 r k) 0 + gW.offCoord (ix2 r k) 0 = _
    rw [gW.batchCoord_eq_zero (ix2 r k) 0 List.not_mem_nil,
      gW.offCoord_eq_zero (ix2 r k) 0 (fun h => ((gW.mem_sKept 0).mp h).1 (List.mem_singleton.mpr rfl))]
    simp only [Nat.add_zero]
    unfold GatherDims.start
    rw [dif_pos (show (0 : Fin 2) ∈ gW.startIndexMap from List.mem_singleton.mpr rfl)]
    have hsi : gW.siIdx (ix2 r k) ⟨List.idxOf (0 : Fin 2) gW.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi, hP]
    rfl
  | ⟨1, _⟩ =>
    show gW.start (ix2 r k) P 1 + gW.batchCoord (ix2 r k) 1 + gW.offCoord (ix2 r k) 1 = _
    have h1 : gW.start (ix2 r k) P 1 = 0 := by
      unfold GatherDims.start
      exact dif_neg (fun h => absurd (List.mem_singleton.mp h) (by decide))
    have h3 : gW.offCoord (ix2 r k) 1 = k.val := by
      unfold GatherDims.offCoord
      rw [dif_pos ((gW.mem_sKept 1).mpr ⟨fun h => absurd (List.mem_singleton.mp h) (by decide), List.not_mem_nil⟩)]
      rfl
    rw [h1, gW.batchCoord_eq_zero (ix2 r k) 1 List.not_mem_nil, h3]
    show 0 + 0 + k.val = k.val
    omega

/-- Entry `r` of the gathered biases is the bias at the position of row `r`, read signed and clamped into the classes. -/
theorem gatherB_apply {α : Type} (Bs : S32000.Idx → α) (P : IVec S4096x1 32) (r : Fin 4096)
    (x : BitVec 32) (hP : P (ix2 r (0 : Fin 1)) = Cert.Labels.pos x) :
    Host.gather gB Bs P (ix1 r) = Bs (ix1 (Cert.Labels.cls x)) := by
  unfold Host.gather
  refine congrArg Bs (funext fun a => Fin.ext ?_)
  match a with
  | ⟨0, _⟩ =>
    show gB.start (ix1 r) P 0 + gB.batchCoord (ix1 r) 0 + gB.offCoord (ix1 r) 0 = _
    rw [gB.batchCoord_eq_zero (ix1 r) 0 List.not_mem_nil,
      gB.offCoord_eq_zero (ix1 r) 0 (fun h => ((gB.mem_sKept 0).mp h).1 (List.mem_singleton.mpr rfl))]
    simp only [Nat.add_zero]
    unfold GatherDims.start
    rw [dif_pos (show (0 : Fin 1) ∈ gB.startIndexMap from List.mem_singleton.mpr rfl)]
    have hsi : gB.siIdx (ix1 r) ⟨List.idxOf (0 : Fin 1) gB.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi, hP]
    rfl

/-! ## The row sums and the broadcasts around them -/

theorem bcast_col {α : Type} (Y : S4096.Idx → α) (r : Fin 4096) (u : Fin 1) :
    broadcastInDim S4096x1 ![0] bcast_S4096_S4096x1_0 Y (ix2 r u) = Y (ix1 r) :=
  broadcastInDim_apply _ _ _ (ix2 r u) (ix1 r) fun a => by match a with | ⟨0, _⟩ => rfl

theorem bcast_rows {α : Type} (Y : S4096.Idx → α) (r : Fin 4096) (k : Fin 1024) :
    broadcastInDim S4096x1024 ![0] bcast_S4096_S4096x1024_0 Y (ix2 r k) = Y (ix1 r) :=
  broadcastInDim_apply _ _ _ (ix2 r k) (ix1 r) fun a => by match a with | ⟨0, _⟩ => rfl

/-- The host's float sum along a row, over the extended reals: the initial value plus the sum of the row. -/
theorem rowsum (Z : FVec Ideal S4096x1024 .f32) (r : Fin 4096) :
    Host.reduceAdd (F := Ideal) Z (constant (F := Ideal) S_ .f32 0x00000000#32) reducesTo_S4096x1024_S4096_d1 h_S_ (ix1 r)
      = Ideal.ofBits .f32 0x00000000#32 + ∑ k : Fin 1024, Z (ix2 r k) := by
  simp only [Host.reduceAdd, Ideal.hostReduceAdd_def]
  rw [Ideal.hostReduceAdd_single reducesTo_S4096x1024_S4096_d1 (by decide)]
  refine congrArg (_ + ·) (Finset.sum_congr rfl fun k _ => ?_)
  exact congrArg Z (funext fun a => Fin.ext (by match a with | ⟨0, _⟩ => rfl | ⟨1, _⟩ => rfl))

/-! ## Window 3: the target logit -/

/-- The flag of row `r`, through the positions' column: the label's position lies among the classes. -/
theorem ok_at (X : S4096.Idx → BitVec 32) (r : Fin 4096) : okArr (posArr X) (ix1 r) = Cert.Labels.ok (X (ix1 r)) := by
  rw [okArr_apply, posArr_apply]
  rfl

/-- The program's target-logit column read at a row, as a function of the flattened hidden states `H`, the weights,
    the biases and the flattened labels `X`: the dot product of the row with the weight row gathered at the label's
    class, plus the bias gathered there, each gathered value replaced by the not-a-number word where the label's
    position is not a class. -/
theorem tgt_read (H : FVec Ideal S4096x1024 .f32) (Wt : FVec Ideal S32000x1024 .f32) (Bs : FVec Ideal S32000 .f32)
    (X : S4096.Idx → BitVec 32) (r : Fin 4096) (u : Fin 1) :
    (addf (broadcastInDim S4096x1 ![0] bcast_S4096_S4096x1_0
        (Host.reduceAdd (F := Ideal) (mulf H (select (broadcastInDim S4096x1024 ![0] bcast_S4096_S4096x1024_0 (okArr (posArr X)))
            (Host.gather gW Wt (posArr X))
            (broadcastInDim S4096x1024 ![] bcast_S_S4096x1024 (constant (F := Ideal) S_ .f32 0x7FC00000#32))))
          (constant (F := Ideal) S_ .f32 0x00000000#32) reducesTo_S4096x1024_S4096_d1 h_S_))
      (broadcastInDim S4096x1 ![0] bcast_S4096_S4096x1_0
        (select (okArr (posArr X)) (Host.gather gB Bs (posArr X))
          (broadcastInDim S4096 ![] bcast_S_S4096 (constant (F := Ideal) S_ .f32 0x7FC00000#32)))) : FVec Ideal S4096x1 .f32)
      (ix2 r u)
    = (Ideal.ofBits .f32 0x00000000#32
        + ∑ k : Fin 1024, H (ix2 r k) * Scalar.select (Cert.Labels.ok (X (ix1 r)))
            (Wt (ix2 (Cert.Labels.cls (X (ix1 r))) k)) (Ideal.ofBits .f32 0x7FC00000#32))
      + Scalar.select (Cert.Labels.ok (X (ix1 r))) (Bs (ix1 (Cert.Labels.cls (X (ix1 r))))) (Ideal.ofBits .f32 0x7FC00000#32) := by
  rw [addf_apply, bcast_col, bcast_col, rowsum]
  refine congrArg₂ (· + ·) (congrArg (_ + ·) (Finset.sum_congr rfl fun k _ => ?_)) ?_
  · rw [mulf_apply, select_apply, bcast_rows, ok_at, gatherW_apply Wt (posArr X) r k (X (ix1 r)) (posArr_apply X r 0)]
    rfl
  · rw [select_apply, ok_at, gatherB_apply Bs (posArr X) r (X (ix1 r)) (posArr_apply X r 0)]
    rfl

/-- What a buffer holds when the region is entered, over the prefix with the two gathers' stretches spelt plainly. -/
theorem V_eq (r : Ref sig .tc) :
    V m c r = after (Gen.hostOps0 ++ (takeW ++ (takeB ++ Gen.hostOps0_3))) (fun b => m (c, b)) (Proc.devRef .tc r) := by
  show after (List.flatten [Gen.hostOps0, Gen.hostOps0_1, Gen.hostOps0_2, Gen.hostOps0_3]) (fun b => m (c, b))
    (Proc.devRef .tc r) = _
  rw [takeW_eq, takeB_eq]
  simp only [List.flatten_cons, List.flatten_nil, List.append_nil]

/-- Window 3: the logit of each row at its label — the row's dot product with the weight row gathered at the label's
    class, from the zero word, plus the bias gathered there; where the label's position is not a class both gathered
    values are the not-a-number word. -/
theorem tgt_at (b : Fin 4) (t : Fin 512) (q : Fin 2) :
    (V m c main_v21 : S4096x1.Idx → EReal) (ix2 (Cert.Labels.row b t q) (0 : Fin 1))
      = (Ideal.ofBits .f32 0x00000000#32
          + ∑ k : Fin 1024, (A0 m c) (ix4 b t q k)
              * Scalar.select (Cert.Labels.ok ((A1 m c) (ix3 b t q)))
                  ((A3 m c)
                    (ix2 (Cert.Labels.cls ((A1 m c) (ix3 b t q))) k))
                  (Ideal.ofBits .f32 0x7FC00000#32))
        + Scalar.select (Cert.Labels.ok ((A1 m c) (ix3 b t q)))
            ((A4 m c)
              (ix1 (Cert.Labels.cls ((A1 m c) (ix3 b t q)))))
            (Ideal.ofBits .f32 0x7FC00000#32) := by
  rw [V_eq]
  simp only [Gen.hostOps0, takeW, takeB, Gen.hostOps0_3, List.cons_append, List.nil_append]
  after_results_simp
  refine (tgt_read
    (shapeCast S4096x1024 (A0 m c) shapeCasts_S4x512x2x1024_S4096x1024)
    (A3 m c)
    (A4 m c)
    (shapeCast S4096 (A1 m c) shapeCasts_S4x512x2_S4096)
    (Cert.Labels.row b t q) 0).trans ?_
  refine congrArg₂ (· + ·) (congrArg (_ + ·) (Finset.sum_congr rfl fun k _ => ?_)) ?_
  · rw [reshape_hidden, reshape_flat]
  · rw [reshape_flat]

end Cert.KernelIdeal.HostPrefix
end
-- ==== Proof.Online.lean ====
/-
  The streaming log-sum-exp of a row ends at the whole row's.

  A row of 32000 logits z is read in 25 chunks of 1280. A running maximum m starts at minus infinity and a running sum l
  at zero; chunk n replaces m by m' = max m (the chunk's maximum) and l by exp (m - m') * l + sum_j exp (z_j - m'),
  the sum over the chunk. After n chunks m is the maximum of the first 1280 n logits and l is the sum of
  exp (z_v - m) over them: rescaling by exp (m - m') turns exp (z_v - m) into exp (z_v - m'). For the empty prefix
  (n = 0) m is minus infinity, but l is zero and anything times zero is zero; for a nonempty prefix of real logits
  every quantity is a real and the identity is exp (x + y) = exp x * exp y. At the end m is the row's maximum M and l
  the row's sum of exp (z_v - M), a positive real, and m + log l - z_c = -((z_c - M) - log l): the negative
  log-softmax at class c. When the target logit is minus infinity instead (a label outside the classes) the left side
  is plus infinity, which is minus the bottom element a not-a-number reads as.
-/
import proofs.«148193_j6347961663553_2_alg».proof.Proof.OnlineDefs
import Idealize.ShloMosaic.PureOps.Ideal
import Idealize.ShloMosaic.PureOps.Ideal.Laws
import Mathlib.Algebra.BigOperators.Fin
import Mathlib.Tactic.Ring
import Mathlib.Tactic.Linarith

noncomputable section

namespace Cert.Online

open Idealize.ShloMosaic

/-- The row's maximum, in the spelling of a reduction from minus infinity. -/
def M (z : ℕ → EReal) : EReal := max ⊥ (Finset.univ.sup fun v : Fin 32000 => z v.val)

theorem M_def (z : ℕ → EReal) : M z = max ⊥ (Finset.univ.sup fun v : Fin 32000 => z v.val) := rfl

/-- The not-a-number word reads as the bottom element. -/
theorem ofBits_nan : Ideal.ofBits .f32 0x7FC00000#32 = (⊥ : EReal) := by
  simp [Ideal.ofBits, Ideal.ieee]

/-! ## The running maximum -/

/-- A fold of max from the bottom element is the supremum. -/
theorem fold_max_bot {ι : Type} (s : Finset ι) (f : ι → EReal) : s.fold max ⊥ f = s.sup f := by
  induction s using Finset.cons_induction with
  | empty => simp
  | cons a s ha ih => rw [Finset.fold_cons, Finset.sup_cons, ih]

theorem chunkMax_le_iff (z : ℕ → EReal) (n : ℕ) (c : EReal) :
    chunkMax z n ≤ c ↔ ∀ j : Fin 1280, z (1280 * n + j.val) ≤ c := by
  unfold chunkMax
  rw [fold_max_bot, Finset.sup_le_iff]
  simp

theorem runMax_succ (z : ℕ → EReal) (n : ℕ) : runMax z (n + 1) = max (runMax z n) (chunkMax z n) := rfl

/-- The running maximum is below c exactly when the logits read so far are. -/
theorem runMax_le_iff (z : ℕ → EReal) (n : ℕ) (c : EReal) : runMax z n ≤ c ↔ ∀ v, v < 1280 * n → z v ≤ c := by
  induction n with
  | zero => simp [runMax]
  | succ n ih =>
    rw [runMax_succ, max_le_iff, ih, chunkMax_le_iff]
    constructor
    · rintro ⟨h1, h2⟩ v hv
      by_cases hlt : v < 1280 * n
      · exact h1 v hlt
      · have h := h2 ⟨v - 1280 * n, by omega⟩
        have e : 1280 * n + (v - 1280 * n) = v := by omega
        simpa only [e] using h
    · intro h
      exact ⟨fun v hv => h v (by omega), fun j => h _ (by have := j.isLt; omega)⟩

/-- T1: after n chunks the running maximum is the supremum of the first 1280 n logits. -/
theorem runMax_eq (z : ℕ → EReal) (n : ℕ) : runMax z n = (Finset.range (1280 * n)).sup z :=
  eq_of_forall_ge_iff fun c => by
    rw [runMax_le_iff, Finset.sup_le_iff]
    simp only [Finset.mem_range]

/-- Over real logits the running maximum of a nonempty prefix is a real. -/
theorem runMax_real {z : ℕ → EReal} (hz : ∀ v, ∃ x : ℝ, z v = (x : EReal)) (n : ℕ) (hn : 0 < n) :
    ∃ a : ℝ, runMax z n = (a : EReal) := by
  rw [runMax_eq]
  obtain ⟨i, -, hi⟩ := Finset.exists_mem_eq_sup (Finset.range (1280 * n))
    (Finset.nonempty_range_iff.2 (by omega)) z
  obtain ⟨x, hx⟩ := hz i
  exact ⟨x, hi.trans hx⟩

/-! ## The running sum -/

/-- A finite sum of reals, each read as an extended real, is the real sum read as one. -/
theorem coe_sum {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The rescaling step: exp (m - m') times the sum of exp (z v - m) is the sum of exp (z v - m'). -/
theorem rescale (x : ℕ → ℝ) (a a' : ℝ) (s : Finset ℕ) :
    Ideal.exp ((a : EReal) - (a' : EReal)) * ∑ v ∈ s, Ideal.exp ((x v : EReal) - (a : EReal))
      = ∑ v ∈ s, Ideal.exp ((x v : EReal) - (a' : EReal)) := by
  simp only [← EReal.coe_sub, Ideal.exp_coe, coe_sum, ← EReal.coe_mul]
  refine congrArg _ ?_
  rw [Finset.mul_sum]
  refine Finset.sum_congr rfl fun v _ => ?_
  rw [← Real.exp_add]
  refine congrArg _ ?_
  ring

/-- T2: after n chunks the running sum is the sum of exp (z v - m) over the first 1280 n logits, m the running
    maximum. -/
theorem runSum_eq {z : ℕ → EReal} (hz : ∀ v, ∃ x : ℝ, z v = (x : EReal)) (n : ℕ) :
    runSum z n = ∑ v ∈ Finset.range (1280 * n), Ideal.exp (z v - runMax z n) := by
  induction n with
  | zero => simp [runSum]
  | succ n ih =>
    have hstep : runSum z (n + 1) = Ideal.exp (runMax z n - runMax z (n + 1)) * runSum z n
        + ∑ j : Fin 1280, Ideal.exp (z (1280 * n + j.val) - runMax z (n + 1)) := rfl
    rw [hstep, ih, show 1280 * (n + 1) = 1280 * n + 1280 by ring, Finset.sum_range_add,
      Finset.sum_range (fun j => Ideal.exp (z (1280 * n + j) - runMax z (n + 1)))]
    refine congrArg (· + _) ?_
    rcases Nat.eq_zero_or_pos n with rfl | hn
    · simp
    · obtain ⟨a, ha⟩ := runMax_real hz n hn
      obtain ⟨a', ha'⟩ := runMax_real hz (n + 1) (Nat.succ_pos n)
      choose x hx using hz
      rw [ha, ha']
      simp only [hx]
      exact rescale x a a' _

/-! ## The end of the row -/

/-- T3: after the 25 chunks the running maximum is the row's. -/
theorem runMax_final (z : ℕ → EReal) : runMax z 25 = M z := by
  rw [M_def, max_bot_left]
  refine eq_of_forall_ge_iff fun c => ?_
  rw [runMax_le_iff, Finset.sup_le_iff]
  simp only [Finset.mem_univ, true_implies, Fin.forall_iff]

/-- T3: after the 25 chunks the running sum is the row's sum of exp (z v - M). -/
theorem runSum_final {z : ℕ → EReal} (hz : ∀ v, ∃ x : ℝ, z v = (x : EReal)) :
    runSum z 25 = ∑ v : Fin 32000, Ideal.exp (z v.val - M z) := by
  rw [runSum_eq hz, runMax_final, show 1280 * 25 = 32000 by norm_num,
    Finset.sum_range (fun v => Ideal.exp (z v - M z))]

/-- The row's maximum is a real. -/
theorem M_real {z : ℕ → EReal} (hz : ∀ v, ∃ x : ℝ, z v = (x : EReal)) : ∃ a : ℝ, M z = (a : EReal) := by
  rw [← runMax_final]
  exact runMax_real hz 25 (by norm_num)

/-- The row's sum of exp (z v - M) is a positive real. -/
theorem sum_real_pos {z : ℕ → EReal} (hz : ∀ v, ∃ x : ℝ, z v = (x : EReal)) :
    ∃ s : ℝ, 0 < s ∧ ∑ v : Fin 32000, Ideal.exp (z v.val - M z) = (s : EReal) := by
  obtain ⟨a, ha⟩ := M_real hz
  choose x hx using hz
  refine ⟨∑ v : Fin 32000, Real.exp (x v.val - a), Finset.sum_pos (fun v _ => Real.exp_pos _) Finset.univ_nonempty, ?_⟩
  rw [ha]
  simp only [hx, ← EReal.coe_sub, Ideal.exp_coe, coe_sum]

/-- T4, THE ROW IDENTITY: the streamed maximum plus the logarithm of the streamed sum, minus the target logit, is minus
    the log-softmax at the class when the label is in range (the target logit is the row's at the class), and minus
    the not-a-number word when it is not (the target logit is minus infinity). -/
theorem row_loss {z : ℕ → EReal} (hz : ∀ v, ∃ x : ℝ, z v = (x : EReal)) (ok : BitVec 1) (c : Fin 32000) (tk : EReal)
    (h1 : ok = 1#1 → tk = z c.val) (h0 : ¬ ok = 1#1 → tk = ⊥) :
    (runMax z 25 + Ideal.log (runSum z 25)) - tk
      = - Scalar.select ok
          ((z c.val - M z) - Ideal.log (Ideal.ofBits .f32 0x00000000#32 + ∑ v : Fin 32000, Ideal.exp (z v.val - M z)))
          (Ideal.ofBits .f32 0x7FC00000#32) := by
  obtain ⟨a, ha⟩ := M_real hz
  obtain ⟨s, hs, hsum⟩ := sum_real_pos hz
  rw [runMax_final, runSum_final hz, hsum, Ideal.ofBits_zero_f32, zero_add, ha, Ideal.log_coe,
    if_neg (not_le.mpr hs)]
  by_cases hok : ok = 1#1
  · obtain ⟨xc, hxc⟩ := hz c.val
    rw [h1 hok, Scalar.select, if_pos (show ok = 1 from hok), hxc, ← EReal.coe_add, ← EReal.coe_sub, ← EReal.coe_sub, ← EReal.coe_sub,
      ← EReal.coe_neg]
    refine congrArg _ ?_
    ring
  · rw [h0 hok, Scalar.select, if_neg (show ¬ ok = 1 from hok), ofBits_nan, EReal.neg_bot, ← EReal.coe_add, EReal.coe_sub_bot]

end Cert.Online

end
-- ==== Proof.RefDefs.lean ====
/-
  The reference's value as closed expressions, and its two sums taken row tile by row tile.

  For each of the 4096 rows (batch entry b, time step t, head q): the logits logit v = sum_k hidden(b,t,q,k) * W(v,k)
  + bias v over the 32000 classes, the row's maximum, the row's sum of exponentials of the shifted logits, the
  log-softmax, the negative log-likelihood at the label's class (minus a not-a-number where the label's position is
  outside the classes), and the loss: the masked sum of the rows' negative log-likelihoods over the larger of the
  mask's sum and one.

  The 4096 rows are also the 4 tiles b of 1024 rows each; row k of tile b is the time step t = k / 2 and the head
  q = k % 2, since 1024 b + 2 t + q = 1024 b + k. A finite sum over the rows is the sum over the tiles of the sums over
  each tile's rows: the extended reals' addition is commutative and associative, so this is a change of index along
  the bijection (b, k) ↦ (b, k / 2, k % 2).
-/
import proofs.«148193_j6347961663553_2_alg».proof.ReferenceIdeal
import proofs.«148193_j6347961663553_2_alg».proof.Proof.Labels
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx Cert.ReferenceIdeal

/-! ## The reference's value in closed form -/

/-- The logit of class v at row (b, t, q): the row of the hidden states against row v of the weights, plus the bias. -/
def logit (H : S4x512x2x1024.Idx → EReal) (W : S32000x1024.Idx → EReal) (B : S32000.Idx → EReal)
    (b : Fin 4) (t : Fin 512) (q : Fin 2) (v : Fin 32000) : EReal :=
  (∑ k : Fin 1024, H (ix4 b t q k) * W (ix2 v k)) + B (ix1 v)

/-- The row's maximum logit (joined with minus infinity, the reduction's initial value). -/
def rowMax (H : S4x512x2x1024.Idx → EReal) (W : S32000x1024.Idx → EReal) (B : S32000.Idx → EReal)
    (b : Fin 4) (t : Fin 512) (q : Fin 2) : EReal :=
  max ⊥ (Finset.univ.sup fun v : Fin 32000 => logit H W B b t q v)

/-- The row's sum of exponentials of the logits shifted by the maximum, from the zero word. -/
def rowSum (H : S4x512x2x1024.Idx → EReal) (W : S32000x1024.Idx → EReal) (B : S32000.Idx → EReal)
    (b : Fin 4) (t : Fin 512) (q : Fin 2) : EReal :=
  Ideal.ofBits .f32 0x00000000#32 + ∑ v : Fin 32000, Ideal.exp (logit H W B b t q v - rowMax H W B b t q)

/-- The log-softmax of the row at class v. -/
def logp (H : S4x512x2x1024.Idx → EReal) (W : S32000x1024.Idx → EReal) (B : S32000.Idx → EReal)
    (b : Fin 4) (t : Fin 512) (q : Fin 2) (v : Fin 32000) : EReal :=
  (logit H W B b t q v - rowMax H W B b t q) - Ideal.log (rowSum H W B b t q)

/-- The row's negative log-likelihood: minus the log-softmax at the label's class, or minus the not-a-number word
    where the label's position is outside the classes. -/
def nllRef (H : S4x512x2x1024.Idx → EReal) (T : S4x512x2.Idx → BitVec 32) (W : S32000x1024.Idx → EReal)
    (B : S32000.Idx → EReal) (b : Fin 4) (t : Fin 512) (q : Fin 2) : EReal :=
  - Scalar.select (Cert.Labels.ok (T (ix3 b t q))) (logp H W B b t q (Cert.Labels.cls (T (ix3 b t q))))
      (Ideal.ofBits .f32 0x7FC00000#32)

/-- The loss: the masked sum of the rows' negative log-likelihoods over the larger of the mask's sum and one. -/
def lossRef (H : S4x512x2x1024.Idx → EReal) (T : S4x512x2.Idx → BitVec 32) (P : S4.Idx → BitVec 32)
    (W : S32000x1024.Idx → EReal) (B : S32000.Idx → EReal) : EReal :=
  Ideal.div
    (Ideal.ofBits .f32 0x00000000#32
      + ∑ j : S4x512x2.Idx, nllRef H T W B (j 0) (j 1) (j 2) * Cert.Labels.keep (T j) (j 1) (P (ix1 (j 0))))
    (max (Ideal.ofBits .f32 0x00000000#32 + ∑ j : S4x512x2.Idx, Cert.Labels.keep (T j) (j 1) (P (ix1 (j 0))))
      (Ideal.ofBits .f32 0x3F800000#32))

/-! ## The sums by row tile -/

/-- The time step of row k of a tile. -/
def half (k : Fin 1024) : Fin 512 := ⟨k.val / 2, by have := k.isLt; omega⟩

/-- The head of row k of a tile. -/
def parity (k : Fin 1024) : Fin 2 := ⟨k.val % 2, by omega⟩

/-- The rows as pairs (tile, row of the tile). -/
def tileEquiv : Fin 4 × Fin 1024 ≃ S4x512x2.Idx where
  toFun p := ix3 p.1 (half p.2) (parity p.2)
  invFun j := (j 0, ⟨2 * (j 1).val + (j 2).val, by
    have h1 : (j 1).val < 512 := (j 1).isLt
    have h2 : (j 2).val < 2 := (j 2).isLt
    omega⟩)
  left_inv := fun ⟨b, k⟩ => Prod.ext rfl (Fin.ext (by
    show 2 * (k.val / 2) + k.val % 2 = k.val
    omega))
  right_inv j := funext fun a => Fin.ext (by
    have h2 : (j 2).val < 2 := (j 2).isLt
    match a with
    | ⟨0, _⟩ => rfl
    | ⟨1, _⟩ => show (2 * (j 1).val + (j 2).val) / 2 = (j 1).val; omega
    | ⟨2, _⟩ => show (2 * (j 1).val + (j 2).val) % 2 = (j 2).val; omega)

/-- A sum over the rows is the sum over the tiles of the sums over each tile's rows. -/
theorem sum_tiles (f : S4x512x2.Idx → EReal) :
    ∑ j : S4x512x2.Idx, f j = ∑ b : Fin 4, ∑ k : Fin 1024, f (ix3 b (half k) (parity k)) := by
  rw [← Equiv.sum_comp tileEquiv f, Fintype.sum_prod_type]
  rfl

/-- The loss with both sums taken tile by tile. -/
theorem lossRef_tiles (H : S4x512x2x1024.Idx → EReal) (T : S4x512x2.Idx → BitVec 32) (P : S4.Idx → BitVec 32)
    (W : S32000x1024.Idx → EReal) (B : S32000.Idx → EReal) :
    lossRef H T P W B
      = Ideal.div
          (Ideal.ofBits .f32 0x00000000#32
            + ∑ b : Fin 4, ∑ k : Fin 1024, nllRef H T W B b (half k) (parity k)
                * Cert.Labels.keep (T (ix3 b (half k) (parity k))) (half k) (P (ix1 b)))
          (max (Ideal.ofBits .f32 0x00000000#32
              + ∑ b : Fin 4, ∑ k : Fin 1024, Cert.Labels.keep (T (ix3 b (half k) (parity k))) (half k) (P (ix1 b)))
            (Ideal.ofBits .f32 0x3F800000#32)) := by
  unfold lossRef
  rw [sum_tiles, sum_tiles]

end Cert.ReferenceIdeal.RefValue

end
-- ==== Proof.RowJoin.lean ====
/-
  One row of the kernel against one row of the reference.

  The kernel region finds, for row n = 1024 b + 2 t + q, the row's hidden states, the class weights and biases, and the
  row's logit at its own label already gathered by the host. A row's logit at class v as the region computes it is the
  reference's logit at (b, t, q, v); all of a row's logits are reals when the inputs are. The streamed maximum plus the
  logarithm of the streamed sum, minus the gathered target logit, is then the reference's negative log-likelihood of
  the row: in range the gathered logit is the row's logit at the label's class; out of range it ends in a
  not-a-number, the bottom element, and a real minus the bottom element is the top element, which is minus the
  not-a-number the reference selects.
-/
import proofs.«148193_j6347961663553_2_alg».proof.Proof.RegionArrays
import proofs.«148193_j6347961663553_2_alg».proof.Proof.HostPrefix
import proofs.«148193_j6347961663553_2_alg».proof.Proof.Online
import proofs.«148193_j6347961663553_2_alg».proof.Proof.RefDefs

noncomputable section

namespace Cert.RowJoin

open Idealize.ShloMosaic Idealize.ShloMosaic.TcCoe Idealize.ShloMosaic.ValueIdx Idealize.SL.Sem
open Cert.KernelIdeal Cert.KernelIdeal.Gen Cert.KernelIdeal.Grid Cert.KernelIdeal.HostPrefix
open Cert.ReferenceIdeal.RefValue

variable (m : (ℓ : Loc nD τ sig) → Buf (Elt Ideal) ℓ) (c : Dev nD)

/-- J1: the region's logit of row (b, t, q) at class v is the reference's. -/
theorem rowLogit_eq (b : Fin 4) (t : Fin 512) (q : Fin 2) (v : Fin 32000) :
    rowLogit m c (Cert.Labels.row b t q) v.val = logit (A0 m c) (A3 m c) (A4 m c) b t q v := by
  unfold rowLogit
  rw [dif_pos v.isLt]
  unfold logit
  exact congrArg₂ (· + ·)
    (Finset.sum_congr rfl fun k _ => congrArg₂ (· * ·) (hidden_at m c b t q k) (weight_at m c v k))
    (bias_at m c v)

/-- The reference's logit is a real when the inputs are. -/
theorem logit_real (hH : ∀ i, ∃ x : ℝ, A0 m c i = (x : EReal)) (hW : ∀ i, ∃ x : ℝ, A3 m c i = (x : EReal))
    (hB : ∀ i, ∃ x : ℝ, A4 m c i = (x : EReal)) (b : Fin 4) (t : Fin 512) (q : Fin 2) (v : Fin 32000) :
    ∃ x : ℝ, logit (A0 m c) (A3 m c) (A4 m c) b t q v = (x : EReal) := by
  choose xh hxh using hH
  choose xw hxw using hW
  choose xb hxb using hB
  refine ⟨(∑ k : Fin 1024, xh (ix4 b t q k) * xw (ix2 v k)) + xb (ix1 v), ?_⟩
  unfold logit
  simp only [hxh, hxw, hxb, ← EReal.coe_mul, Cert.Online.coe_sum, ← EReal.coe_add]

/-- J2: every logit of every row is a real when the inputs are. -/
theorem rowLogit_real (hH : ∀ i, ∃ x : ℝ, A0 m c i = (x : EReal)) (hW : ∀ i, ∃ x : ℝ, A3 m c i = (x : EReal))
    (hB : ∀ i, ∃ x : ℝ, A4 m c i = (x : EReal)) (n : Fin 4096) : ∀ v, ∃ x : ℝ, rowLogit m c n v = (x : EReal) := by
  intro v
  have hn : n = Cert.Labels.row ⟨n.val / 1024, by have := n.isLt; omega⟩ ⟨n.val % 1024 / 2, by omega⟩
      ⟨n.val % 2, by omega⟩ :=
    Fin.ext (by show n.val = 1024 * (n.val / 1024) + 2 * (n.val % 1024 / 2) + n.val % 2; omega)
  by_cases hv : v < 32000
  · rw [hn]
    exact (rowLogit_eq m c _ _ _ ⟨v, hv⟩) ▸ logit_real m c hH hW hB _ _ _ ⟨v, hv⟩
  · refine ⟨0, ?_⟩
    unfold rowLogit
    rw [dif_neg hv]
    rfl

/-- J3 at explicit coordinates: the streamed log-sum-exp of row (b, t, q) minus the gathered target logit is the
    reference's negative log-likelihood of the row. -/
theorem row_join_at (hH : ∀ i, ∃ x : ℝ, A0 m c i = (x : EReal)) (hW : ∀ i, ∃ x : ℝ, A3 m c i = (x : EReal))
    (hB : ∀ i, ∃ x : ℝ, A4 m c i = (x : EReal)) (b : Fin 4) (t : Fin 512) (q : Fin 2) :
    (Cert.Online.runMax (rowLogit m c (Cert.Labels.row b t q)) 25
        + Ideal.log (Cert.Online.runSum (rowLogit m c (Cert.Labels.row b t q)) 25))
      - targetArr m c (ix2 (Cert.Labels.row b t q) (0 : Fin 1))
      = nllRef (A0 m c) (A1 m c) (A3 m c) (A4 m c) b t q := by
  have hz := rowLogit_real m c hH hW hB (Cert.Labels.row b t q)
  have hzv : ∀ v : Fin 32000, rowLogit m c (Cert.Labels.row b t q) v.val = logit (A0 m c) (A3 m c) (A4 m c) b t q v :=
    rowLogit_eq m c b t q
  have hM : Cert.Online.M (rowLogit m c (Cert.Labels.row b t q)) = rowMax (A0 m c) (A3 m c) (A4 m c) b t q := by
    rw [Cert.Online.M_def]
    unfold rowMax
    exact congrArg (max ⊥) (congrArg (Finset.sup Finset.univ) (funext hzv))
  have ht : targetArr m c (ix2 (Cert.Labels.row b t q) (0 : Fin 1)) = _ := tgt_at m c b t q
  rw [ht]
  refine (Cert.Online.row_loss hz (Cert.Labels.ok ((A1 m c) (ix3 b t q))) (Cert.Labels.cls ((A1 m c) (ix3 b t q))) _
    ?_ ?_).trans ?_
  · intro hok
    rw [hzv, hok]
    simp only [select_one, Ideal.ofBits_zero_f32, zero_add]
    rfl
  · intro hok
    rw [eq_zero_of_ne_one hok]
    simp only [select_zero]
    rw [Cert.Online.ofBits_nan, EReal.add_bot]
  · rw [hM]
    simp only [hzv]
    rfl

/-- J3: row k of tile b. -/
theorem row_join (hH : ∀ i, ∃ x : ℝ, A0 m c i = (x : EReal)) (hW : ∀ i, ∃ x : ℝ, A3 m c i = (x : EReal))
    (hB : ∀ i, ∃ x : ℝ, A4 m c i = (x : EReal)) (b : Fin 4) (k : Fin 1024) :
    (Cert.Online.runMax (rowLogit m c (Cert.Labels.row b (half k) (parity k))) 25
        + Ideal.log (Cert.Online.runSum (rowLogit m c (Cert.Labels.row b (half k) (parity k))) 25))
      - targetArr m c (ix2 (Cert.Labels.row b (half k) (parity k)) (0 : Fin 1))
      = nllRef (A0 m c) (A1 m c) (A3 m c) (A4 m c) b (half k) (parity k) :=
  row_join_at m c hH hW hB b (half k) (parity k)

/-- J4: the weight of row k of tile b. -/
theorem keep_join (b : Fin 4) (k : Fin 1024) :
    keepArr m c (ix2 (Cert.Labels.row b (half k) (parity k)) (0 : Fin 1))
      = Cert.Labels.keep ((A1 m c) (ix3 b (half k) (parity k))) (half k) ((A2 m c) (ix1 b)) :=
  mask_at m c b (half k) (parity k)

end Cert.RowJoin

end
-- ==== Proof.Join.lean ====
/-
  The kernel's result is the reference's loss.

  When the region ends, block b of each of the two output arrays holds tile b's sum over its 1024 rows: of the rows'
  weighted losses in one array, of the rows' weights in the other. Row k of tile b is row (b, k / 2, k % 2) of the
  reference; its loss is the reference's negative log-likelihood and its weight the reference's mask. The host's last
  lines take one entry of each block, sum the four from zero, and divide: the reference's loss with both of its sums
  taken tile by tile.
-/
import proofs.«148193_j6347961663553_2_alg».proof.Proof.KernelFinal
import proofs.«148193_j6347961663553_2_alg».proof.Proof.TailValue
import proofs.«148193_j6347961663553_2_alg».proof.Proof.RowJoin
import proofs.«148193_j6347961663553_2_alg».proof.Proof.RefDefs

noncomputable section

namespace Cert.Join

open Idealize.ShloMosaic Idealize.ShloMosaic.TcCoe Idealize.ShloMosaic.ValueIdx Idealize.SL.Sem
open Cert.KernelIdeal Cert.KernelIdeal.Gen Cert.KernelIdeal.Grid Cert.KernelIdeal.HostPrefix
open Cert.ReferenceIdeal.RefValue

variable (m : (ℓ : Loc nD τ sig) → Buf (Elt Ideal) ℓ) (c : Dev nD)

/-- Row k of tile b is row (b, k / 2, k % 2). -/
theorem rowOf_eq (b : Fin 4) (k : Fin 1024) : rowOf b k = Cert.Labels.row b (half k) (parity k) :=
  Fin.ext (by
    show 1024 * b.val + k.val = 1024 * b.val + 2 * (k.val / 2) + k.val % 2
    omega)

/-- A tile's sum of weighted losses, in the reference's terms. -/
theorem tileLoss_eq (hH : ∀ i, ∃ x : ℝ, A0 m c i = (x : EReal)) (hW : ∀ i, ∃ x : ℝ, A3 m c i = (x : EReal))
    (hB : ∀ i, ∃ x : ℝ, A4 m c i = (x : EReal)) (b : Fin 4) :
    tileLoss m c b = ∑ k : Fin 1024, nllRef (A0 m c) (A1 m c) (A3 m c) (A4 m c) b (half k) (parity k)
      * Cert.Labels.keep ((A1 m c) (ix3 b (half k) (parity k))) (half k) ((A2 m c) (ix1 b)) := by
  unfold tileLoss
  refine Finset.sum_congr rfl fun k _ => ?_
  rw [rowOf_eq]
  unfold rowLoss
  rw [Cert.RowJoin.row_join m c hH hW hB b k, Cert.RowJoin.keep_join m c b k]

/-- A tile's sum of weights, in the reference's terms. -/
theorem tileWeight_eq (b : Fin 4) :
    tileWeight m c b
      = ∑ k : Fin 1024, Cert.Labels.keep ((A1 m c) (ix3 b (half k) (parity k))) (half k) ((A2 m c) (ix1 b)) := by
  unfold tileWeight
  refine Finset.sum_congr rfl fun k _ => ?_
  rw [rowOf_eq, Cert.RowJoin.keep_join m c b k]

/-- The entry of the array of weighted losses the host reads for tile b. -/
theorem lossArr_corner (b : Fin 4) :
    lossArr m c (ix2 (⟨8 * b.val, by omega⟩ : Fin 32) (0 : Fin 128)) = tileLoss m c b := by
  unfold lossArr
  refine congrArg (tileLoss m c) (Fin.ext ?_)
  show 8 * b.val / 8 = b.val
  omega

/-- The entry of the array of weights the host reads for tile b. -/
theorem weightsArr_corner (b : Fin 4) :
    weightsArr m c (ix2 (⟨8 * b.val, by omega⟩ : Fin 32) (0 : Fin 128)) = tileWeight m c b := by
  unfold weightsArr
  refine congrArg (tileWeight m c) (Fin.ext ?_)
  show 8 * b.val / 8 = b.val
  omega

/-- The kernel program's result is the reference's loss. -/
theorem kernel_loss (hH : ∀ i, ∃ x : ℝ, A0 m c i = (x : EReal)) (hW : ∀ i, ∃ x : ℝ, A3 m c i = (x : EReal))
    (hB : ∀ i, ∃ x : ℝ, A4 m c i = (x : EReal)) :
    Cert.KernelIdeal.Tail.mean (lossArr m c) (weightsArr m c)
      = fun _ => lossRef (A0 m c) (A1 m c) (A2 m c) (A3 m c) (A4 m c) := by
  funext j
  rw [eq_ix0 j, Cert.KernelIdeal.Tail.mean_at, lossRef_tiles]
  simp only [lossArr_corner, weightsArr_corner, tileLoss_eq m c hH hW hB, tileWeight_eq m c]

end Cert.Join

end
-- ==== Proof.RefRun.lean ====
/-
  The reference program's run over the extended reals.

  The reference is a straight line of 65 host operations: the logits `hidden · Wᵀ + b` over all 32000 classes, their
  log-softmax along the class axis, the gather of each row's entry at its label (the label turned into a position, the
  position tested to lie among the classes, a not-a-number where it does not), the negation, the mask of the rows that
  count, and the masked mean. Every weakly fair execution terminates with the loss buffer at the operations' composed
  term of the five arguments (`res_main_v25`) and the arguments unchanged (`run`).

  The operations of the two called functions are stated over typed references, which move each operand and result along
  an equation between a reference's buffer type and a tensor type — the identity at a literal reference. `opsP` is the
  same list with plain references and `ops_eq` says the two lists are one list (the maximum over the class axis is kept
  folded there: it is the same fold on both sides, over an index set too large to open); the run is read off `opsP`, so
  that no transport appears in what a buffer holds.
-/
import proofs.«148193_j6347961663553_2_alg».proof.Proof.Gen.ReferenceIdeal
import Idealize.ShloMosaic.Lib.StableHlo.Run
import Idealize.ShloMosaic.PureOps.Ideal

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference's 65 operations, in order, as the program spells them: the operations of the two called functions
    (the log-softmax and the gather along the class axis) stand in their calls' places, over typed references. -/
abbrev ops : List (HloOp τ sig (Elt F)) :=
  [ nullary main_c (constantI S_ 32 0#32),
    unary main_c main_v0 (broadcastInDim S4x512x2 ![] bcast_S_S4x512x2 : (⟨S_, .i32⟩ : BufTy).Contents (Elt F) → (⟨S4x512x2, .i32⟩ : BufTy).Contents (Elt F)),
    binary main_arg1 main_v0 main_v1 (cmpi .ne : (⟨S4x512x2, .i32⟩ : BufTy).Contents (Elt F) → (⟨S4x512x2, .i32⟩ : BufTy).Contents (Elt F) → (⟨S4x512x2, .i1⟩ : BufTy).Contents (Elt F)),
    nullary main_v2 (iotaInDim S512 32 0),
    unary main_v2 main_v3 (broadcastInDim S1x512 ![1] bcast_S512_S1x512_1 : (⟨S512, .i32⟩ : BufTy).Contents (Elt F) → (⟨S1x512, .i32⟩ : BufTy).Contents (Elt F)),
    unary main_arg2 main_v4 (broadcastInDim S4x1 ![0] bcast_S4_S4x1_0 : (⟨S4, .i32⟩ : BufTy).Contents (Elt F) → (⟨S4x1, .i32⟩ : BufTy).Contents (Elt F)),
    unary main_v3 main_v5 (broadcastInDim S4x512 ![0, 1] bcast_S1x512_S4x512_0_1 : (⟨S1x512, .i32⟩ : BufTy).Contents (Elt F) → (⟨S4x512, .i32⟩ : BufTy).Contents (Elt F)),
    unary main_v4 main_v6 (broadcastInDim S4x512 ![0, 1] bcast_S4x1_S4x512_0_1 : (⟨S4x1, .i32⟩ : BufTy).Contents (Elt F) → (⟨S4x512, .i32⟩ : BufTy).Contents (Elt F)),
    binary main_v5 main_v6 main_v7 (cmpi .sge : (⟨S4x512, .i32⟩ : BufTy).Contents (Elt F) → (⟨S4x512, .i32⟩ : BufTy).Contents (Elt F) → (⟨S4x512, .i1⟩ : BufTy).Contents (Elt F)),
    unary main_v7 main_v8 (broadcastInDim S4x512x1 ![0, 1] bcast_S4x512_S4x512x1_0_1 : (⟨S4x512, .i1⟩ : BufTy).Contents (Elt F) → (⟨S4x512x1, .i1⟩ : BufTy).Contents (Elt F)),
    unary main_v8 main_v9 (broadcastInDim S4x512x2 ![0, 1, 2] bcast_S4x512x1_S4x512x2_0_1_2 : (⟨S4x512x1, .i1⟩ : BufTy).Contents (Elt F) → (⟨S4x512x2, .i1⟩ : BufTy).Contents (Elt F)),
    binary main_v1 main_v9 main_v10 (andi : (⟨S4x512x2, .i1⟩ : BufTy).Contents (Elt F) → (⟨S4x512x2, .i1⟩ : BufTy).Contents (Elt F) → (⟨S4x512x2, .i1⟩ : BufTy).Contents (Elt F)),
    binary main_arg0 main_arg3 main_v11 ((fun l r => Host.dotGeneral dot_S4x512x2x1024_S32000x1024_S4x512x2x32000_3_1_012_0_n_n none l r) : (⟨S4x512x2x1024, .f32⟩ : BufTy).Contents (Elt F) → (⟨S32000x1024, .f32⟩ : BufTy).Contents (Elt F) → (⟨S4x512x2x32000, .f32⟩ : BufTy).Contents (Elt F)),
    unary main_arg4 main_v12 (broadcastInDim S1x1x1x32000 ![3] bcast_S32000_S1x1x1x32000_3 : (⟨S32000, .f32⟩ : BufTy).Contents (Elt F) → (⟨S1x1x1x32000, .f32⟩ : BufTy).Contents (Elt F)),
    unary main_v12 main_v13 (broadcastInDim S4x512x2x32000 ![0, 1, 2, 3] bcast_S1x1x1x32000_S4x512x2x32000_0_1_2_3 : (⟨S1x1x1x32000, .f32⟩ : BufTy).Contents (Elt F) → (⟨S4x512x2x32000, .f32⟩ : BufTy).Contents (Elt F)),
    binary main_v11 main_v13 main_v14 (addf : (⟨S4x512x2x32000, .f32⟩ : BufTy).Contents (Elt F) → (⟨S4x512x2x32000, .f32⟩ : BufTy).Contents (Elt F) → (⟨S4x512x2x32000, .f32⟩ : BufTy).Contents (Elt F)),
    TRef.nullary (TRef.of (T := ⟨S_, .f32⟩) main_call0_cst) (constant S_ .f32 0xFF800000#32),
    TRef.binary (TRef.of (T := ⟨S4x512x2x32000, .f32⟩) main_v14) (TRef.of (T := ⟨S_, .f32⟩) main_call0_cst) (TRef.of (T := ⟨S4x512x2, .f32⟩) main_call0_v0) (fun x v => Host.reduce FloatOps.maximumf x v reducesTo_S4x512x2x32000_S4x512x2_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S4x512x2, .f32⟩) main_call0_v1) (broadcastInDim S4x512x2 ![] bcast_S_S4x512x2),
    TRef.binary (TRef.of (T := ⟨S4x512x2, .f32⟩) main_call0_v1) (TRef.of (T := ⟨S4x512x2, .f32⟩) main_call0_v0) (TRef.of (T := ⟨S4x512x2, .f32⟩) main_call0_v2) maximumf,
    TRef.unary (TRef.of (T := ⟨S4x512x2, .f32⟩) main_call0_v2) (TRef.of (T := ⟨S4x512x2x1, .f32⟩) main_call0_v3) (broadcastInDim S4x512x2x1 ![0, 1, 2] bcast_S4x512x2_S4x512x2x1_0_1_2),
    TRef.unary (TRef.of (T := ⟨S4x512x2x1, .f32⟩) main_call0_v3) (TRef.of (T := ⟨S4x512x2x32000, .f32⟩) main_call0_v4) (broadcastInDim S4x512x2x32000 ![0, 1, 2, 3] bcast_S4x512x2x1_S4x512x2x32000_0_1_2_3),
    TRef.binary (TRef.of (T := ⟨S4x512x2x32000, .f32⟩) main_v14) (TRef.of (T := ⟨S4x512x2x32000, .f32⟩) main_call0_v4) (TRef.of (T := ⟨S4x512x2x32000, .f32⟩) main_call0_v5) subf,
    TRef.unary (TRef.of (T := ⟨S4x512x2x32000, .f32⟩) main_call0_v5) (TRef.of (T := ⟨S4x512x2x32000, .f32⟩) main_call0_v6) Host.exp,
    TRef.nullary (TRef.of (T := ⟨S_, .f32⟩) main_call0_cst_1) (constant S_ .f32 0x00000000#32),
    TRef.binary (TRef.of (T := ⟨S4x512x2x32000, .f32⟩) main_call0_v6) (TRef.of (T := ⟨S_, .f32⟩) main_call0_cst_1) (TRef.of (T := ⟨S4x512x2, .f32⟩) main_call0_v7) (fun x v => Host.reduceAdd x v reducesTo_S4x512x2x32000_S4x512x2_d3 h_S_),
    TRef.unary (TRef.of (T := ⟨S4x512x2, .f32⟩) main_call0_v7) (TRef.of (T := ⟨S4x512x2x1, .f32⟩) main_call0_v8) (broadcastInDim S4x512x2x1 ![0, 1, 2] bcast_S4x512x2_S4x512x2x1_0_1_2),
    TRef.unary (TRef.of (T := ⟨S4x512x2x1, .f32⟩) main_call0_v8) (TRef.of (T := ⟨S4x512x2x1, .f32⟩) main_call0_v9) Host.log,
    TRef.unary (TRef.of (T := ⟨S4x512x2x1, .f32⟩) main_call0_v9) (TRef.of (T := ⟨S4x512x2x32000, .f32⟩) main_call0_v10) (broadcastInDim S4x512x2x32000 ![0, 1, 2, 3] bcast_S4x512x2x1_S4x512x2x32000_0_1_2_3),
    TRef.binary (TRef.of (T := ⟨S4x512x2x32000, .f32⟩) main_call0_v5) (TRef.of (T := ⟨S4x512x2x32000, .f32⟩) main_call0_v10) (TRef.of (T := ⟨S4x512x2x32000, .f32⟩) main_v15) subf,
    unary main_arg1 main_v16 (broadcastInDim S4x512x2x1 ![0, 1, 2] bcast_S4x512x2_S4x512x2x1_0_1_2 : (⟨S4x512x2, .i32⟩ : BufTy).Contents (Elt F) → (⟨S4x512x2x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x512x2x1, .i32⟩) main_call1_v0) (broadcastInDim S4x512x2x1 ![] bcast_S_S4x512x2x1),
    TRef.binary (TRef.of (T := ⟨S4x512x2x1, .i32⟩) main_v16) (TRef.of (T := ⟨S4x512x2x1, .i32⟩) main_call1_v0) (TRef.of (T := ⟨S4x512x2x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4x512x2x1, .i32⟩) main_call1_v2) (broadcastInDim S4x512x2x1 ![] bcast_S_S4x512x2x1),
    TRef.binary (TRef.of (T := ⟨S4x512x2x1, .i32⟩) main_v16) (TRef.of (T := ⟨S4x512x2x1, .i32⟩) main_call1_v2) (TRef.of (T := ⟨S4x512x2x1, .i32⟩) main_call1_v3) addi,
    TRef.ternary (TRef.of (T := ⟨S4x512x2x1, .i1⟩) main_call1_v1) (TRef.of (T := ⟨S4x512x2x1, .i32⟩) main_call1_v3) (TRef.of (T := ⟨S4x512x2x1, .i32⟩) main_v16) (TRef.of (T := ⟨S4x512x2x1, .i32⟩) main_call1_v4) select,
    TRef.reshape (TRef.of (T := ⟨S4x512x2x1, .i32⟩) main_call1_v4) (TRef.of (T := ⟨S4x512x2x1x1, .i32⟩) main_call1_v5) rfl shapeCasts_S4x512x2x1_S4x512x2x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4x512x2x1x1, .i32⟩) main_call1_v6) (broadcastInDim S4x512x2x1x1 ![] bcast_S_S4x512x2x1x1),
    TRef.binary (TRef.of (T := ⟨S4x512x2x1x1, .i32⟩) main_call1_v5) (TRef.of (T := ⟨S4x512x2x1x1, .i32⟩) main_call1_v6) (TRef.of (T := ⟨S4x512x2x1x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S4x512x2x1x1, .i32⟩) main_call1_v9) (broadcastInDim S4x512x2x1x1 ![0, 1, 2, 3, 4] bcast_S1x1x1x1x1_S4x512x2x1x1_0_1_2_3_4),
    TRef.binary (TRef.of (T := ⟨S4x512x2x1x1, .i32⟩) main_call1_v5) (TRef.of (T := ⟨S4x512x2x1x1, .i32⟩) main_call1_v9) (TRef.of (T := ⟨S4x512x2x1x1, .i1⟩) main_call1_v10) (cmpi .sle),
    TRef.binary (TRef.of (T := ⟨S4x512x2x1x1, .i1⟩) main_call1_v7) (TRef.of (T := ⟨S4x512x2x1x1, .i1⟩) main_call1_v10) (TRef.of (T := ⟨S4x512x2x1x1, .i1⟩) main_call1_v11) andi,
    TRef.nullary (TRef.of (T := ⟨S_, .i1⟩) main_call1_c_3) (constantI S_ 1 1#1),
    TRef.binary (TRef.of (T := ⟨S4x512x2x1x1, .i1⟩) main_call1_v11) (TRef.of (T := ⟨S_, .i1⟩) main_call1_c_3) (TRef.of (T := ⟨S4x512x2x1, .i1⟩) main_call1_v12) (fun x v => Host.reduce IntOp.andi x v reducesTo_S4x512x2x1x1_S4x512x2x1_d4 h_S_),
    TRef.binary (TRef.of (T := ⟨S4x512x2x32000, .f32⟩) main_v15) (TRef.of (T := ⟨S4x512x2x1x1, .i32⟩) main_call1_v5) (TRef.of (T := ⟨S4x512x2x1, .f32⟩) main_call1_v13) (fun x i => Host.gather gather_S4x512x2x32000_S4x512x2x1x1_S4x512x2x1_n_3_012_012_3_4_1111 x i),
    TRef.nullary (TRef.of (T := ⟨S_, .f32⟩) main_call1_cst) (constant S_ .f32 0x7FC00000#32),
    TRef.unary (TRef.of (T := ⟨S_, .f32⟩) main_call1_cst) (TRef.of (T := ⟨S4x512x2x1, .f32⟩) main_call1_v14) (broadcastInDim S4x512x2x1 ![] bcast_S_S4x512x2x1),
    TRef.ternary (TRef.of (T := ⟨S4x512x2x1, .i1⟩) main_call1_v12) (TRef.of (T := ⟨S4x512x2x1, .f32⟩) main_call1_v13) (TRef.of (T := ⟨S4x512x2x1, .f32⟩) main_call1_v14) (TRef.of (T := ⟨S4x512x2x1, .f32⟩) main_v17) select,
    reshape main_v17 main_v18 rfl shapeCasts_S4x512x2x1_S4x512x2,
    unary main_v18 main_v19 (Host.negf : (⟨S4x512x2, .f32⟩ : BufTy).Contents (Elt F) → (⟨S4x512x2, .f32⟩ : BufTy).Contents (Elt F)),
    unary main_v10 main_v20 (uitofp .f32 : (⟨S4x512x2, .i1⟩ : BufTy).Contents (Elt F) → (⟨S4x512x2, .f32⟩ : BufTy).Contents (Elt F)),
    binary main_v19 main_v20 main_v21 (mulf : (⟨S4x512x2, .f32⟩ : BufTy).Contents (Elt F) → (⟨S4x512x2, .f32⟩ : BufTy).Contents (Elt F) → (⟨S4x512x2, .f32⟩ : BufTy).Contents (Elt F)),
    nullary main_cst (constant S_ .f32 0x00000000#32),
    binary main_v21 main_cst main_v22 ((fun x v => Host.reduceAdd x v reducesTo_S4x512x2_S_d0_1_2 h_S_) : (⟨S4x512x2, .f32⟩ : BufTy).Contents (Elt F) → (⟨S_, .f32⟩ : BufTy).Contents (Elt F) → (⟨S_, .f32⟩ : BufTy).Contents (Elt F)),
    nullary main_cst_0 (constant S_ .f32 0x00000000#32),
    binary main_v20 main_cst_0 main_v23 ((fun x v => Host.reduceAdd x v reducesTo_S4x512x2_S_d0_1_2 h_S_) : (⟨S4x512x2, .f32⟩ : BufTy).Contents (Elt F) → (⟨S_, .f32⟩ : BufTy).Contents (Elt F) → (⟨S_, .f32⟩ : BufTy).Contents (Elt F)),
    nullary main_cst_1 (constant S_ .f32 0x3F800000#32),
    binary main_v23 main_cst_1 main_v24 (maximumf : (⟨S_, .f32⟩ : BufTy).Contents (Elt F) → (⟨S_, .f32⟩ : BufTy).Contents (Elt F) → (⟨S_, .f32⟩ : BufTy).Contents (Elt F)),
    binary main_v22 main_v24 main_v25 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl

/-- The same 65 operations with plain references: an operation over typed references moves its operands and its result
    along the equation between a reference's buffer type and the tensor type, the identity at a literal reference, so
    each is the plain operation at the same references and the same function. -/
abbrev opsP : List (HloOp τ sig (Elt F)) :=
  [ nullary main_c (constantI S_ 32 0#32),
    unary main_c main_v0 (broadcastInDim S4x512x2 ![] bcast_S_S4x512x2 : (⟨S_, .i32⟩ : BufTy).Contents (Elt F) → (⟨S4x512x2, .i32⟩ : BufTy).Contents (Elt F)),
    binary main_arg1 main_v0 main_v1 (cmpi .ne : (⟨S4x512x2, .i32⟩ : BufTy).Contents (Elt F) → (⟨S4x512x2, .i32⟩ : BufTy).Contents (Elt F) → (⟨S4x512x2, .i1⟩ : BufTy).Contents (Elt F)),
    nullary main_v2 (iotaInDim S512 32 0),
    unary main_v2 main_v3 (broadcastInDim S1x512 ![1] bcast_S512_S1x512_1 : (⟨S512, .i32⟩ : BufTy).Contents (Elt F) → (⟨S1x512, .i32⟩ : BufTy).Contents (Elt F)),
    unary main_arg2 main_v4 (broadcastInDim S4x1 ![0] bcast_S4_S4x1_0 : (⟨S4, .i32⟩ : BufTy).Contents (Elt F) → (⟨S4x1, .i32⟩ : BufTy).Contents (Elt F)),
    unary main_v3 main_v5 (broadcastInDim S4x512 ![0, 1] bcast_S1x512_S4x512_0_1 : (⟨S1x512, .i32⟩ : BufTy).Contents (Elt F) → (⟨S4x512, .i32⟩ : BufTy).Contents (Elt F)),
    unary main_v4 main_v6 (broadcastInDim S4x512 ![0, 1] bcast_S4x1_S4x512_0_1 : (⟨S4x1, .i32⟩ : BufTy).Contents (Elt F) → (⟨S4x512, .i32⟩ : BufTy).Contents (Elt F)),
    binary main_v5 main_v6 main_v7 (cmpi .sge : (⟨S4x512, .i32⟩ : BufTy).Contents (Elt F) → (⟨S4x512, .i32⟩ : BufTy).Contents (Elt F) → (⟨S4x512, .i1⟩ : BufTy).Contents (Elt F)),
    unary main_v7 main_v8 (broadcastInDim S4x512x1 ![0, 1] bcast_S4x512_S4x512x1_0_1 : (⟨S4x512, .i1⟩ : BufTy).Contents (Elt F) → (⟨S4x512x1, .i1⟩ : BufTy).Contents (Elt F)),
    unary main_v8 main_v9 (broadcastInDim S4x512x2 ![0, 1, 2] bcast_S4x512x1_S4x512x2_0_1_2 : (⟨S4x512x1, .i1⟩ : BufTy).Contents (Elt F) → (⟨S4x512x2, .i1⟩ : BufTy).Contents (Elt F)),
    binary main_v1 main_v9 main_v10 (andi : (⟨S4x512x2, .i1⟩ : BufTy).Contents (Elt F) → (⟨S4x512x2, .i1⟩ : BufTy).Contents (Elt F) → (⟨S4x512x2, .i1⟩ : BufTy).Contents (Elt F)),
    binary main_arg0 main_arg3 main_v11 ((fun l r => Host.dotGeneral dot_S4x512x2x1024_S32000x1024_S4x512x2x32000_3_1_012_0_n_n none l r) : (⟨S4x512x2x1024, .f32⟩ : BufTy).Contents (Elt F) → (⟨S32000x1024, .f32⟩ : BufTy).Contents (Elt F) → (⟨S4x512x2x32000, .f32⟩ : BufTy).Contents (Elt F)),
    unary main_arg4 main_v12 (broadcastInDim S1x1x1x32000 ![3] bcast_S32000_S1x1x1x32000_3 : (⟨S32000, .f32⟩ : BufTy).Contents (Elt F) → (⟨S1x1x1x32000, .f32⟩ : BufTy).Contents (Elt F)),
    unary main_v12 main_v13 (broadcastInDim S4x512x2x32000 ![0, 1, 2, 3] bcast_S1x1x1x32000_S4x512x2x32000_0_1_2_3 : (⟨S1x1x1x32000, .f32⟩ : BufTy).Contents (Elt F) → (⟨S4x512x2x32000, .f32⟩ : BufTy).Contents (Elt F)),
    binary main_v11 main_v13 main_v14 (addf : (⟨S4x512x2x32000, .f32⟩ : BufTy).Contents (Elt F) → (⟨S4x512x2x32000, .f32⟩ : BufTy).Contents (Elt F) → (⟨S4x512x2x32000, .f32⟩ : BufTy).Contents (Elt F)),
    nullary main_call0_cst ((constant S_ .f32 0xFF800000#32) : (⟨S_, .f32⟩ : BufTy).Contents (Elt F)),
    binary main_v14 main_call0_cst main_call0_v0 ((fun x v => Host.reduce FloatOps.maximumf x v reducesTo_S4x512x2x32000_S4x512x2_d3 h_S_) : (⟨S4x512x2x32000, .f32⟩ : BufTy).Contents (Elt F) → (⟨S_, .f32⟩ : BufTy).Contents (Elt F) → (⟨S4x512x2, .f32⟩ : BufTy).Contents (Elt F)),
    nullary main_call0_cst_0 ((constant S_ .f32 0xFF800000#32) : (⟨S_, .f32⟩ : BufTy).Contents (Elt F)),
    unary main_call0_cst_0 main_call0_v1 ((broadcastInDim S4x512x2 ![] bcast_S_S4x512x2) : (⟨S_, .f32⟩ : BufTy).Contents (Elt F) → (⟨S4x512x2, .f32⟩ : BufTy).Contents (Elt F)),
    binary main_call0_v1 main_call0_v0 main_call0_v2 (maximumf : (⟨S4x512x2, .f32⟩ : BufTy).Contents (Elt F) → (⟨S4x512x2, .f32⟩ : BufTy).Contents (Elt F) → (⟨S4x512x2, .f32⟩ : BufTy).Contents (Elt F)),
    unary main_call0_v2 main_call0_v3 ((broadcastInDim S4x512x2x1 ![0, 1, 2] bcast_S4x512x2_S4x512x2x1_0_1_2) : (⟨S4x512x2, .f32⟩ : BufTy).Contents (Elt F) → (⟨S4x512x2x1, .f32⟩ : BufTy).Contents (Elt F)),
    unary main_call0_v3 main_call0_v4 ((broadcastInDim S4x512x2x32000 ![0, 1, 2, 3] bcast_S4x512x2x1_S4x512x2x32000_0_1_2_3) : (⟨S4x512x2x1, .f32⟩ : BufTy).Contents (Elt F) → (⟨S4x512x2x32000, .f32⟩ : BufTy).Contents (Elt F)),
    binary main_v14 main_call0_v4 main_call0_v5 (subf : (⟨S4x512x2x32000, .f32⟩ : BufTy).Contents (Elt F) → (⟨S4x512x2x32000, .f32⟩ : BufTy).Contents (Elt F) → (⟨S4x512x2x32000, .f32⟩ : BufTy).Contents (Elt F)),
    unary main_call0_v5 main_call0_v6 (Host.exp : (⟨S4x512x2x32000, .f32⟩ : BufTy).Contents (Elt F) → (⟨S4x512x2x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4x512x2x32000_S4x512x2_d3 h_S_) : (⟨S4x512x2x32000, .f32⟩ : BufTy).Contents (Elt F) → (⟨S_, .f32⟩ : BufTy).Contents (Elt F) → (⟨S4x512x2, .f32⟩ : BufTy).Contents (Elt F)),
    unary main_call0_v7 main_call0_v8 ((broadcastInDim S4x512x2x1 ![0, 1, 2] bcast_S4x512x2_S4x512x2x1_0_1_2) : (⟨S4x512x2, .f32⟩ : BufTy).Contents (Elt F) → (⟨S4x512x2x1, .f32⟩ : BufTy).Contents (Elt F)),
    unary main_call0_v8 main_call0_v9 (Host.log : (⟨S4x512x2x1, .f32⟩ : BufTy).Contents (Elt F) → (⟨S4x512x2x1, .f32⟩ : BufTy).Contents (Elt F)),
    unary main_call0_v9 main_call0_v10 ((broadcastInDim S4x512x2x32000 ![0, 1, 2, 3] bcast_S4x512x2x1_S4x512x2x32000_0_1_2_3) : (⟨S4x512x2x1, .f32⟩ : BufTy).Contents (Elt F) → (⟨S4x512x2x32000, .f32⟩ : BufTy).Contents (Elt F)),
    binary main_call0_v5 main_call0_v10 main_v15 (subf : (⟨S4x512x2x32000, .f32⟩ : BufTy).Contents (Elt F) → (⟨S4x512x2x32000, .f32⟩ : BufTy).Contents (Elt F) → (⟨S4x512x2x32000, .f32⟩ : BufTy).Contents (Elt F)),
    unary main_arg1 main_v16 (broadcastInDim S4x512x2x1 ![0, 1, 2] bcast_S4x512x2_S4x512x2x1_0_1_2 : (⟨S4x512x2, .i32⟩ : BufTy).Contents (Elt F) → (⟨S4x512x2x1, .i32⟩ : BufTy).Contents (Elt F)),
    nullary main_call1_c ((constantI S_ 32 0#32) : (⟨S_, .i32⟩ : BufTy).Contents (Elt F)),
    unary main_call1_c main_call1_v0 ((broadcastInDim S4x512x2x1 ![] bcast_S_S4x512x2x1) : (⟨S_, .i32⟩ : BufTy).Contents (Elt F) → (⟨S4x512x2x1, .i32⟩ : BufTy).Contents (Elt F)),
    binary main_v16 main_call1_v0 main_call1_v1 ((cmpi .slt) : (⟨S4x512x2x1, .i32⟩ : BufTy).Contents (Elt F) → (⟨S4x512x2x1, .i32⟩ : BufTy).Contents (Elt F) → (⟨S4x512x2x1, .i1⟩ : BufTy).Contents (Elt F)),
    nullary main_call1_c_0 ((constantI S_ 32 32000#32) : (⟨S_, .i32⟩ : BufTy).Contents (Elt F)),
    unary main_call1_c_0 main_call1_v2 ((broadcastInDim S4x512x2x1 ![] bcast_S_S4x512x2x1) : (⟨S_, .i32⟩ : BufTy).Contents (Elt F) → (⟨S4x512x2x1, .i32⟩ : BufTy).Contents (Elt F)),
    binary main_v16 main_call1_v2 main_call1_v3 (addi : (⟨S4x512x2x1, .i32⟩ : BufTy).Contents (Elt F) → (⟨S4x512x2x1, .i32⟩ : BufTy).Contents (Elt F) → (⟨S4x512x2x1, .i32⟩ : BufTy).Contents (Elt F)),
    ternary main_call1_v1 main_call1_v3 main_v16 main_call1_v4 (select : (⟨S4x512x2x1, .i1⟩ : BufTy).Contents (Elt F) → (⟨S4x512x2x1, .i32⟩ : BufTy).Contents (Elt F) → (⟨S4x512x2x1, .i32⟩ : BufTy).Contents (Elt F) → (⟨S4x512x2x1, .i32⟩ : BufTy).Contents (Elt F)),
    reshape main_call1_v4 main_call1_v5 rfl shapeCasts_S4x512x2x1_S4x512x2x1x1,
    nullary main_call1_c_1 ((constantI S1 32 31999#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S4x512x2x1x1 ![] bcast_S_S4x512x2x1x1) : (⟨S_, .i32⟩ : BufTy).Contents (Elt F) → (⟨S4x512x2x1x1, .i32⟩ : BufTy).Contents (Elt F)),
    binary main_call1_v5 main_call1_v6 main_call1_v7 ((cmpi .sge) : (⟨S4x512x2x1x1, .i32⟩ : BufTy).Contents (Elt F) → (⟨S4x512x2x1x1, .i32⟩ : BufTy).Contents (Elt F) → (⟨S4x512x2x1x1, .i1⟩ : BufTy).Contents (Elt F)),
    unary main_call1_c_1 main_call1_v8 ((broadcastInDim S1x1x1x1x1 ![4] bcast_S1_S1x1x1x1x1_4) : (⟨S1, .i32⟩ : BufTy).Contents (Elt F) → (⟨S1x1x1x1x1, .i32⟩ : BufTy).Contents (Elt F)),
    unary main_call1_v8 main_call1_v9 ((broadcastInDim S4x512x2x1x1 ![0, 1, 2, 3, 4] bcast_S1x1x1x1x1_S4x512x2x1x1_0_1_2_3_4) : (⟨S1x1x1x1x1, .i32⟩ : BufTy).Contents (Elt F) → (⟨S4x512x2x1x1, .i32⟩ : BufTy).Contents (Elt F)),
    binary main_call1_v5 main_call1_v9 main_call1_v10 ((cmpi .sle) : (⟨S4x512x2x1x1, .i32⟩ : BufTy).Contents (Elt F) → (⟨S4x512x2x1x1, .i32⟩ : BufTy).Contents (Elt F) → (⟨S4x512x2x1x1, .i1⟩ : BufTy).Contents (Elt F)),
    binary main_call1_v7 main_call1_v10 main_call1_v11 (andi : (⟨S4x512x2x1x1, .i1⟩ : BufTy).Contents (Elt F) → (⟨S4x512x2x1x1, .i1⟩ : BufTy).Contents (Elt F) → (⟨S4x512x2x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S4x512x2x1x1_S4x512x2x1_d4 h_S_) : (⟨S4x512x2x1x1, .i1⟩ : BufTy).Contents (Elt F) → (⟨S_, .i1⟩ : BufTy).Contents (Elt F) → (⟨S4x512x2x1, .i1⟩ : BufTy).Contents (Elt F)),
    binary main_v15 main_call1_v5 main_call1_v13 ((fun x i => Host.gather gather_S4x512x2x32000_S4x512x2x1x1_S4x512x2x1_n_3_012_012_3_4_1111 x i) : (⟨S4x512x2x32000, .f32⟩ : BufTy).Contents (Elt F) → (⟨S4x512x2x1x1, .i32⟩ : BufTy).Contents (Elt F) → (⟨S4x512x2x1, .f32⟩ : BufTy).Contents (Elt F)),
    nullary main_call1_cst ((constant S_ .f32 0x7FC00000#32) : (⟨S_, .f32⟩ : BufTy).Contents (Elt F)),
    unary main_call1_cst main_call1_v14 ((broadcastInDim S4x512x2x1 ![] bcast_S_S4x512x2x1) : (⟨S_, .f32⟩ : BufTy).Contents (Elt F) → (⟨S4x512x2x1, .f32⟩ : BufTy).Contents (Elt F)),
    ternary main_call1_v12 main_call1_v13 main_call1_v14 main_v17 (select : (⟨S4x512x2x1, .i1⟩ : BufTy).Contents (Elt F) → (⟨S4x512x2x1, .f32⟩ : BufTy).Contents (Elt F) → (⟨S4x512x2x1, .f32⟩ : BufTy).Contents (Elt F) → (⟨S4x512x2x1, .f32⟩ : BufTy).Contents (Elt F)),
    reshape main_v17 main_v18 rfl shapeCasts_S4x512x2x1_S4x512x2,
    unary main_v18 main_v19 (Host.negf : (⟨S4x512x2, .f32⟩ : BufTy).Contents (Elt F) → (⟨S4x512x2, .f32⟩ : BufTy).Contents (Elt F)),
    unary main_v10 main_v20 (uitofp .f32 : (⟨S4x512x2, .i1⟩ : BufTy).Contents (Elt F) → (⟨S4x512x2, .f32⟩ : BufTy).Contents (Elt F)),
    binary main_v19 main_v20 main_v21 (mulf : (⟨S4x512x2, .f32⟩ : BufTy).Contents (Elt F) → (⟨S4x512x2, .f32⟩ : BufTy).Contents (Elt F) → (⟨S4x512x2, .f32⟩ : BufTy).Contents (Elt F)),
    nullary main_cst (constant S_ .f32 0x00000000#32),
    binary main_v21 main_cst main_v22 ((fun x v => Host.reduceAdd x v reducesTo_S4x512x2_S_d0_1_2 h_S_) : (⟨S4x512x2, .f32⟩ : BufTy).Contents (Elt F) → (⟨S_, .f32⟩ : BufTy).Contents (Elt F) → (⟨S_, .f32⟩ : BufTy).Contents (Elt F)),
    nullary main_cst_0 (constant S_ .f32 0x00000000#32),
    binary main_v20 main_cst_0 main_v23 ((fun x v => Host.reduceAdd x v reducesTo_S4x512x2_S_d0_1_2 h_S_) : (⟨S4x512x2, .f32⟩ : BufTy).Contents (Elt F) → (⟨S_, .f32⟩ : BufTy).Contents (Elt F) → (⟨S_, .f32⟩ : BufTy).Contents (Elt F)),
    nullary main_cst_1 (constant S_ .f32 0x3F800000#32),
    binary main_v23 main_cst_1 main_v24 (maximumf : (⟨S_, .f32⟩ : BufTy).Contents (Elt F) → (⟨S_, .f32⟩ : BufTy).Contents (Elt F) → (⟨S_, .f32⟩ : BufTy).Contents (Elt F)),
    binary main_v22 main_v24 main_v25 (Host.divf : (⟨S_, .f32⟩ : BufTy).Contents (Elt F) → (⟨S_, .f32⟩ : BufTy).Contents (Elt F) → (⟨S_, .f32⟩ : BufTy).Contents (Elt F)) ]

attribute [local irreducible] Host.reduce in
set_option maxRecDepth 8192 in
/-- Over the extended reals the two lists are one list. -/
theorem ops_eq : (ops : List (HloOp τ sig (Elt Ideal))) = opsP := rfl

theorem main_eqP (c : Dev nD) : main (F := Ideal) c = seq opsP := (main_eq c).trans (congrArg (fun l => seq l) ops_eq)
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsP_sub : (opsP : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., nullary_bufs_sub .., binary_bufs_sub .., nullary_bufs_sub .., binary_bufs_sub .., nullary_bufs_sub .., binary_bufs_sub .., binary_bufs_sub ..⟩

set_option maxRecDepth 8192 in
/-- The loss buffer's composed term of the arguments (named: it is long). -/
def res_main_v25 (m : (ℓ : Loc nD τ sig) → Buf (Elt F) ℓ) (c : Dev nD) : Buf (Elt F) ((c.tc : Thread nD τ).loc main_v25) :=
  Host.divf (Host.reduceAdd (mulf (Host.negf (shapeCast _ (select (Host.reduce IntOp.andi (andi (cmpi .sge (shapeCast _ (select (cmpi .slt (broadcastInDim S4x512x2x1 ![0, 1, 2] bcast_S4x512x2_S4x512x2x1_0_1_2 (m ((c.tc : Thread nD τ).loc main_arg1))) (broadcastInDim S4x512x2x1 ![] bcast_S_S4x512x2x1 (constantI S_ 32 0#32))) (addi (broadcastInDim S4x512x2x1 ![0, 1, 2] bcast_S4x512x2_S4x512x2x1_0_1_2 (m ((c.tc : Thread nD τ).loc main_arg1))) (broadcastInDim S4x512x2x1 ![] bcast_S_S4x512x2x1 (constantI S_ 32 32000#32))) (broadcastInDim S4x512x2x1 ![0, 1, 2] bcast_S4x512x2_S4x512x2x1_0_1_2 (m ((c.tc : Thread nD τ).loc main_arg1)))) shapeCasts_S4x512x2x1_S4x512x2x1x1) (broadcastInDim S4x512x2x1x1 ![] bcast_S_S4x512x2x1x1 (constantI S_ 32 0#32))) (cmpi .sle (shapeCast _ (select (cmpi .slt (broadcastInDim S4x512x2x1 ![0, 1, 2] bcast_S4x512x2_S4x512x2x1_0_1_2 (m ((c.tc : Thread nD τ).loc main_arg1))) (broadcastInDim S4x512x2x1 ![] bcast_S_S4x512x2x1 (constantI S_ 32 0#32))) (addi (broadcastInDim S4x512x2x1 ![0, 1, 2] bcast_S4x512x2_S4x512x2x1_0_1_2 (m ((c.tc : Thread nD τ).loc main_arg1))) (broadcastInDim S4x512x2x1 ![] bcast_S_S4x512x2x1 (constantI S_ 32 32000#32))) (broadcastInDim S4x512x2x1 ![0, 1, 2] bcast_S4x512x2_S4x512x2x1_0_1_2 (m ((c.tc : Thread nD τ).loc main_arg1)))) shapeCasts_S4x512x2x1_S4x512x2x1x1) (broadcastInDim S4x512x2x1x1 ![0, 1, 2, 3, 4] bcast_S1x1x1x1x1_S4x512x2x1x1_0_1_2_3_4 (broadcastInDim S1x1x1x1x1 ![4] bcast_S1_S1x1x1x1x1_4 (constantI S1 32 31999#32))))) (constantI S_ 1 1#1) reducesTo_S4x512x2x1x1_S4x512x2x1_d4 h_S_) (Host.gather gather_S4x512x2x32000_S4x512x2x1x1_S4x512x2x1_n_3_012_012_3_4_1111 (subf (subf (addf (Host.dotGeneral dot_S4x512x2x1024_S32000x1024_S4x512x2x32000_3_1_012_0_n_n none (m ((c.tc : Thread nD τ).loc main_arg0)) (m ((c.tc : Thread nD τ).loc main_arg3))) (broadcastInDim S4x512x2x32000 ![0, 1, 2, 3] bcast_S1x1x1x32000_S4x512x2x32000_0_1_2_3 (broadcastInDim S1x1x1x32000 ![3] bcast_S32000_S1x1x1x32000_3 (m ((c.tc : Thread nD τ).loc main_arg4))))) (broadcastInDim S4x512x2x32000 ![0, 1, 2, 3] bcast_S4x512x2x1_S4x512x2x32000_0_1_2_3 (broadcastInDim S4x512x2x1 ![0, 1, 2] bcast_S4x512x2_S4x512x2x1_0_1_2 (maximumf (broadcastInDim S4x512x2 ![] bcast_S_S4x512x2 (constant S_ .f32 0xFF800000#32)) (Host.reduce FloatOps.maximumf (addf (Host.dotGeneral dot_S4x512x2x1024_S32000x1024_S4x512x2x32000_3_1_012_0_n_n none (m ((c.tc : Thread nD τ).loc main_arg0)) (m ((c.tc : Thread nD τ).loc main_arg3))) (broadcastInDim S4x512x2x32000 ![0, 1, 2, 3] bcast_S1x1x1x32000_S4x512x2x32000_0_1_2_3 (broadcastInDim S1x1x1x32000 ![3] bcast_S32000_S1x1x1x32000_3 (m ((c.tc : Thread nD τ).loc main_arg4))))) (constant S_ .f32 0xFF800000#32) reducesTo_S4x512x2x32000_S4x512x2_d3 h_S_))))) (broadcastInDim S4x512x2x32000 ![0, 1, 2, 3] bcast_S4x512x2x1_S4x512x2x32000_0_1_2_3 (Host.log (broadcastInDim S4x512x2x1 ![0, 1, 2] bcast_S4x512x2_S4x512x2x1_0_1_2 (Host.reduceAdd (Host.exp (subf (addf (Host.dotGeneral dot_S4x512x2x1024_S32000x1024_S4x512x2x32000_3_1_012_0_n_n none (m ((c.tc : Thread nD τ).loc main_arg0)) (m ((c.tc : Thread nD τ).loc main_arg3))) (broadcastInDim S4x512x2x32000 ![0, 1, 2, 3] bcast_S1x1x1x32000_S4x512x2x32000_0_1_2_3 (broadcastInDim S1x1x1x32000 ![3] bcast_S32000_S1x1x1x32000_3 (m ((c.tc : Thread nD τ).loc main_arg4))))) (broadcastInDim S4x512x2x32000 ![0, 1, 2, 3] bcast_S4x512x2x1_S4x512x2x32000_0_1_2_3 (broadcastInDim S4x512x2x1 ![0, 1, 2] bcast_S4x512x2_S4x512x2x1_0_1_2 (maximumf (broadcastInDim S4x512x2 ![] bcast_S_S4x512x2 (constant S_ .f32 0xFF800000#32)) (Host.reduce FloatOps.maximumf (addf (Host.dotGeneral dot_S4x512x2x1024_S32000x1024_S4x512x2x32000_3_1_012_0_n_n none (m ((c.tc : Thread nD τ).loc main_arg0)) (m ((c.tc : Thread nD τ).loc main_arg3))) (broadcastInDim S4x512x2x32000 ![0, 1, 2, 3] bcast_S1x1x1x32000_S4x512x2x32000_0_1_2_3 (broadcastInDim S1x1x1x32000 ![3] bcast_S32000_S1x1x1x32000_3 (m ((c.tc : Thread nD τ).loc main_arg4))))) (constant S_ .f32 0xFF800000#32) reducesTo_S4x512x2x32000_S4x512x2_d3 h_S_)))))) (constant S_ .f32 0x00000000#32) reducesTo_S4x512x2x32000_S4x512x2_d3 h_S_))))) (shapeCast _ (select (cmpi .slt (broadcastInDim S4x512x2x1 ![0, 1, 2] bcast_S4x512x2_S4x512x2x1_0_1_2 (m ((c.tc : Thread nD τ).loc main_arg1))) (broadcastInDim S4x512x2x1 ![] bcast_S_S4x512x2x1 (constantI S_ 32 0#32))) (addi (broadcastInDim S4x512x2x1 ![0, 1, 2] bcast_S4x512x2_S4x512x2x1_0_1_2 (m ((c.tc : Thread nD τ).loc main_arg1))) (broadcastInDim S4x512x2x1 ![] bcast_S_S4x512x2x1 (constantI S_ 32 32000#32))) (broadcastInDim S4x512x2x1 ![0, 1, 2] bcast_S4x512x2_S4x512x2x1_0_1_2 (m ((c.tc : Thread nD τ).loc main_arg1)))) shapeCasts_S4x512x2x1_S4x512x2x1x1)) (broadcastInDim S4x512x2x1 ![] bcast_S_S4x512x2x1 (constant S_ .f32 0x7FC00000#32))) shapeCasts_S4x512x2x1_S4x512x2)) (uitofp .f32 (andi (cmpi .ne (m ((c.tc : Thread nD τ).loc main_arg1)) (broadcastInDim S4x512x2 ![] bcast_S_S4x512x2 (constantI S_ 32 0#32))) (broadcastInDim S4x512x2 ![0, 1, 2] bcast_S4x512x1_S4x512x2_0_1_2 (broadcastInDim S4x512x1 ![0, 1] bcast_S4x512_S4x512x1_0_1 (cmpi .sge (broadcastInDim S4x512 ![0, 1] bcast_S1x512_S4x512_0_1 (broadcastInDim S1x512 ![1] bcast_S512_S1x512_1 (iotaInDim S512 32 0))) (broadcastInDim S4x512 ![0, 1] bcast_S4x1_S4x512_0_1 (broadcastInDim S4x1 ![0] bcast_S4_S4x1_0 (m ((c.tc : Thread nD τ).loc main_arg2)))))))))) (constant S_ .f32 0x00000000#32) reducesTo_S4x512x2_S_d0_1_2 h_S_) (maximumf (Host.reduceAdd (uitofp .f32 (andi (cmpi .ne (m ((c.tc : Thread nD τ).loc main_arg1)) (broadcastInDim S4x512x2 ![] bcast_S_S4x512x2 (constantI S_ 32 0#32))) (broadcastInDim S4x512x2 ![0, 1, 2] bcast_S4x512x1_S4x512x2_0_1_2 (broadcastInDim S4x512x1 ![0, 1] bcast_S4x512_S4x512x1_0_1 (cmpi .sge (broadcastInDim S4x512 ![0, 1] bcast_S1x512_S4x512_0_1 (broadcastInDim S1x512 ![1] bcast_S512_S1x512_1 (iotaInDim S512 32 0))) (broadcastInDim S4x512 ![0, 1] bcast_S4x1_S4x512_0_1 (broadcastInDim S4x1 ![0] bcast_S4_S4x1_0 (m ((c.tc : Thread nD τ).loc main_arg2))))))))) (constant S_ .f32 0x00000000#32) reducesTo_S4x512x2_S_d0_1_2 h_S_) (constant S_ .f32 0x3F800000#32))

/-- The same term by its position among the values the program returns. -/
abbrev res_out0 (m : (ℓ : Loc nD τ sig) → Buf (Elt F) ℓ) (c : Dev nD) : Buf (Elt F) ((c.tc : Thread nD τ).loc main_v25) := res_main_v25 m c

attribute [local irreducible] Host.reduce in
set_option maxRecDepth 8192 in
set_option maxHeartbeats 26000000 in
/-- On every device, over the extended reals, from any memory with zero counters: every weakly fair execution of the
    reference terminates with the loss at the operations' composed term of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = res_main_v25 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (by after_results_simp <;> rfl <;> (unfold res_main_v25; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => opsP) main_eqP (fun _ => opsP_sub) m ρ)

end Cert.ReferenceIdeal.HostRun

end
-- ==== Proof.RefValue.lean ====
/-
  The value of the reference program, read at the extended reals.

  The reference computes, for each of the 4096 rows (batch entry b, time step t, head q), the logits
  logit v = sum_k hidden(b,t,q,k) * W(v,k) + bias v over the 32000 classes, their log-softmax
  logit v - m - log (sum_v exp (logit v - m)) with m the row's maximum, reads it at the class the row's label selects
  (a not-a-number, here the bottom element, when the label's position is outside the classes), negates it, weighs it by
  the row's mask, and returns the masked sum divided by the larger of the number of unmasked rows and one.

  That reading is stated as closed expressions over explicit coordinates (logit, rowMax, rowSum, logp, nllRef,
  lossRef) in the module of definitions; this module proves that the last stage of the program's stage-by-stage
  reading is the constant lossRef.
  Three stages have no reading of their own in the stage-by-stage module and are read here first: the maximum over the
  classes (a fold of max over one axis, which is the supremum joined with the initial value), the conjunction over an
  axis of extent one (the element joined with the initial value), and the gather along the class axis with the three
  leading axes batched (the operand at the same leading coordinates and at the start index read signed and clamped
  into the classes).
-/
import proofs.«148193_j6347961663553_2_alg».proof.Proof.RefRead
import proofs.«148193_j6347961663553_2_alg».proof.Proof.RefDefs
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.TcCoe Idealize.ShloMosaic.ValueIdx Cert.ReferenceIdeal

/-! ## Words and folds -/

/-- The pattern of minus infinity denotes the bottom element. -/
theorem ofBits_neg_inf : Ideal.ofBits .f32 0xFF800000#32 = (⊥ : EReal) := by
  simp [Ideal.ofBits, Ideal.ieee]

/-- The canonical not-a-number pattern denotes the bottom element. -/
theorem ofBits_nan : Ideal.ofBits .f32 0x7FC00000#32 = (⊥ : EReal) := by
  simp [Ideal.ofBits, Ideal.ieee]

/-- A one-bit word and the bit 1 is the word. -/
theorem andi_one (y : BitVec 1) : IntOp.andi y 1#1 = y := by
  rcases BitVec.eq_zero_or_eq_one y with h | h <;> subst h <;> rfl

/-- A fold of the maximum from b is b joined with the supremum. -/
theorem fold_maximumf_eq_sup {ι : Type} (s : Finset ι) (b : EReal) (f : ι → EReal) :
    s.fold (FloatOps.maximumf (F := Ideal) (φ := .f32)) b f = max b (s.sup f) := by
  induction s using Finset.cons_induction with
  | empty => simp
  | cons a s ha ih =>
    rw [Finset.fold_cons, Finset.sup_cons, ih]
    show max (f a) (max b (s.sup f)) = max b (max (f a) (s.sup f))
    exact max_left_comm _ _ _

/-! ## The three stages read by hand -/

/-- The maximum over the classes: at row (b, t, q) the initial value joined with the supremum of the row. -/
theorem reduce_max_apply (x : S4x512x2x32000.Idx → EReal) (init : S_.Idx → EReal)
    (h' : S4x512x2x32000.ReducesTo [3] S4x512x2) (hu : 0 < S_.numel) (b : Fin 4) (t : Fin 512) (q : Fin 2) :
    Host.reduce (FloatOps.maximumf (F := Ideal) (φ := .f32)) x init h' hu (ix3 b t q)
      = max (init (Shape.Idx.first hu)) (Finset.univ.sup fun v : Fin 32000 => x (ix4 b t q v)) := by
  have h : S4x512x2x32000.Reduces [3] S4x512x2 := by decide
  refine (Host.reduce_eq_fold_single _ x init h' h hu (ix3 b t q)).trans ?_
  refine (fold_maximumf_eq_sup _ _ _).trans ?_
  refine congrArg (max _) ?_
  refine congrArg (Finset.sup (Finset.univ : Finset (Fin 32000))) (funext fun v => ?_)
  refine congrArg x (funext fun a => Fin.ext ?_)
  match a with
  | ⟨0, _⟩ => rfl
  | ⟨1, _⟩ => rfl
  | ⟨2, _⟩ => rfl
  | ⟨3, _⟩ => rfl

/-- The conjunction over the last axis, of extent one: the one element and the initial value. -/
theorem reduce_and_apply (x : S4x512x2x1x1.Idx → BitVec 1) (init : S_.Idx → BitVec 1)
    (h' : S4x512x2x1x1.ReducesTo [4] S4x512x2x1) (hu : 0 < S_.numel) (b : Fin 4) (t : Fin 512) (q : Fin 2) :
    Host.reduce IntOp.andi x init h' hu (ix4 b t q (0 : Fin 1))
      = IntOp.andi (x (ix5 b t q (0 : Fin 1) (0 : Fin 1))) (init (Shape.Idx.first hu)) := by
  have h : S4x512x2x1x1.Reduces [4] S4x512x2x1 := by decide
  refine (Host.reduce_eq_fold_single IntOp.andi x init h' h hu (ix4 b t q (0 : Fin 1))).trans ?_
  show (Finset.univ : Finset (Fin 1)).fold IntOp.andi (init (Shape.Idx.first hu))
      (fun k : Fin 1 => x (h.lift (ix4 b t q (0 : Fin 1)) k)) = _
  rw [Finset.univ_unique, Finset.fold_singleton]
  refine congrArg (fun z => IntOp.andi z _) ?_
  refine congrArg x (funext fun a => Fin.ext ?_)
  match a with
  | ⟨0, _⟩ => rfl
  | ⟨1, _⟩ => rfl
  | ⟨2, _⟩ => rfl
  | ⟨3, _⟩ => rfl
  | ⟨4, _⟩ => rfl

local notation "G₁" => gather_S4x512x2x32000_S4x512x2x1x1_S4x512x2x1_n_3_012_012_3_4_1111

/-- The gather along the class axis with the three leading axes batched: at (b, t, q, 0) the operand at the same
    leading coordinates and, on the class axis, at the start index read signed and clamped into the classes. -/
theorem gather_apply [Facts₀] {α : Type} (x : S4x512x2x32000.Idx → α) (idx : IVec S4x512x2x1x1 32)
    (b : Fin 4) (t : Fin 512) (q : Fin 2) :
    Host.gather G₁ x idx (ix4 b t q (0 : Fin 1))
      = x (ix4 b t q (⟨min (idx (ix5 b t q (0 : Fin 1) (0 : Fin 1))).toInt.toNat 31999, by omega⟩ : Fin 32000)) := by
  unfold Host.gather
  refine congrArg x (funext fun a => Fin.ext ?_)
  match a with
  | ⟨0, _⟩ =>
    show (G₁).start (ix4 b t q (0 : Fin 1)) idx 0 + (G₁).batchCoord (ix4 b t q (0 : Fin 1)) 0
      + (G₁).offCoord (ix4 b t q (0 : Fin 1)) 0 = b.val
    have h1 : (G₁).start (ix4 b t q (0 : Fin 1)) idx 0 = 0 := (G₁).start_batching _ idx 0 (by show (0 : Fin 4) ∈ [(0 : Fin 4), 1, 2]; decide)
    have h2 : (G₁).offCoord (ix4 b t q (0 : Fin 1)) 0 = 0 :=
      (G₁).offCoord_eq_zero _ 0 (fun h => (((G₁).mem_sKept 0).1 h).2 (by show (0 : Fin 4) ∈ [(0 : Fin 4), 1, 2]; decide))
    have h3 : (G₁).batchCoord (ix4 b t q (0 : Fin 1)) 0 = b.val := rfl
    rw [h1, h2, h3]; omega
  | ⟨1, _⟩ =>
    show (G₁).start (ix4 b t q (0 : Fin 1)) idx 1 + (G₁).batchCoord (ix4 b t q (0 : Fin 1)) 1
      + (G₁).offCoord (ix4 b t q (0 : Fin 1)) 1 = t.val
    have h1 : (G₁).start (ix4 b t q (0 : Fin 1)) idx 1 = 0 := (G₁).start_batching _ idx 1 (by show (1 : Fin 4) ∈ [(0 : Fin 4), 1, 2]; decide)
    have h2 : (G₁).offCoord (ix4 b t q (0 : Fin 1)) 1 = 0 :=
      (G₁).offCoord_eq_zero _ 1 (fun h => (((G₁).mem_sKept 1).1 h).2 (by show (1 : Fin 4) ∈ [(0 : Fin 4), 1, 2]; decide))
    have h3 : (G₁).batchCoord (ix4 b t q (0 : Fin 1)) 1 = t.val := rfl
    rw [h1, h2, h3]; omega
  | ⟨2, _⟩ =>
    show (G₁).start (ix4 b t q (0 : Fin 1)) idx 2 + (G₁).batchCoord (ix4 b t q (0 : Fin 1)) 2
      + (G₁).offCoord (ix4 b t q (0 : Fin 1)) 2 = q.val
    have h1 : (G₁).start (ix4 b t q (0 : Fin 1)) idx 2 = 0 := (G₁).start_batching _ idx 2 (by show (2 : Fin 4) ∈ [(0 : Fin 4), 1, 2]; decide)
    have h2 : (G₁).offCoord (ix4 b t q (0 : Fin 1)) 2 = 0 :=
      (G₁).offCoord_eq_zero _ 2 (fun h => (((G₁).mem_sKept 2).1 h).2 (by show (2 : Fin 4) ∈ [(0 : Fin 4), 1, 2]; decide))
    have h3 : (G₁).batchCoord (ix4 b t q (0 : Fin 1)) 2 = q.val := rfl
    rw [h1, h2, h3]; omega
  | ⟨3, _⟩ =>
    show (G₁).start (ix4 b t q (0 : Fin 1)) idx 3 + (G₁).batchCoord (ix4 b t q (0 : Fin 1)) 3
      + (G₁).offCoord (ix4 b t q (0 : Fin 1)) 3 = min (idx (ix5 b t q (0 : Fin 1) (0 : Fin 1))).toInt.toNat 31999
    have h2 : (G₁).offCoord (ix4 b t q (0 : Fin 1)) 3 = 0 :=
      (G₁).offCoord_eq_zero _ 3 (fun h => (((G₁).mem_sKept 3).1 h).1 (by show (3 : Fin 4) ∈ [(3 : Fin 4)]; decide))
    have h3 : (G₁).batchCoord (ix4 b t q (0 : Fin 1)) 3 = 0 := (G₁).batchCoord_eq_zero _ 3 (by show (3 : Fin 4) ∉ [(0 : Fin 4), 1, 2]; decide)
    rw [h2, h3]
    simp only [Nat.add_zero]
    unfold GatherDims.start
    rw [dif_pos (show (3 : Fin S4x512x2x32000.rank) ∈ (G₁).startIndexMap by show (3 : Fin 4) ∈ [(3 : Fin 4)]; decide)]
    have hsi : (G₁).siIdx (ix4 b t q (0 : Fin 1)) ⟨List.idxOf (3 : Fin S4x512x2x32000.rank) (G₁).startIndexMap,
        List.idxOf_lt_length_iff.2 (by show (3 : Fin 4) ∈ [(3 : Fin 4)]; decide)⟩ = ix5 b t q (0 : Fin 1) (0 : Fin 1) := by
      funext c
      refine Fin.ext ?_
      match c with
      | ⟨0, _⟩ => rfl
      | ⟨1, _⟩ => rfl
      | ⟨2, _⟩ => rfl
      | ⟨3, _⟩ => rfl
      | ⟨4, _⟩ => rfl
    rw [hsi]
    rfl

/-! ## The stages of the program, read at explicit coordinates -/

section Stages

open Cert.ReferenceIdeal.ReadP

variable (H : S4x512x2x1024.Idx → EReal) (T : S4x512x2.Idx → BitVec 32) (P : S4.Idx → BitVec 32)
  (W : S32000x1024.Idx → EReal) (B : S32000.Idx → EReal)

/-- The biased product at (b, t, q, v) is the logit. -/
theorem v14_apply (b : Fin 4) (t : Fin 512) (q : Fin 2) (v : Fin 32000) :
    val_main_v14 (F := Ideal) H W B (ix4 b t q v) = logit H W B b t q v := by
  rw [val_main_v14_apply, val_main_v11_apply, val_main_v13_apply, val_main_v12_apply, Ideal.addf_def]
  unfold logit
  refine congrArg₂ (· + ·) (Finset.sum_congr rfl fun k _ => congrArg₂ (· * ·) (congrArg H ?_) (congrArg W ?_))
    (congrArg B ?_)
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-- The maximum over the classes at row (b, t, q). -/
theorem call0_v0_apply (b : Fin 4) (t : Fin 512) (q : Fin 2) :
    val_main_call0_v0 (F := Ideal) H W B (ix3 b t q)
      = max ⊥ (Finset.univ.sup fun v : Fin 32000 => logit H W B b t q v) := by
  unfold val_main_call0_v0
  refine (reduce_max_apply _ _ _ _ b t q).trans ?_
  rw [val_main_call0_cst_apply, Ideal.ofBits_def, ofBits_neg_inf]
  exact congrArg (max ⊥) (congrArg (Finset.sup Finset.univ) (funext fun v => v14_apply H W B b t q v))

/-- Joined once more with minus infinity it is the row's maximum. -/
theorem call0_v2_apply (b : Fin 4) (t : Fin 512) (q : Fin 2) :
    val_main_call0_v2 (F := Ideal) H W B (ix3 b t q) = rowMax H W B b t q := by
  rw [val_main_call0_v2_apply, val_main_call0_v1_apply, val_main_call0_cst_0_apply, call0_v0_apply,
    Ideal.maximumf_def, Ideal.ofBits_def, ofBits_neg_inf]
  unfold rowMax
  rw [← max_assoc, max_self]

/-- The shifted logit. -/
theorem call0_v5_apply (b : Fin 4) (t : Fin 512) (q : Fin 2) (v : Fin 32000) :
    val_main_call0_v5 (F := Ideal) H W B (ix4 b t q v) = logit H W B b t q v - rowMax H W B b t q := by
  rw [val_main_call0_v5_apply, val_main_call0_v4_apply, val_main_call0_v3_apply, v14_apply,
    show idx_main_call0_v3 (idx_main_call0_v4 (ix4 b t q v)) = ix3 b t q from
      funext fun a => by match a with | ⟨0, _⟩ => rfl | ⟨1, _⟩ => rfl | ⟨2, _⟩ => rfl,
    call0_v2_apply, Ideal.subf_def]

/-- The sum of the exponentials over the classes. -/
theorem call0_v7_apply (b : Fin 4) (t : Fin 512) (q : Fin 2) :
    val_main_call0_v7 (F := Ideal) H W B (ix3 b t q) = rowSum H W B b t q := by
  rw [val_main_call0_v7_apply, val_main_call0_cst_1_apply, Ideal.ofBits_def]
  unfold rowSum
  refine congrArg (_ + ·) (Finset.sum_congr rfl fun v _ => ?_)
  rw [val_main_call0_v6_apply, Ideal.hostUnary_exp_def,
    show idx_main_call0_v7 (ix3 b t q) v = ix4 b t q v from
      funext fun a => by match a with | ⟨0, _⟩ => rfl | ⟨1, _⟩ => rfl | ⟨2, _⟩ => rfl | ⟨3, _⟩ => rfl,
    call0_v5_apply]

/-- The log-softmax at (b, t, q, v). -/
theorem v15_apply (b : Fin 4) (t : Fin 512) (q : Fin 2) (v : Fin 32000) :
    val_main_v15 (F := Ideal) H W B (ix4 b t q v) = logp H W B b t q v := by
  rw [val_main_v15_apply, call0_v5_apply, val_main_call0_v10_apply, val_main_call0_v9_apply, val_main_call0_v8_apply,
    show idx_main_call0_v8 (idx_main_call0_v10 (ix4 b t q v)) = ix3 b t q from
      funext fun a => by match a with | ⟨0, _⟩ => rfl | ⟨1, _⟩ => rfl | ⟨2, _⟩ => rfl,
    call0_v7_apply, Ideal.hostUnary_log_def, Ideal.subf_def]
  rfl

/-- The start index of the gather at row (b, t, q) is the label's position. -/
theorem call1_v5_apply (b : Fin 4) (t : Fin 512) (q : Fin 2) :
    val_main_call1_v5 (F := Ideal) T (ix5 b t q (0 : Fin 1) (0 : Fin 1)) = Cert.Labels.pos (T (ix3 b t q)) := by
  have hi : idx_main_v16 (idx_main_call1_v5 (ix5 b t q (0 : Fin 1) (0 : Fin 1))) = ix3 b t q :=
    funext fun a => Fin.ext (by
      have hb := b.isLt; have ht := t.isLt; have hq := q.isLt
      match a with
      | ⟨0, _⟩ => show ((((b.val * 512 + t.val) * 2 + q.val) * 1 + 0) * 1 + 0) / 1024 = b.val; omega
      | ⟨1, _⟩ => show ((((b.val * 512 + t.val) * 2 + q.val) * 1 + 0) * 1 + 0) / 2 % 512 = t.val; omega
      | ⟨2, _⟩ => show ((((b.val * 512 + t.val) * 2 + q.val) * 1 + 0) * 1 + 0) / 1 % 2 = q.val; omega)
  rw [val_main_call1_v5_apply, val_main_call1_v4_apply, val_main_call1_v1_apply, val_main_call1_v3_apply,
    val_main_v16_apply, val_main_call1_v0_apply, val_main_call1_c_apply, val_main_call1_v2_apply,
    val_main_call1_c_0_apply, hi]
  rfl

/-- The flag the gathered value is selected by is the label's range test. -/
theorem call1_v12_apply (b : Fin 4) (t : Fin 512) (q : Fin 2) :
    val_main_call1_v12 (F := Ideal) T (ix4 b t q (0 : Fin 1)) = Cert.Labels.ok (T (ix3 b t q)) := by
  unfold val_main_call1_v12
  refine (reduce_and_apply _ _ _ _ b t q).trans ?_
  rw [val_main_call1_c_3_apply, andi_one, val_main_call1_v11_apply, val_main_call1_v7_apply,
    val_main_call1_v10_apply, call1_v5_apply, val_main_call1_v6_apply, val_main_call1_c_2_apply,
    val_main_call1_v9_apply, val_main_call1_v8_apply, val_main_call1_c_1_apply]
  rfl

/-- The gathered value is the log-softmax at the label's class. -/
theorem call1_v13_apply (b : Fin 4) (t : Fin 512) (q : Fin 2) :
    val_main_call1_v13 (F := Ideal) H T W B (ix4 b t q (0 : Fin 1))
      = logp H W B b t q (Cert.Labels.cls (T (ix3 b t q))) := by
  unfold val_main_call1_v13
  refine (gather_apply _ _ b t q).trans ?_
  refine (v15_apply H W B b t q _).trans ?_
  refine congrArg (logp H W B b t q) (Fin.ext ?_)
  show min (val_main_call1_v5 (F := Ideal) T (ix5 b t q (0 : Fin 1) (0 : Fin 1))).toInt.toNat 31999
    = min (Cert.Labels.pos (T (ix3 b t q))).toInt.toNat 31999
  rw [call1_v5_apply]

/-- The selected value at row (b, t, q). -/
theorem v17_apply (b : Fin 4) (t : Fin 512) (q : Fin 2) :
    val_main_v17 (F := Ideal) H T W B (ix4 b t q (0 : Fin 1))
      = Scalar.select (Cert.Labels.ok (T (ix3 b t q))) (logp H W B b t q (Cert.Labels.cls (T (ix3 b t q))))
          (Ideal.ofBits .f32 0x7FC00000#32) := by
  rw [val_main_v17_apply, call1_v12_apply, call1_v13_apply, val_main_call1_v14_apply, val_main_call1_cst_apply,
    Ideal.ofBits_def]

/-- The mask at row (b, t, q) is the row's weight. -/
theorem v20_apply (b : Fin 4) (t : Fin 512) (q : Fin 2) :
    val_main_v20 (F := Ideal) T P (ix3 b t q) = Cert.Labels.keep (T (ix3 b t q)) t (P (ix1 b)) := by
  rw [val_main_v20_apply, val_main_v10_apply, val_main_v1_apply, val_main_v0_apply, val_main_c_apply,
    val_main_v9_apply, val_main_v8_apply, val_main_v7_apply, val_main_v5_apply, val_main_v3_apply,
    val_main_v2_apply, val_main_v6_apply, val_main_v4_apply,
    show idx_main_v4 (idx_main_v6 (idx_main_v8 (idx_main_v9 (ix3 b t q)))) = ix1 b from
      funext fun a => by match a with | ⟨0, _⟩ => rfl]
  rfl

/-- The weighted negative log-likelihood at row (b, t, q). -/
theorem v21_apply (b : Fin 4) (t : Fin 512) (q : Fin 2) :
    val_main_v21 (F := Ideal) H T P W B (ix3 b t q)
      = nllRef H T W B b t q * Cert.Labels.keep (T (ix3 b t q)) t (P (ix1 b)) := by
  have hi : idx_main_v18 (ix3 b t q) = ix4 b t q (0 : Fin 1) :=
    funext fun a => Fin.ext (by
      have hb := b.isLt; have ht := t.isLt; have hq := q.isLt
      match a with
      | ⟨0, _⟩ => show ((b.val * 512 + t.val) * 2 + q.val) / 1024 = b.val; omega
      | ⟨1, _⟩ => show ((b.val * 512 + t.val) * 2 + q.val) / 2 % 512 = t.val; omega
      | ⟨2, _⟩ => show ((b.val * 512 + t.val) * 2 + q.val) / 1 % 2 = q.val; omega
      | ⟨3, _⟩ => rfl)
  rw [val_main_v21_apply, val_main_v19_apply, val_main_v18_apply, hi, v17_apply, v20_apply, Ideal.mulf_def,
    Ideal.hostNegf_def, Ideal.negf_def]
  rfl

/-- THE REFERENCE'S VALUE: the program's last stage is the constant lossRef. -/
theorem val_eq : val_main_v25 (F := Ideal) H T P W B = fun _ => lossRef H T P W B := by
  funext i
  rw [val_main_v25_apply, val_main_v22_apply, val_main_v24_apply, val_main_v23_apply, val_main_cst_apply,
    val_main_cst_0_apply, val_main_cst_1_apply, Ideal.hostDivf_def, Ideal.maximumf_def, Ideal.ofBits_def,
    Ideal.ofBits_def]
  unfold lossRef
  have e1 : ∀ j : S4x512x2.Idx, val_main_v21 (F := Ideal) H T P W B j
      = nllRef H T W B (j 0) (j 1) (j 2) * Cert.Labels.keep (T j) (j 1) (P (ix1 (j 0))) := fun j => by
    have key : ∀ (b : Fin 4) (t : Fin 512) (q : Fin 2) (j' : S4x512x2.Idx), j' = ix3 b t q →
        val_main_v21 (F := Ideal) H T P W B j'
          = nllRef H T W B b t q * Cert.Labels.keep (T j') t (P (ix1 b)) := by
      intro b t q j' hj; subst hj; exact v21_apply H T P W B b t q
    exact key (j 0) (j 1) (j 2) j
      (funext fun a => by match a with | ⟨0, _⟩ => rfl | ⟨1, _⟩ => rfl | ⟨2, _⟩ => rfl)
  have e2 : ∀ j : S4x512x2.Idx, val_main_v20 (F := Ideal) T P j
      = Cert.Labels.keep (T j) (j 1) (P (ix1 (j 0))) := fun j => by
    have key : ∀ (b : Fin 4) (t : Fin 512) (q : Fin 2) (j' : S4x512x2.Idx), j' = ix3 b t q →
        val_main_v20 (F := Ideal) T P j' = Cert.Labels.keep (T j') t (P (ix1 b)) := by
      intro b t q j' hj; subst hj; exact v20_apply T P b t q
    exact key (j 0) (j 1) (j 2) j
      (funext fun a => by match a with | ⟨0, _⟩ => rfl | ⟨1, _⟩ => rfl | ⟨2, _⟩ => rfl)
  rw [Finset.sum_congr rfl fun j _ => e1 j, Finset.sum_congr rfl fun j _ => e2 j]

end Stages

end Cert.ReferenceIdeal.RefValue

end
-- ==== Proof.Finite.lean ====
/-
  The precondition makes every float input a real.

  The precondition is the conjunction of three tests "every entry's absolute value is below plus infinity", one each
  for the hidden states, the weights and the bias. Over the extended reals the absolute value of x is max x (-x),
  which is plus infinity at both infinities, so an entry that passes the test is a real.
-/
import proofs.«148193_j6347961663553_2_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.SL.Sem

instance : Subsingleton Cert.Pre_finite_inputs.S_.Idx := ⟨fun a b => funext fun d => d.elim0⟩

/-- The pattern of plus infinity denotes the top element. -/
theorem ofBits_pos_inf : Ideal.ofBits .f32 0x7F800000#32 = (⊤ : EReal) := by
  simp [Ideal.ofBits, Ideal.ieee]

/-- An extended real whose absolute value compares below plus infinity is a real. -/
theorem real_of_abs_lt (x : EReal)
    (h : Ideal.cmp .olt (max x (-x)) (Ideal.ofBits .f32 0x7F800000#32) = 1#1) : ∃ r : ℝ, x = (r : EReal) := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

/-- Over variables: when the printed predicate is all ones, every entry of the three float inputs is a real. -/
theorem real_of_pre [Cert.Pre_finite_inputs.Facts]
    (H : FVec Ideal Cert.Pre_finite_inputs.S4x512x2x1024 .f32) (T : IVec Cert.Pre_finite_inputs.S4x512x2 32)
    (P : IVec Cert.Pre_finite_inputs.S4 32) (W : FVec Ideal Cert.Pre_finite_inputs.S32000x1024 .f32)
    (B : FVec Ideal Cert.Pre_finite_inputs.S32000 .f32)
    (h : Cert.Pre_finite_inputs.fn (F := Ideal) H T P W B = fun _ => 1#1) :
    (∀ i, ∃ x : ℝ, H i = (x : EReal)) ∧ (∀ i, ∃ x : ℝ, W i = (x : EReal)) ∧ (∀ i, ∃ x : ℝ, B i = (x : EReal)) := by
  have h0 := congrFun h ValueIdx.ix0
  dsimp only [Cert.Pre_finite_inputs.fn] at h0
  obtain ⟨h01, h2⟩ := IntOp.andi_eq_one.1 h0
  obtain ⟨h00, h1⟩ := IntOp.andi_eq_one.1 h01
  refine ⟨fun i => ?_, fun i => ?_, fun i => ?_⟩
  · exact real_of_abs_lt _ (Host.reduce_andi_all _ _ _ _ _ h00 i)
  · exact real_of_abs_lt _ (Host.reduce_andi_all _ _ _ _ _ h1 i)
  · exact real_of_abs_lt _ (Host.reduce_andi_all _ _ _ _ _ h2 i)

/-! ## At the kernel's launch memory -/

section AtMemory

variable [Cert.Pre_finite_inputs.Facts]
  (m : (ℓ : Loc Cert.KernelIdeal.nD Cert.KernelIdeal.τ Cert.KernelIdeal.sig) → Buf (Elt Ideal) ℓ)
  (hpre : Cert.Pre_KernelIdeal m) (c : Dev Cert.KernelIdeal.nD)

include hpre

/-- Every hidden state is a real. -/
theorem hidden_real : ∀ i : Cert.KernelIdeal.S4x512x2x1024.Idx, ∃ x : ℝ,
    m ((c.tc : Thread Cert.KernelIdeal.nD Cert.KernelIdeal.τ).loc Cert.KernelIdeal.main_arg0) i = (x : EReal) :=
  (real_of_pre _ _ _ _ _ (hpre c)).1

/-- Every weight is a real. -/
theorem weight_real : ∀ i : Cert.KernelIdeal.S32000x1024.Idx, ∃ x : ℝ,
    m ((c.tc : Thread Cert.KernelIdeal.nD Cert.KernelIdeal.τ).loc Cert.KernelIdeal.main_arg3) i = (x : EReal) :=
  (real_of_pre _ _ _ _ _ (hpre c)).2.1

/-- Every bias entry is a real. -/
theorem bias_real : ∀ i : Cert.KernelIdeal.S32000.Idx, ∃ x : ℝ,
    m ((c.tc : Thread Cert.KernelIdeal.nD Cert.KernelIdeal.τ).loc Cert.KernelIdeal.main_arg4) i = (x : EReal) :=
  (real_of_pre _ _ _ _ _ (hpre c)).2.2

end AtMemory

end Cert.Finite

end
-- ==== Proof.lean ====
/-
  A fused linear layer and cross-entropy loss against its plain reference, over the extended reals.

  Both programs compute, for each of the 4096 rows (batch entry, time step, head), the logits of the row against the
  32000 classes, `hidden · Wᵀ + b`; the row's loss, its log-sum-exp over the classes minus its logit at its label; and
  the mean of the losses over the rows that count (label not the padding label, time step past the sequence's prefix),
  the sum of the weighted losses divided by the larger of the number of such rows and one.

  The reference forms all logits at once and applies a log-softmax. The kernel never holds a row's logits together: it
  walks the classes 1280 at a time, keeping per row a running maximum and a running sum of exponentials rescaled to the
  current maximum, and gathers each row's logit at its label separately, on the host, before the kernel runs. Over the
  extended reals the streaming maximum and sum are the whole row's (every logit is a real, the inputs being finite),
  `(max + log sum) - logit` is `-((logit - max) - log sum)`, and regrouping the rows' sum tile by tile changes nothing.
  A label has no stated range. Both programs read it as a position the same way, test the position the same way, and
  put a not-a-number — the bottom element here — where the test fails; the row's loss is then the top element on both
  sides (the kernel's target logit ends in `… + ⊥ = ⊥`, and a real minus `⊥` is `⊤`; the reference negates `⊥`), so
  the two results agree for every label and no range is assumed.

  The three frames are the generated ones (the reference's: its run with the result dropped); the idealization rewrote
  nothing, so `preserves` is `True`.
-/
import proofs.«148193_j6347961663553_2_alg».proof.Defs
import proofs.«148193_j6347961663553_2_alg».proof.Proof.Gen.Kernel
import proofs.«148193_j6347961663553_2_alg».proof.Proof.Gen.Kernel.Skeleton
import proofs.«148193_j6347961663553_2_alg».proof.Proof.Gen.Kernel.Launch
import proofs.«148193_j6347961663553_2_alg».proof.Proof.Gen.Kernel.Points
import proofs.«148193_j6347961663553_2_alg».proof.Proof.Gen.Kernel.Frame
import proofs.«148193_j6347961663553_2_alg».proof.Proof.Gen.KernelIdeal
import proofs.«148193_j6347961663553_2_alg».proof.Proof.Gen.KernelIdeal.Skeleton
import proofs.«148193_j6347961663553_2_alg».proof.Proof.Gen.KernelIdeal.Launch
import proofs.«148193_j6347961663553_2_alg».proof.Proof.Gen.KernelIdeal.Points
import proofs.«148193_j6347961663553_2_alg».proof.Proof.Gen.KernelIdeal.Frame
import proofs.«148193_j6347961663553_2_alg».proof.Proof.Gen.ReferenceIdeal
import proofs.«148193_j6347961663553_2_alg».proof.Proof.Gen.Pre_finite_inputs
import proofs.«148193_j6347961663553_2_alg».proof.Proof.KernelRun
import proofs.«148193_j6347961663553_2_alg».proof.Proof.Join
import proofs.«148193_j6347961663553_2_alg».proof.Proof.RefValue
import proofs.«148193_j6347961663553_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.HostRun.run m ρ)

theorem preserves : Cert.preserves_Kernel_KernelIdeal := trivial

/-- From memories that agree on the five arguments both programs end with the same loss: the kernel's result buffer
    holds the mean of the two arrays its region leaves, the reference's the composed term of its 65 operations, and
    both are the masked mean of the rows' losses. -/
theorem algebraic : Cert.algebraic_KernelIdeal_ReferenceIdeal := by
  intro m ρ m' ρ' hpre hagree
  refine ⟨fun c => Cert.KernelIdeal.Tail.mean (Cert.KernelIdeal.Grid.lossArr m c) (Cert.KernelIdeal.Grid.weightsArr m c),
    Cert.KernelIdeal.Grid.run m ρ, ?_⟩
  refine (θ_run Cert.ReferenceIdeal.defs _ _).mono (fun _ h c => ⟨(h c).1.trans ?_, (h c).2⟩)
    (Cert.ReferenceIdeal.HostRun.run m' ρ')
  rw [Cert.ReferenceIdeal.ReadP.val_main_v25_eq, (hagree c).1, (hagree c).2.1, (hagree c).2.2.1, (hagree c).2.2.2.1,
    (hagree c).2.2.2.2, Cert.ReferenceIdeal.RefValue.val_eq]
  exact (Cert.Join.kernel_loss m c (Cert.Finite.hidden_real m hpre c) (Cert.Finite.weight_real m hpre c)
    (Cert.Finite.bias_real m hpre c)).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
